-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S256x1024 : Shape := ⟨2, ![256, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S256x1024 .f32) (main_arg2 : FVec F S256x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S256x1024 : Shape := ⟨2, ![256, 1024]⟩
abbrev S1024x1024 : Shape := ⟨2, ![1024, 1024]⟩
abbrev S4x2048x256 : Shape := ⟨3, ![4, 2048, 256]⟩
abbrev S1x1024x1024 : Shape := ⟨3, ![1, 1024, 1024]⟩
abbrev S1x1024x256 : Shape := ⟨3, ![1, 1024, 256]⟩
abbrev S1024x256 : Shape := ⟨2, ![1024, 256]⟩
abbrev S1x512x256 : Shape := ⟨3, ![1, 512, 256]⟩
abbrev S1x512x1024 : Shape := ⟨3, ![1, 512, 1024]⟩
abbrev S1024x1 : Shape := ⟨2, ![1024, 1]⟩
abbrev S512x256 : Shape := ⟨2, ![512, 256]⟩
abbrev S1024x512 : Shape := ⟨2, ![1024, 512]⟩
abbrev S1024 : Shape := ⟨1, ![1024]⟩
abbrev S512x1024 : Shape := ⟨2, ![512, 1024]⟩

abbrev nBuf : Space → Nat
  | .hbm => 9
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S4x2048x256, .bf16⟩
  | .hbm, ⟨5, _⟩ => ⟨S4x2048x256, .bf16⟩
  | .hbm, ⟨6, _⟩ => ⟨S4x2048x1024, .bf16⟩
  | .hbm, ⟨7, _⟩ => ⟨S1024x1024, .bf16⟩
  | .hbm, ⟨8, _⟩ => ⟨S4x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S256x1024, .f32⟩
  | .local _ .vmem, ⟨3, _⟩ => ⟨S256x1024, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x1024, .bf16⟩
  | .local _ .vmem, ⟨15, _⟩ => ⟨S1x512x1024, .bf16⟩
  | .local _ .vmem, ⟨16, _⟩ => ⟨S1024x1024, .bf16⟩
  | .local _ .vmem, ⟨17, _⟩ => ⟨S1x1024x1024, .f32⟩
  | .local _ .vmem, ⟨18, _⟩ => ⟨S1x1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v41 : BitVec 1 := Scalar.cmpi .eq arg2 c3_i32
  let v42 : BitVec 32 := Scalar.extui v41
  let c0_i32_25 : BitVec 32 := 0#32
  let v43 : BitVec 1 := Scalar.cmpi .ne v42 c0_i32_25
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S1024x512_S1024 : S1024x512.Reduces [1] S1024
  shapeCasts_S1024_S1024x1 : S1024.ShapeCasts S1024x1
  broadcasts_S1024x1_S1024x512 : S1024x1.Broadcasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1024x1_S1024x1024 : S1024x1.Broadcasts S1024x1024
  dot_S1024x1024_S256x1024_S1024x256_1_1_0_0_n_n_wf : DotDims.WF S1024x1024 S256x1024 S1024x256 [1] [1] [0] [0] [] []
  dot_S1024x256_S512x256_S1024x512_1_1_0_0_n_n_wf : DotDims.WF S1024x256 S512x256 S1024x512 [1] [1] [0] [0] [] []
  dot_S1024x512_S512x1024_S1024x1024_1_0_0_1_n_n_wf : DotDims.WF S1024x512 S512x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .f32 = 32 ∨ (Rect.block (s := S4x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S4x2048x256.size a
  hwx0_3 : ∀ i : grid0.Coords, EltTy.bits .bf16 = 32 ∨ (Rect.block (s := S4x2048x256) S1x1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S4x2048x256.size a
  hwx0_4 : ∀ i : grid0.Coords, EltTy.bits .bf16 = 32 ∨ (Rect.block (s := S4x2048x256) S1x1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x2048x1024.size a
  hwx0_5 : ∀ i : grid0.Coords, EltTy.bits .bf16 = 32 ∨ (Rect.block (s := S4x2048x1024) S1x1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x2048x256.size a
  hwx1_0 : ∀ i : grid1.Coords, EltTy.bits .bf16 = 32 ∨ (Rect.block (s := S4x2048x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S4x2048x256.size a
  hwx1_1 : ∀ i : grid1.Coords, EltTy.bits .bf16 = 32 ∨ (Rect.block (s := S4x2048x256) S1x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x2048x1024.size a
  hwx1_4 : ∀ i : grid1.Coords, EltTy.bits .f32 = 32 ∨ (Rect.block (s := S4x2048x1024) S1x1024x1024.size (cc1_transform_4 i) (hinb1_4 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S256x1024 : Shape := ⟨2, ![256, 1024]⟩
abbrev S1024x1024 : Shape := ⟨2, ![1024, 1024]⟩
abbrev S4x2048x256 : Shape := ⟨3, ![4, 2048, 256]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S4x2048x256, .f32⟩
  | .hbm, ⟨5, _⟩ => ⟨S4x2048x256, .f32⟩
  | .hbm, ⟨6, _⟩ => ⟨S4x2048x2048, .f32⟩
  | .hbm, ⟨7, _⟩ => ⟨S_, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x1024, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S256x1024_S4x2048x256_2_1_01_0_n_n_wf : DotDims.WF S4x2048x1024 S256x1024 S4x2048x256 [2] [1] [0, 1] [0] [] []
  dot_S4x2048x256_S4x2048x256_S4x2048x2048_2_2_1_1_0_0_wf : DotDims.WF S4x2048x256 S4x2048x256 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S1024x1024_S4x2048x1024_2_1_01_0_n_n_wf : DotDims.WF S4x2048x1024 S1024x1024 S4x2048x1024 [2] [1] [0, 1] [0] [] []

variable [Facts₀]

def dot_S4x2048x1024_S256x1024_S4x2048x256_2_1_01_0_n_n : DotDims S4x2048x1024 S256x1024 S4x2048x256 where
  lhsContracting := [2]
  rhsContracting := [1]
  lhsNonContracting := [0, 1]
  rhsNonContracting := [0]
  lhsBatch := []
  rhsBatch := []
  wf := dot_S4x2048x1024_S256x1024_S4x2048x256_2_1_01_0_n_n_wf
def dot_S4x2048x256_S4x2048x256_S4x2048x2048_2_2_1_1_0_0 : DotDims S4x2048x256 S4x2048x256 S4x2048x2048 where
  lhsContracting := [2]
  rhsContracting := [2]
  lhsNonContracting := [1]
  rhsNonContracting := [1]
  lhsBatch := [0]
  rhsBatch := [0]
  wf := dot_S4x2048x256_S4x2048x256_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Word.Body0.lean ====
/-
  The projection kernel (the first of the two kernel regions) at one grid point, on any staging buffers.

  At grid point (b, si) the body reads the point's 1024 rows of `q` and the two weight matrices whole, and stores
  three blocks whole: the rows projected by `Wq`, the rows projected by `Wk`, and the rows themselves (each after a
  change of float format). It reads nothing it wrote and keeps nothing between points, so what each output buffer
  holds after the body is one function of the input blocks (`projOutQ`, `projOutK`, `projOutRows`), and the proof data
  of the region say exactly that at every point. The loads of the output buffers that precede the stores are dead:
  their values reach no store.
-/
import proofs.«126484_j54142357733578_2_alg».proof.Proof.Gen.Kernel.Launch
import proofs.«126484_j54142357733578_2_alg».proof.Proof.Gen.Kernel.Skeleton
import proofs.«126484_j54142357733578_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer accesses -/

abbrev rRows : Rect S1x1024x1024 := Rect.unit (s := S1x1024x1024) ![0, 0, 0] S1x1024x1024.size inb_S1x1024x1024_S1x1024x1024_0_0_0
abbrev rWeight : Rect S256x1024 := Rect.unit (s := S256x1024) ![0, 0] S256x1024.size inb_S256x1024_S256x1024_0_0
abbrev rProj : Rect S1x1024x256 := Rect.unit (s := S1x1024x256) ![0, 0, 0] S1x1024x256.size inb_S1x1024x256_S1x1024x256_0_0_0

/-! ## What the body leaves in each output buffer -/

/-- The rows projected by the first weight matrix: the one whole-buffer store, as a piece. -/
def projOutQ (x0 : Vec F S1x1024x1024 .f32) (x1 : Vec F S256x1024 .f32) : Vec F S1x1024x256 .bf16 :=
  View.canon [⟨rProj, k0_pay2 (View.ld x0 rRows) (View.ld x1 rWeight)⟩]
/-- The rows projected by the second weight matrix. -/
def projOutK (x0 : Vec F S1x1024x1024 .f32) (x2 : Vec F S256x1024 .f32) : Vec F S1x1024x256 .bf16 :=
  View.canon [⟨rProj, k0_pay3 (View.ld x0 rRows) (View.ld x2 rWeight)⟩]
/-- The rows themselves, in the narrower format. -/
def projOutRows (x0 : Vec F S1x1024x1024 .f32) : Vec F S1x1024x1024 .bf16 :=
  View.canon [⟨rRows, k0_pay4 (View.ld x0 rRows)⟩]

theorem coverProj (p0 : Vec F S1x1024x256 .bf16) (y : S1x1024x256.Idx) :
    ∃ pc ∈ ([⟨rProj, p0⟩] : List (View.Piece (Elt F) S1x1024x256 .bf16)), y ∈ pc.1.set :=
  View.cover_of_tiled [⟨rProj, p0⟩] S1x1024x256.size (by rfl) y
theorem coverRows (p0 : Vec F S1x1024x1024 .bf16) (y : S1x1024x1024.Idx) :
    ∃ pc ∈ ([⟨rRows, p0⟩] : List (View.Piece (Elt F) S1x1024x1024 .bf16)), y ∈ pc.1.set :=
  View.cover_of_tiled [⟨rRows, p0⟩] S1x1024x1024.size (by rfl) y

/-! ## The body's triple -/

set_option maxHeartbeats 4000000 in
/-- On whole staging buffers, the inputs' at contents `x0 x1 x2` and the outputs' at anything, the body runs to the
    continuation holding the inputs' as they were and each output's at its function of the inputs'. -/
theorem sound_kernel0 (c : Dev nD) (E : Set ℕ) (i : grid0.Coords)
    (arg2 : Memref sig .tc .vmem S1x1024x1024 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S1x1024x256 .bf16) (harg5 : arg5.IsWhole)
    (arg6 : Memref sig .tc .vmem S1x1024x256 .bf16) (harg6 : arg6.IsWhole) (arg7 : Memref sig .tc .vmem S1x1024x1024 .bf16) (harg7 : arg7.IsWhole)
    (x0 : Vec F S1x1024x1024 .f32) (x1 x2 : Vec F S256x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projOutQ x0 x1) ∗ owns (c : Thread nD τ) arg6 fullShare (projOutK x0 x2)
            ∗ owns (c : Thread nD τ) arg7 fullShare (projOutRows x0)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverProj _)
  isplitl [H4]
  · iexists _; isplitr
    swap; · iexact H4
    ipureintro
    exact View.read_writes_eq_canon _ _ _ (coverProj _)
  iexists _; isplitr
  swap; · iexact H5
  ipureintro
  exact View.read_writes_eq_canon _ _ _ (coverRows _)

/-! ## The region's proof data -/

/-- The arrays as the region finds them; after the body at point `t` each input's buffer at its block and each
    output's at its function of the input blocks; the scoped rest and the generator register pass through; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => projOutQ (iblk0 V c 0 t) (iblk0 V c 1 t)
    | ⟨4, _⟩ => projOutK (iblk0 V c 0 t) (iblk0 V c 2 t)
    | ⟨5, _⟩ => projOutRows (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = projOutQ (iblk0 V c 0 t) (iblk0 V c 1 t) := by dsimp only [dat0]
theorem after0_4 (c : Dev nD) (t : Fin cfg0.N) : (dat0 V c).after 4 t = projOutK (iblk0 V c 0 t) (iblk0 V c 2 t) := by dsimp only [dat0]
theorem after0_5 (c : Dev nD) (t : Fin cfg0.N) : (dat0 V c).after 5 t = projOutRows (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.Word.Body1Shared.lean ====
/-
  The attention kernel (the second kernel region): what its three control cases share.

  The grid is (batch, query tile, key tile) = 4 × 2 × 4, visited with the key tile fastest. The body branches twice on
  the key-tile coordinate alone: at key tile 0 it first resets the three scratch buffers (running maximum, running
  denominator, running numerator), and at key tile 3 it finally divides, projects and stores the output block. So a
  grid point is in one of three cases, by its position modulo 4: the first key tile (reset, no output), a middle key
  tile (neither), the last key tile (output). The output window is idle — its buffer untouched and not written back —
  at every point but the last key tile's. Here: the windows' blocks as the region finds them, the two conditions in
  closed form over the grid, where the output window is idle, and the scratch buffers as whole memrefs.
-/
import proofs.«126484_j54142357733578_2_alg».proof.Proof.Gen.Kernel.Launch
import proofs.«126484_j54142357733578_2_alg».proof.Proof.Gen.Kernel.Skeleton
import proofs.«126484_j54142357733578_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions, from the grid coordinates -/

/-- "This is the first key tile": the condition of the reset branch. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the condition of the output branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1x1024x1024 .f32 := (Memref.whole cc1_stg4_0 : Memref sig .tc .vmem S1x1024x1024 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The three scratch buffers: running maximum, running denominator, running numerator. -/
abbrev scMax : Memref sig .tc .vmem S1024x1 .f32 := Memref.whole cc1_scratch0
abbrev scDen : Memref sig .tc .vmem S1024x1 .f32 := Memref.whole cc1_scratch1
abbrev scNum : Memref sig .tc .vmem S1024x1024 .f32 := Memref.whole cc1_scratch2
abbrev VSMax : View sig .tc .vmem S1024x1 .f32 := scMax.view
abbrev VSDen : View sig .tc .vmem S1024x1 .f32 := scDen.view
abbrev VSNum : View sig .tc .vmem S1024x1024 .f32 := scNum.view

/-- What the region hands the body beside the windows: the three scratch buffers at some contents (the other scoped
    buffers are the first region's staging buffers, which this body never names) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
          ∗ (∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest1_eq]; simp only [scMax, scDen, scNum, owns_whole]; try rfl

end Cert.Kernel.Gen

end
-- ==== Proof.Word.Body1RunA.lean ====
/-
  The attention body at a point of the FIRST key tile: the reset branch is taken, the output branch is not. The scratch
  buffers come in at anything (the reset overwrites them) and leave holding the state after this key tile.
-/
import proofs.«126484_j54142357733578_2_alg».proof.Proof.Word.Body1Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three scratch buffers (last store first), with
    the proof that on whole buffers — the four inputs' at their contents, the output's at any contents `d4`, which it keeps (nothing is stored into it at this point), the scratch
    buffers at anything — the body runs to the continuation holding the inputs' as they were and each written
    buffer with its pieces written. The pieces are what the symbolic run of the body finds. -/
noncomputable def kernelRun1_A (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x256 .bf16) (x1 : Vec F S1x512x256 .bf16) (x2 : Vec F S1x512x1024 .bf16) (x3 : Vec F S1024x1024 .bf16) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (d4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare d4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare d4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, ?_, fun d4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists f4; isplitr; · ipureintro; exact hf4
      iexact H4
    isplitl [HS0]; · iexists _; iexact HS0
    isplitl [HS1]; · iexists _; iexact HS1
    iexists _; iexact HS2

end Cert.Kernel.Gen

end
-- ==== Proof.Word.Body1RunB.lean ====
/-
  The attention body at a point of a MIDDLE key tile: neither branch is taken. The scratch buffers come in holding the
  state the point before left and leave holding the state after this key tile; nothing is stored into the output.
-/
import proofs.«126484_j54142357733578_2_alg».proof.Proof.Word.Body1Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three scratch buffers (last store first), with
    the proof that on whole buffers — the four inputs' at their contents, the output's at any contents `d4`, which it keeps (nothing is stored into it at this point), the scratch
    buffers at the contents the point before left — the body runs to the continuation holding the inputs' as they were and each written
    buffer with its pieces written. The pieces are what the symbolic run of the body finds. -/
noncomputable def kernelRun1_B (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x256 .bf16) (x1 : Vec F S1x512x256 .bf16) (x2 : Vec F S1x512x1024 .bf16) (x3 : Vec F S1024x1024 .bf16) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (d4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare d4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare d4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, ?_, fun d4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists f4; isplitr; · ipureintro; exact hf4
      iexact H4
    isplitl [HS0]; · iexists _; iexact HS0
    isplitl [HS1]; · iexists _; iexact HS1
    iexists _; iexact HS2

end Cert.Kernel.Gen

end
-- ==== Proof.Word.Body1RunC.lean ====
/-
  The attention body at a point of the LAST key tile: the reset branch is not taken, the output branch is. The scratch
  buffers come in holding the state the point before left; after the update the quotient of numerator by denominator
  is projected and stored into the output buffer.
-/
import proofs.«126484_j54142357733578_2_alg».proof.Proof.Word.Body1Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three scratch buffers (last store first), with
    the proof that on whole buffers — the four inputs' at their contents, the output's at anything, the scratch
    buffers at the contents the point before left — the body runs to the continuation holding the inputs' as they were and each written
    buffer with its pieces written. The pieces are what the symbolic run of the body finds. -/
noncomputable def kernelRun1_C (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x256 .bf16) (x1 : Vec F S1x512x256 .bf16) (x2 : Vec F S1x512x1024 .bf16) (x3 : Vec F S1024x1024 .bf16) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Gen

end
-- ==== Proof.Word.Body1.lean ====
/-
  The attention kernel region: what its buffers hold point by point, and the body obligation.

  After the body at a grid point the output buffer and the three scratch buffers (running maximum, denominator,
  numerator) hold what the point's case stored, read back; the scratch a middle or last key tile starts from is what
  the point before left, so these contents are defined by recursion on the point (`outsAt1`). The region's invariant
  carries the scratch between points at exactly those contents (before the first point: at anything), beside the
  scoped buffers the body never names and the generator register. The output window is written back only at the last
  key tile of each (batch, query tile), where the body has just stored the whole block.
-/
import proofs.«126484_j54142357733578_2_alg».proof.Proof.Word.Body1RunA
import proofs.«126484_j54142357733578_2_alg».proof.Proof.Word.Body1RunB
import proofs.«126484_j54142357733578_2_alg».proof.Proof.Word.Body1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The four buffers' contents from the pieces stored into them, read back over placeholder contents. -/
def outsOf (L4 : List (View.Piece (Elt F) S1x1024x1024 .f32)) (LS0 LS1 : List (View.Piece (Elt F) S1024x1 .f32))
    (LS2 : List (View.Piece (Elt F) S1024x1024 .f32)) : Vec F S1x1024x1024 .f32 × Vec F S1024x1 .f32 × Vec F S1024x1 .f32 × Vec F S1024x1024 .f32 :=
  (VO1_4.read (Elt F) (VO1_4.writes (Elt F) VO1_4.junk L4), VSMax.read (Elt F) (VSMax.writes (Elt F) VSMax.junk LS0),
   VSDen.read (Elt F) (VSDen.writes (Elt F) VSDen.junk LS1), VSNum.read (Elt F) (VSNum.writes (Elt F) VSNum.junk LS2))

/-- The body's run at point `t`, per case, on the point's staging buffers and input blocks. -/
def runA_at (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hcond1_0 t).mpr h0) (fun h => h1 ((hcond1_1 t).mp h)) (iblk1 V c 0 t) (iblk1 V c 1 t) (iblk1 V c 2 t) (iblk1 V c 3 t)
def runB_at (c : Dev nD) (t : Fin cfg1.N) (h0 : ¬t.val % 4 = 0) (h1 : ¬t.val % 4 = 3) (xs0 xs1 : Vec F S1024x1 .f32) (xs2 : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hcond1_0 t).mp h)) (fun h => h1 ((hcond1_1 t).mp h)) (iblk1 V c 0 t) (iblk1 V c 1 t) (iblk1 V c 2 t) (iblk1 V c 3 t) xs0 xs1 xs2
def runC_at (c : Dev nD) (t : Fin cfg1.N) (h0 : ¬t.val % 4 = 0) (h1 : t.val % 4 = 3) (xs0 xs1 : Vec F S1024x1 .f32) (xs2 : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hcond1_0 t).mp h)) ((hcond1_1 t).mpr h1) (iblk1 V c 0 t) (iblk1 V c 1 t) (iblk1 V c 2 t) (iblk1 V c 3 t) xs0 xs1 xs2

/-! ## Each case's stores cover the buffers they are read back from -/

theorem scover1_A_0 (c : Dev nD) (t : Fin cfg1.N) (h0 : t.val % 4 = 0) (h1 : ¬t.val % 4 = 3) (y : S1024x1.Idx) :
    ∃ pc ∈ (runA_at V c t h0 h1).2.1, y ∈ pc.1.set := View.cover_of_tiledL (runA_at V c t h0 h1).2.1 S1024x1.size (by sl_kernel_rfl) y
theorem scover1_A_1 (c : Dev nD) (t : Fin cfg1.N) (h0 : t.val % 4 = 0) (h1 : ¬t.val % 4 = 3) (y : S1024x1.Idx) :
    ∃ pc ∈ (runA_at V c t h0 h1).2.2.1, y ∈ pc.1.set := View.cover_of_tiledL (runA_at V c t h0 h1).2.2.1 S1024x1.size (by sl_kernel_rfl) y
theorem scover1_A_2 (c : Dev nD) (t : Fin cfg1.N) (h0 : t.val % 4 = 0) (h1 : ¬t.val % 4 = 3) (y : S1024x1024.Idx) :
    ∃ pc ∈ (runA_at V c t h0 h1).2.2.2.1, y ∈ pc.1.set := View.cover_of_tiledL (runA_at V c t h0 h1).2.2.2.1 S1024x1024.size (by sl_kernel_rfl) y
theorem scover1_B_0 (c : Dev nD) (t : Fin cfg1.N) (h0 : ¬t.val % 4 = 0) (h1 : ¬t.val % 4 = 3) (xs0 xs1 : Vec F S1024x1 .f32) (xs2 : Vec F S1024x1024 .f32) (y : S1024x1.Idx) :
    ∃ pc ∈ (runB_at V c t h0 h1 xs0 xs1 xs2).2.1, y ∈ pc.1.set := View.cover_of_tiledL (runB_at V c t h0 h1 xs0 xs1 xs2).2.1 S1024x1.size (by sl_kernel_rfl) y
theorem scover1_B_1 (c : Dev nD) (t : Fin cfg1.N) (h0 : ¬t.val % 4 = 0) (h1 : ¬t.val % 4 = 3) (xs0 xs1 : Vec F S1024x1 .f32) (xs2 : Vec F S1024x1024 .f32) (y : S1024x1.Idx) :
    ∃ pc ∈ (runB_at V c t h0 h1 xs0 xs1 xs2).2.2.1, y ∈ pc.1.set := View.cover_of_tiledL (runB_at V c t h0 h1 xs0 xs1 xs2).2.2.1 S1024x1.size (by sl_kernel_rfl) y
theorem scover1_B_2 (c : Dev nD) (t : Fin cfg1.N) (h0 : ¬t.val % 4 = 0) (h1 : ¬t.val % 4 = 3) (xs0 xs1 : Vec F S1024x1 .f32) (xs2 : Vec F S1024x1024 .f32) (y : S1024x1024.Idx) :
    ∃ pc ∈ (runB_at V c t h0 h1 xs0 xs1 xs2).2.2.2.1, y ∈ pc.1.set := View.cover_of_tiledL (runB_at V c t h0 h1 xs0 xs1 xs2).2.2.2.1 S1024x1024.size (by sl_kernel_rfl) y
theorem scover1_C_0 (c : Dev nD) (t : Fin cfg1.N) (h0 : ¬t.val % 4 = 0) (h1 : t.val % 4 = 3) (xs0 xs1 : Vec F S1024x1 .f32) (xs2 : Vec F S1024x1024 .f32) (y : S1024x1.Idx) :
    ∃ pc ∈ (runC_at V c t h0 h1 xs0 xs1 xs2).2.1, y ∈ pc.1.set := View.cover_of_tiledL (runC_at V c t h0 h1 xs0 xs1 xs2).2.1 S1024x1.size (by sl_kernel_rfl) y
theorem scover1_C_1 (c : Dev nD) (t : Fin cfg1.N) (h0 : ¬t.val % 4 = 0) (h1 : t.val % 4 = 3) (xs0 xs1 : Vec F S1024x1 .f32) (xs2 : Vec F S1024x1024 .f32) (y : S1024x1.Idx) :
    ∃ pc ∈ (runC_at V c t h0 h1 xs0 xs1 xs2).2.2.1, y ∈ pc.1.set := View.cover_of_tiledL (runC_at V c t h0 h1 xs0 xs1 xs2).2.2.1 S1024x1.size (by sl_kernel_rfl) y
theorem scover1_C_2 (c : Dev nD) (t : Fin cfg1.N) (h0 : ¬t.val % 4 = 0) (h1 : t.val % 4 = 3) (xs0 xs1 : Vec F S1024x1 .f32) (xs2 : Vec F S1024x1024 .f32) (y : S1024x1024.Idx) :
    ∃ pc ∈ (runC_at V c t h0 h1 xs0 xs1 xs2).2.2.2.1, y ∈ pc.1.set := View.cover_of_tiledL (runC_at V c t h0 h1 xs0 xs1 xs2).2.2.2.1 S1024x1024.size (by sl_kernel_rfl) y
theorem cover1_C_4 (c : Dev nD) (t : Fin cfg1.N) (h0 : ¬t.val % 4 = 0) (h1 : t.val % 4 = 3) (xs0 xs1 : Vec F S1024x1 .f32) (xs2 : Vec F S1024x1024 .f32) (y : S1x1024x1024.Idx) :
    ∃ pc ∈ (runC_at V c t h0 h1 xs0 xs1 xs2).1, y ∈ pc.1.set := View.cover_of_tiledL (runC_at V c t h0 h1 xs0 xs1 xs2).1 S1x1024x1024.size (by sl_kernel_rfl) y

/-! ## What the buffers hold after each point -/

/-- After the body at position `n`: the output buffer, then the three scratch buffers — the point's case run on its input
    blocks, a middle or last key tile starting from the scratch the point before left. -/
def outsAt1 (c : Dev nD) : (n : ℕ) → n < cfg1.N → Vec F S1x1024x1024 .f32 × Vec F S1024x1 .f32 × Vec F S1024x1 .f32 × Vec F S1024x1024 .f32
  | 0, hn => outsOf (runA_at V c ⟨0, hn⟩ (Nat.zero_mod _) (by show ¬(0 % 4 = 3); decide)).1 (runA_at V c ⟨0, hn⟩ (Nat.zero_mod _) (by show ¬(0 % 4 = 3); decide)).2.1 (runA_at V c ⟨0, hn⟩ (Nat.zero_mod _) (by show ¬(0 % 4 = 3); decide)).2.2.1 (runA_at V c ⟨0, hn⟩ (Nat.zero_mod _) (by show ¬(0 % 4 = 3); decide)).2.2.2.1
  | n + 1, hn =>
    if h0 : (n + 1) % 4 = 0 then
      if h1 : (n + 1) % 4 = 3 then False.elim (by omega)
      else outsOf (runA_at V c ⟨n + 1, hn⟩ h0 h1).1 (runA_at V c ⟨n + 1, hn⟩ h0 h1).2.1 (runA_at V c ⟨n + 1, hn⟩ h0 h1).2.2.1 (runA_at V c ⟨n + 1, hn⟩ h0 h1).2.2.2.1
    else
      if h1 : (n + 1) % 4 = 3 then
        outsOf (runC_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).1
          (runC_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.1
          (runC_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.2.1
          (runC_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.2.2.1
      else
        outsOf (runB_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).1
          (runB_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.1
          (runB_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.2.1
          (runB_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.2.2.1

/-- The scratch the point before `t` left (for a point that is not the first). -/
abbrev prevAt (c : Dev nD) (t : Fin cfg1.N) : Vec F S1x1024x1024 .f32 × Vec F S1024x1 .f32 × Vec F S1024x1 .f32 × Vec F S1024x1024 .f32 := outsAt1 V c (t.val - 1) (Nat.lt_of_le_of_lt (Nat.sub_le _ _) t.isLt)

theorem outsAt1_A (c : Dev nD) (t : Fin cfg1.N) (h0 : t.val % 4 = 0) (h1 : ¬t.val % 4 = 3) :
    outsAt1 V c t.val t.isLt = outsOf (runA_at V c t h0 h1).1 (runA_at V c t h0 h1).2.1 (runA_at V c t h0 h1).2.2.1 (runA_at V c t h0 h1).2.2.2.1 := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = outsOf (runB_at V c t h0 h1 (prevAt V c t).2.1 (prevAt V c t).2.2.1 (prevAt V c t).2.2.2).1 (runB_at V c t h0 h1 (prevAt V c t).2.1 (prevAt V c t).2.2.1 (prevAt V c t).2.2.2).2.1 (runB_at V c t h0 h1 (prevAt V c t).2.1 (prevAt V c t).2.2.1 (prevAt V c t).2.2.2).2.2.1 (runB_at V c t h0 h1 (prevAt V c t).2.1 (prevAt V c t).2.2.1 (prevAt V c t).2.2.2).2.2.2.1 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = outsOf (runC_at V c t h0 h1 (prevAt V c t).2.1 (prevAt V c t).2.2.1 (prevAt V c t).2.2.2).1 (runC_at V c t h0 h1 (prevAt V c t).2.1 (prevAt V c t).2.2.1 (prevAt V c t).2.2.2).2.1 (runC_at V c t h0 h1 (prevAt V c t).2.1 (prevAt V c t).2.2.1 (prevAt V c t).2.2.2).2.2.1 (runC_at V c t h0 h1 (prevAt V c t).2.1 (prevAt V c t).2.2.1 (prevAt V c t).2.2.2).2.2.2.1 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- What rides through every point untouched: the first region's staging buffers and the generator register. -/
def restRing (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ r, prngReg c r))

theorem PhiA1_open (c : Dev nD) : (Pipeline.ΦA spec1 c : sProp 𝕄)
    ⊢ iprop(restRing (F := F) c ∗ (∃ d, owns (c : Thread nD τ) scMax fullShare d) ∗ (∃ d, owns (c : Thread nD τ) scDen fullShare d) ∗ (∃ d, owns (c : Thread nD τ) scNum fullShare d)) := by
  rw [PhiA1_eq]; unfold restRing
  iintro ⟨⟨Ha0, Ha1, Ha2, Ha3, Ha4, Ha5, Ha6, Ha7, Ha8, Ha9, HS0, HS1, HS2⟩, Hg⟩
  isplitl [Ha0 Ha1 Ha2 Ha3 Ha4 Ha5 Ha6 Ha7 Ha8 Ha9 Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    iexact Hg
  isplitl [HS0]; · iexact HS0
  isplitl [HS1]; · iexact HS1
  iexact HS2

theorem PhiA1_close (c : Dev nD) : iprop(restRing (F := F) c ∗ (∃ d, owns (c : Thread nD τ) scMax fullShare d) ∗ (∃ d, owns (c : Thread nD τ) scDen fullShare d) ∗ (∃ d, owns (c : Thread nD τ) scNum fullShare d))
    ⊢ (Pipeline.ΦA spec1 c : sProp 𝕄) := by
  rw [PhiA1_eq]; unfold restRing
  iintro ⟨⟨Ha0, Ha1, Ha2, Ha3, Ha4, Ha5, Ha6, Ha7, Ha8, Ha9, Hg⟩, HS0, HS1, HS2⟩
  isplitl [Ha0 Ha1 Ha2 Ha3 Ha4 Ha5 Ha6 Ha7 Ha8 Ha9 HS0 HS1 HS2]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [HS0]; · iexact HS0
    isplitl [HS1]; · iexact HS1
    iexact HS2
  iexact Hg

/-- Before position `n`: at the first point the scratch at anything; afterwards at what the point before left. -/
def PhiS (c : Dev nD) : (n : ℕ) → n ≤ cfg1.N → sProp 𝕄
  | 0, _ => Pipeline.ΦA spec1 c
  | n + 1, hn => iprop(restRing c ∗ owns (c : Thread nD τ) scMax fullShare ((outsAt1 V c n hn).2.1)
      ∗ owns (c : Thread nD τ) scDen fullShare ((outsAt1 V c n hn).2.2.1) ∗ owns (c : Thread nD τ) scNum fullShare ((outsAt1 V c n hn).2.2.2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restRing c ∗ owns (c : Thread nD τ) scMax fullShare ((outsAt1 V c n hn).2.1)
      ∗ owns (c : Thread nD τ) scDen fullShare ((outsAt1 V c n hn).2.2.1) ∗ owns (c : Thread nD τ) scNum fullShare ((outsAt1 V c n hn).2.2.2)) := rfl
theorem PhiS_pos (c : Dev nD) (n : ℕ) (h : n ≤ cfg1.N) (hz : n ≠ 0) :
    PhiS V c n h = iprop(restRing c ∗ owns (c : Thread nD τ) scMax fullShare ((outsAt1 V c (n - 1) (by omega)).2.1)
      ∗ owns (c : Thread nD τ) scDen fullShare ((outsAt1 V c (n - 1) (by omega)).2.2.1) ∗ owns (c : Thread nD τ) scNum fullShare ((outsAt1 V c (n - 1) (by omega)).2.2.2)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 8000000 in
/-- The body at any point: the closed forms say which case the point is in; the invariant hands the body the scratch at
    what the point before left (at anything before the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 4 = 0
  · by_cases h1 : t.val % 4 = 3
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold outsOf; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA1_open (F := F) c) $$ HΦ
        icases HΦ' with ⟨HR, HS0, HS1, HS2⟩
        iapply ((runA_at V c t h0 h1).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2]
        · isplitl [HR]; · iexact HR
          isplitl [HS0]
          · unfold owns; iexists _; isplitr
            swap; · iexact HS0
            ipureintro; exact View.read_writes_of_cover _ _ _ _ _ (scover1_A_0 V c t _ _)
          isplitl [HS1]
          · unfold owns; iexists _; isplitr
            swap; · iexact HS1
            ipureintro; exact View.read_writes_of_cover _ _ _ _ _ (scover1_A_1 V c t _ _)
          unfold owns; iexists _; isplitr
          swap; · iexact HS2
          ipureintro; exact View.read_writes_of_cover _ _ _ _ _ (scover1_A_2 V c t _ _)
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨HR, HS0, HS1, HS2⟩, Ho, ⟨%d0, H0⟩, ⟨%d1, H1⟩, ⟨%d2, H2⟩, ⟨%d3, H3⟩, ⟨%d4, H4⟩⟩
        iapply ((runA_at V c t h0 h1).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HR HS0 HS1 HS2]
        · isplitl [HR]; · iexact HR
          isplitl [HS0]
          · unfold owns; iexists _; isplitr
            swap; · iexact HS0
            ipureintro; exact View.read_writes_of_cover _ _ _ _ _ (scover1_A_0 V c t _ _)
          isplitl [HS1]
          · unfold owns; iexists _; isplitr
            swap; · iexact HS1
            ipureintro; exact View.read_writes_of_cover _ _ _ _ _ (scover1_A_1 V c t _ _)
          unfold owns; iexists _; isplitr
          swap; · iexact HS2
          ipureintro; exact View.read_writes_of_cover _ _ _ _ _ (scover1_A_2 V c t _ _)
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold outsOf; (try dsimp only)
      rw [PhiS_castSucc V c t, PhiS_pos V c _ _ hz]
      iintro ⟨⟨HR, HS0, HS1, HS2⟩, Ho, ⟨%d0, H0⟩, ⟨%d1, H1⟩, ⟨%d2, H2⟩, ⟨%d3, H3⟩, ⟨%d4, H4⟩⟩
      iapply ((runC_at V c t h0 h1 _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HR HS0 HS1 HS2]
      · isplitl [HR]; · iexact HR
        isplitl [HS0]
        · unfold owns; iexists _; isplitr
          swap; · iexact HS0
          ipureintro; exact View.read_writes_of_cover _ _ _ _ _ (scover1_C_0 V c t _ _ _ _ _)
        isplitl [HS1]
        · unfold owns; iexists _; isplitr
          swap; · iexact HS1
          ipureintro; exact View.read_writes_of_cover _ _ _ _ _ (scover1_C_1 V c t _ _ _ _ _)
        unfold owns; iexists _; isplitr
        swap; · iexact HS2
        ipureintro; exact View.read_writes_of_cover _ _ _ _ _ (scover1_C_2 V c t _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 V c t _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold outsOf; (try dsimp only)
      rw [PhiS_castSucc V c t, PhiS_pos V c _ _ hz]
      iintro ⟨⟨HR, HS0, HS1, HS2⟩, Ho, ⟨%d0, H0⟩, ⟨%d1, H1⟩, ⟨%d2, H2⟩, ⟨%d3, H3⟩, ⟨%d4, H4⟩⟩
      iapply ((runB_at V c t h0 h1 _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HR HS0 HS1 HS2]
      · isplitl [HR]; · iexact HR
        isplitl [HS0]
        · unfold owns; iexists _; isplitr
          swap; · iexact HS0
          ipureintro; exact View.read_writes_of_cover _ _ _ _ _ (scover1_B_0 V c t _ _ _ _ _)
        isplitl [HS1]
        · unfold owns; iexists _; isplitr
          swap; · iexact HS1
          ipureintro; exact View.read_writes_of_cover _ _ _ _ _ (scover1_B_1 V c t _ _ _ _ _)
        unfold owns; iexists _; isplitr
        swap; · iexact HS2
        ipureintro; exact View.read_writes_of_cover _ _ _ _ _ (scover1_B_2 V c t _ _ _ _ _)
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ hne]
  iintro ⟨HR, HS0, HS1, HS2⟩
  iapply (PhiA1_close (F := F) c)
  isplitl [HR]; · iexact HR
  isplitl [HS0]; · iexists _; iexact HS0
  isplitl [HS1]; · iexists _; iexact HS1
  iexists _; iexact HS2

end Region1

end Cert.Kernel.Gen

end
-- ==== Proof.Word.Assembly.lean ====
/-
  The run of @main over its two kernel regions.

  @main is: the first kernel region (the projections), one host operation (a change of float format of the fourth
  argument), the second kernel region (the attention). This file follows the buffers through that run. The contents of
  every unscoped buffer are named at each boundary, as a fold from the launch memory: a kernel region leaves each of its
  windows' arrays at what its write-backs leave and every other buffer as it found it; the host operation leaves what
  `StableHlo.after` says. Each region is then a segment from one boundary's contents to the next, the host operation a
  segment between them, and the launch runs the three in order. What comes out: every execution of @main terminates
  without fault, at the end every unscoped buffer holds the last boundary's contents (`run_all`), the four arguments
  hold what they were launched with (`W3_main_arg0` … `W3_main_arg3`, `frame`), and the result array holds what the second
  region's write-backs leave (`W3_main_v2`).
-/
import proofs.«126484_j54142357733578_2_alg».proof.Proof.Word.Body0
import proofs.«126484_j54142357733578_2_alg».proof.Proof.Word.Body1

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch: the first region's entry. -/
abbrev W0 : Dev nD → Valuation τ sig (Elt F) := fun c b => (s₀ m ρ).mem ((c : Dev nD), b)
/-- The same read at the TensorCore's references (what the first region's proof data take). -/
abbrev U0 : (c : Dev nD) → (b : Ref sig .tc) → Buf (Elt F) ((c : Thread nD τ).loc b) := fun c b => W0 m ρ c b
/-- At the first region's exit: its arrays at what the pipeline leaves (the inputs as entered, each output's write-backs
    folded), every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (the first region's exit contents). -/
abbrev U1 : (c : Dev nD) → (b : Ref sig .tc) → Buf (Elt F) ((c : Thread nD τ).loc b) := fun c b => W1 m ρ c b
/-- At the first region's exit each of its arrays holds what the pipeline leaves (`hF0`) and every other buffer what it
    held at entry (`hrest0`). -/
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the host operation: the second region's entry. -/
abbrev W2 : Dev nD → Valuation τ sig (Elt F) := fun c => StableHlo.after hostOps1 (W1 m ρ c)
/-- The same read at the TensorCore's references (what the second region's proof data take). -/
abbrev U2 : (c : Dev nD) → (b : Ref sig .tc) → Buf (Elt F) ((c : Thread nD τ).loc b) := fun c b => W2 m ρ c b
/-- At the second region's exit, the end of @main: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the second region's exit contents). -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-! ### The arguments end as launched, and the result array holds the second region's output

    The first three arguments are the first region's input windows (an input window's array is left as entered); the
    fourth is no window of either region; the host operation writes none of them; the second region's windows are other
    arrays. -/

/-- The host operation writes no buffer but its own result. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((dat0 (U0 m ρ) c).arrAt_in 2 rfl _).trans (A_eq0 (U0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
/-- The result array is the second region's fifth window's: at the end it holds what that window's write-backs leave. -/
theorem W3_main_v2 (c : Dev nD) : W3 m ρ c (Proc.devRef .tc main_v2) = (dat1 (U2 m ρ) c).arrAt 4 cfg1.N :=
  W3_arr m ρ c 4

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host operation allocates no buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- THE FIRST REGION over the thread state: entered from every unscoped buffer at the launch contents, left at `W1`. Its
    arrays split out of the unscoped buffers and put back at the exit contents; the generator register into the
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W2`, left at `W3` (what the launch
    reads at the end). As the first, but its invariant carries the kernel's scratch between grid points: what the launch
    hands the region makes the invariant before the first point (`hin1`), and the invariant after the last point gives
    it back (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U2 m ρ) c).Φ 0 from rfl]
    iintro ⟨Hp, -, Hr⟩
    iapply (hin1 (U2 m ρ) c)
    unfold Pipeline.ΦA
    isplitl [Hr]; · iexact Hr
    iexact Hp
  hout c := by
    rw [Pipeline.ownSems0_none, show (pdats m ρ 1 c).Φ (Fin.last _) = (dat1 (U2 m ρ) c).Φ (Fin.last cfg1.N) from rfl]
    have ho := hout1 (U2 m ρ) c
    iintro H
    ihave H' := ho $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the first region, the host operation from `W1`, the second region. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Run

end
-- ==== Proof.Body0.lean ====
/-
  The projection kernel (the first of the two kernel regions) at one grid point, on any staging buffers.

  At grid point (b, si) the body reads the point's 1024 rows of `q` and the two weight matrices whole, and stores
  three blocks whole: the rows projected by `Wq`, the rows projected by `Wk`, and the rows themselves (each after a
  change of float format). It reads nothing it wrote and keeps nothing between points, so what each output buffer
  holds after the body is one function of the input blocks (`projOutQ`, `projOutK`, `projOutRows`), and the proof data
  of the region say exactly that at every point. The loads of the output buffers that precede the stores are dead:
  their values reach no store.
-/
import proofs.«126484_j54142357733578_2_alg».proof.Proof.Gen.KernelIdeal.Launch
import proofs.«126484_j54142357733578_2_alg».proof.Proof.Gen.KernelIdeal.Skeleton
import proofs.«126484_j54142357733578_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer accesses -/

abbrev rRows : Rect S1x1024x1024 := Rect.unit (s := S1x1024x1024) ![0, 0, 0] S1x1024x1024.size inb_S1x1024x1024_S1x1024x1024_0_0_0
abbrev rWeight : Rect S256x1024 := Rect.unit (s := S256x1024) ![0, 0] S256x1024.size inb_S256x1024_S256x1024_0_0
abbrev rProj : Rect S1x1024x256 := Rect.unit (s := S1x1024x256) ![0, 0, 0] S1x1024x256.size inb_S1x1024x256_S1x1024x256_0_0_0

/-! ## What the body leaves in each output buffer -/

/-- The rows projected by the first weight matrix: the one whole-buffer store, as a piece. -/
def projOutQ (x0 : Vec F S1x1024x1024 .f32) (x1 : Vec F S256x1024 .f32) : Vec F S1x1024x256 .bf16 :=
  View.canon [⟨rProj, k0_pay2 (View.ld x0 rRows) (View.ld x1 rWeight)⟩]
/-- The rows projected by the second weight matrix. -/
def projOutK (x0 : Vec F S1x1024x1024 .f32) (x2 : Vec F S256x1024 .f32) : Vec F S1x1024x256 .bf16 :=
  View.canon [⟨rProj, k0_pay3 (View.ld x0 rRows) (View.ld x2 rWeight)⟩]
/-- The rows themselves, in the narrower format. -/
def projOutRows (x0 : Vec F S1x1024x1024 .f32) : Vec F S1x1024x1024 .bf16 :=
  View.canon [⟨rRows, k0_pay4 (View.ld x0 rRows)⟩]

theorem coverProj (p0 : Vec F S1x1024x256 .bf16) (y : S1x1024x256.Idx) :
    ∃ pc ∈ ([⟨rProj, p0⟩] : List (View.Piece (Elt F) S1x1024x256 .bf16)), y ∈ pc.1.set :=
  View.cover_of_tiled [⟨rProj, p0⟩] S1x1024x256.size (by rfl) y
theorem coverRows (p0 : Vec F S1x1024x1024 .bf16) (y : S1x1024x1024.Idx) :
    ∃ pc ∈ ([⟨rRows, p0⟩] : List (View.Piece (Elt F) S1x1024x1024 .bf16)), y ∈ pc.1.set :=
  View.cover_of_tiled [⟨rRows, p0⟩] S1x1024x1024.size (by rfl) y

/-! ## The body's triple -/

set_option maxHeartbeats 4000000 in
/-- On whole staging buffers, the inputs' at contents `x0 x1 x2` and the outputs' at anything, the body runs to the
    continuation holding the inputs' as they were and each output's at its function of the inputs'. -/
theorem sound_kernel0 (c : Dev nD) (E : Set ℕ) (i : grid0.Coords)
    (arg2 : Memref sig .tc .vmem S1x1024x1024 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S1x1024x256 .bf16) (harg5 : arg5.IsWhole)
    (arg6 : Memref sig .tc .vmem S1x1024x256 .bf16) (harg6 : arg6.IsWhole) (arg7 : Memref sig .tc .vmem S1x1024x1024 .bf16) (harg7 : arg7.IsWhole)
    (x0 : Vec F S1x1024x1024 .f32) (x1 x2 : Vec F S256x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (projOutQ x0 x1) ∗ owns (c : Thread nD τ) arg6 fullShare (projOutK x0 x2)
            ∗ owns (c : Thread nD τ) arg7 fullShare (projOutRows x0)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverProj _)
  isplitl [H4]
  · iexists _; isplitr
    swap; · iexact H4
    ipureintro
    exact View.read_writes_eq_canon _ _ _ (coverProj _)
  iexists _; isplitr
  swap; · iexact H5
  ipureintro
  exact View.read_writes_eq_canon _ _ _ (coverRows _)

/-! ## The region's proof data -/

/-- The arrays as the region finds them; after the body at point `t` each input's buffer at its block and each
    output's at its function of the input blocks; the scoped rest and the generator register pass through; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => projOutQ (iblk0 V c 0 t) (iblk0 V c 1 t)
    | ⟨4, _⟩ => projOutK (iblk0 V c 0 t) (iblk0 V c 2 t)
    | ⟨5, _⟩ => projOutRows (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = projOutQ (iblk0 V c 0 t) (iblk0 V c 1 t) := by dsimp only [dat0]
theorem after0_4 (c : Dev nD) (t : Fin cfg0.N) : (dat0 V c).after 4 t = projOutK (iblk0 V c 0 t) (iblk0 V c 2 t) := by dsimp only [dat0]
theorem after0_5 (c : Dev nD) (t : Fin cfg0.N) : (dat0 V c).after 5 t = projOutRows (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.Body1Shared.lean ====
/-
  The attention kernel (the second kernel region): what its three control cases share.

  The grid is (batch, query tile, key tile) = 4 × 2 × 4, visited with the key tile fastest. The body branches twice on
  the key-tile coordinate alone: at key tile 0 it first resets the three scratch buffers (running maximum, running
  denominator, running numerator), and at key tile 3 it finally divides, projects and stores the output block. So a
  grid point is in one of three cases, by its position modulo 4: the first key tile (reset, no output), a middle key
  tile (neither), the last key tile (output). The output window is idle — its buffer untouched and not written back —
  at every point but the last key tile's. Here: the windows' blocks as the region finds them, the two conditions in
  closed form over the grid, where the output window is idle, and the scratch buffers as whole memrefs.
-/
import proofs.«126484_j54142357733578_2_alg».proof.Proof.Gen.KernelIdeal.Launch
import proofs.«126484_j54142357733578_2_alg».proof.Proof.Gen.KernelIdeal.Skeleton
import proofs.«126484_j54142357733578_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions, from the grid coordinates -/

/-- "This is the first key tile": the condition of the reset branch. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the condition of the output branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S1x1024x1024 .f32 := (Memref.whole cc1_stg4_0 : Memref sig .tc .vmem S1x1024x1024 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The three scratch buffers: running maximum, running denominator, running numerator. -/
abbrev scMax : Memref sig .tc .vmem S1024x1 .f32 := Memref.whole cc1_scratch0
abbrev scDen : Memref sig .tc .vmem S1024x1 .f32 := Memref.whole cc1_scratch1
abbrev scNum : Memref sig .tc .vmem S1024x1024 .f32 := Memref.whole cc1_scratch2
abbrev VSMax : View sig .tc .vmem S1024x1 .f32 := scMax.view
abbrev VSDen : View sig .tc .vmem S1024x1 .f32 := scDen.view
abbrev VSNum : View sig .tc .vmem S1024x1024 .f32 := scNum.view

/-- What the region hands the body beside the windows: the three scratch buffers at some contents (the other scoped
    buffers are the first region's staging buffers, which this body never names) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
          ∗ (∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest1_eq]; simp only [scMax, scDen, scNum, owns_whole]; try rfl

end Cert.KernelIdeal.Gen

end
-- ==== Proof.Body1RunA.lean ====
/-
  The attention body at a point of the FIRST key tile: the reset branch is taken, the output branch is not. The scratch
  buffers come in at anything (the reset overwrites them) and leave holding the state after this key tile.
-/
import proofs.«126484_j54142357733578_2_alg».proof.Proof.Body1Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three scratch buffers (last store first), with
    the proof that on whole buffers — the four inputs' at their contents, the output's at any contents `d4`, which it keeps (nothing is stored into it at this point), the scratch
    buffers at anything — the body runs to the continuation holding the inputs' as they were and each written
    buffer with its pieces written. The pieces are what the symbolic run of the body finds. -/
noncomputable def kernelRun1_A (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x256 .bf16) (x1 : Vec F S1x512x256 .bf16) (x2 : Vec F S1x512x1024 .bf16) (x3 : Vec F S1024x1024 .bf16) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (d4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare d4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare d4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, ?_, fun d4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists f4; isplitr; · ipureintro; exact hf4
      iexact H4
    isplitl [HS0]; · iexists _; iexact HS0
    isplitl [HS1]; · iexists _; iexact HS1
    iexists _; iexact HS2

end Cert.KernelIdeal.Gen

end
-- ==== Proof.Body1RunB.lean ====
/-
  The attention body at a point of a MIDDLE key tile: neither branch is taken. The scratch buffers come in holding the
  state the point before left and leave holding the state after this key tile; nothing is stored into the output.
-/
import proofs.«126484_j54142357733578_2_alg».proof.Proof.Body1Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three scratch buffers (last store first), with
    the proof that on whole buffers — the four inputs' at their contents, the output's at any contents `d4`, which it keeps (nothing is stored into it at this point), the scratch
    buffers at the contents the point before left — the body runs to the continuation holding the inputs' as they were and each written
    buffer with its pieces written. The pieces are what the symbolic run of the body finds. -/
noncomputable def kernelRun1_B (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x256 .bf16) (x1 : Vec F S1x512x256 .bf16) (x2 : Vec F S1x512x1024 .bf16) (x3 : Vec F S1024x1024 .bf16) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (d4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare d4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare d4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, ?_, fun d4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists f4; isplitr; · ipureintro; exact hf4
      iexact H4
    isplitl [HS0]; · iexists _; iexact HS0
    isplitl [HS1]; · iexists _; iexact HS1
    iexists _; iexact HS2

end Cert.KernelIdeal.Gen

end
-- ==== Proof.Body1RunC.lean ====
/-
  The attention body at a point of the LAST key tile: the reset branch is not taken, the output branch is. The scratch
  buffers come in holding the state the point before left; after the update the quotient of numerator by denominator
  is projected and stored into the output buffer.
-/
import proofs.«126484_j54142357733578_2_alg».proof.Proof.Body1Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three scratch buffers (last store first), with
    the proof that on whole buffers — the four inputs' at their contents, the output's at anything, the scratch
    buffers at the contents the point before left — the body runs to the continuation holding the inputs' as they were and each written
    buffer with its pieces written. The pieces are what the symbolic run of the body finds. -/
noncomputable def kernelRun1_C (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x256 .bf16) (x1 : Vec F S1x512x256 .bf16) (x2 : Vec F S1x512x1024 .bf16) (x3 : Vec F S1024x1024 .bf16) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Gen

end
-- ==== Proof.Body1.lean ====
/-
  The attention kernel region: what its buffers hold point by point, and the body obligation.

  After the body at a grid point the output buffer and the three scratch buffers (running maximum, denominator,
  numerator) hold what the point's case stored, read back; the scratch a middle or last key tile starts from is what
  the point before left, so these contents are defined by recursion on the point (`outsAt1`). The region's invariant
  carries the scratch between points at exactly those contents (before the first point: at anything), beside the
  scoped buffers the body never names and the generator register. The output window is written back only at the last
  key tile of each (batch, query tile), where the body has just stored the whole block.
-/
import proofs.«126484_j54142357733578_2_alg».proof.Proof.Body1RunA
import proofs.«126484_j54142357733578_2_alg».proof.Proof.Body1RunB
import proofs.«126484_j54142357733578_2_alg».proof.Proof.Body1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The four buffers' contents from the pieces stored into them, read back over placeholder contents. -/
def outsOf (L4 : List (View.Piece (Elt F) S1x1024x1024 .f32)) (LS0 LS1 : List (View.Piece (Elt F) S1024x1 .f32))
    (LS2 : List (View.Piece (Elt F) S1024x1024 .f32)) : Vec F S1x1024x1024 .f32 × Vec F S1024x1 .f32 × Vec F S1024x1 .f32 × Vec F S1024x1024 .f32 :=
  (VO1_4.read (Elt F) (VO1_4.writes (Elt F) VO1_4.junk L4), VSMax.read (Elt F) (VSMax.writes (Elt F) VSMax.junk LS0),
   VSDen.read (Elt F) (VSDen.writes (Elt F) VSDen.junk LS1), VSNum.read (Elt F) (VSNum.writes (Elt F) VSNum.junk LS2))

/-- The body's run at point `t`, per case, on the point's staging buffers and input blocks. -/
def runA_at (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) ((hcond1_0 t).mpr h0) (fun h => h1 ((hcond1_1 t).mp h)) (iblk1 V c 0 t) (iblk1 V c 1 t) (iblk1 V c 2 t) (iblk1 V c 3 t)
def runB_at (c : Dev nD) (t : Fin cfg1.N) (h0 : ¬t.val % 4 = 0) (h1 : ¬t.val % 4 = 3) (xs0 xs1 : Vec F S1024x1 .f32) (xs2 : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hcond1_0 t).mp h)) (fun h => h1 ((hcond1_1 t).mp h)) (iblk1 V c 0 t) (iblk1 V c 1 t) (iblk1 V c 2 t) (iblk1 V c 3 t) xs0 xs1 xs2
def runC_at (c : Dev nD) (t : Fin cfg1.N) (h0 : ¬t.val % 4 = 0) (h1 : t.val % 4 = 3) (xs0 xs1 : Vec F S1024x1 .f32) (xs2 : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) scMax (Memref.isWhole_whole _) scDen (Memref.isWhole_whole _) scNum (Memref.isWhole_whole _) (fun h => h0 ((hcond1_0 t).mp h)) ((hcond1_1 t).mpr h1) (iblk1 V c 0 t) (iblk1 V c 1 t) (iblk1 V c 2 t) (iblk1 V c 3 t) xs0 xs1 xs2

/-! ## Each case's stores cover the buffers they are read back from -/

theorem scover1_A_0 (c : Dev nD) (t : Fin cfg1.N) (h0 : t.val % 4 = 0) (h1 : ¬t.val % 4 = 3) (y : S1024x1.Idx) :
    ∃ pc ∈ (runA_at V c t h0 h1).2.1, y ∈ pc.1.set := View.cover_of_tiledL (runA_at V c t h0 h1).2.1 S1024x1.size (by sl_kernel_rfl) y
theorem scover1_A_1 (c : Dev nD) (t : Fin cfg1.N) (h0 : t.val % 4 = 0) (h1 : ¬t.val % 4 = 3) (y : S1024x1.Idx) :
    ∃ pc ∈ (runA_at V c t h0 h1).2.2.1, y ∈ pc.1.set := View.cover_of_tiledL (runA_at V c t h0 h1).2.2.1 S1024x1.size (by sl_kernel_rfl) y
theorem scover1_A_2 (c : Dev nD) (t : Fin cfg1.N) (h0 : t.val % 4 = 0) (h1 : ¬t.val % 4 = 3) (y : S1024x1024.Idx) :
    ∃ pc ∈ (runA_at V c t h0 h1).2.2.2.1, y ∈ pc.1.set := View.cover_of_tiledL (runA_at V c t h0 h1).2.2.2.1 S1024x1024.size (by sl_kernel_rfl) y
theorem scover1_B_0 (c : Dev nD) (t : Fin cfg1.N) (h0 : ¬t.val % 4 = 0) (h1 : ¬t.val % 4 = 3) (xs0 xs1 : Vec F S1024x1 .f32) (xs2 : Vec F S1024x1024 .f32) (y : S1024x1.Idx) :
    ∃ pc ∈ (runB_at V c t h0 h1 xs0 xs1 xs2).2.1, y ∈ pc.1.set := View.cover_of_tiledL (runB_at V c t h0 h1 xs0 xs1 xs2).2.1 S1024x1.size (by sl_kernel_rfl) y
theorem scover1_B_1 (c : Dev nD) (t : Fin cfg1.N) (h0 : ¬t.val % 4 = 0) (h1 : ¬t.val % 4 = 3) (xs0 xs1 : Vec F S1024x1 .f32) (xs2 : Vec F S1024x1024 .f32) (y : S1024x1.Idx) :
    ∃ pc ∈ (runB_at V c t h0 h1 xs0 xs1 xs2).2.2.1, y ∈ pc.1.set := View.cover_of_tiledL (runB_at V c t h0 h1 xs0 xs1 xs2).2.2.1 S1024x1.size (by sl_kernel_rfl) y
theorem scover1_B_2 (c : Dev nD) (t : Fin cfg1.N) (h0 : ¬t.val % 4 = 0) (h1 : ¬t.val % 4 = 3) (xs0 xs1 : Vec F S1024x1 .f32) (xs2 : Vec F S1024x1024 .f32) (y : S1024x1024.Idx) :
    ∃ pc ∈ (runB_at V c t h0 h1 xs0 xs1 xs2).2.2.2.1, y ∈ pc.1.set := View.cover_of_tiledL (runB_at V c t h0 h1 xs0 xs1 xs2).2.2.2.1 S1024x1024.size (by sl_kernel_rfl) y
theorem scover1_C_0 (c : Dev nD) (t : Fin cfg1.N) (h0 : ¬t.val % 4 = 0) (h1 : t.val % 4 = 3) (xs0 xs1 : Vec F S1024x1 .f32) (xs2 : Vec F S1024x1024 .f32) (y : S1024x1.Idx) :
    ∃ pc ∈ (runC_at V c t h0 h1 xs0 xs1 xs2).2.1, y ∈ pc.1.set := View.cover_of_tiledL (runC_at V c t h0 h1 xs0 xs1 xs2).2.1 S1024x1.size (by sl_kernel_rfl) y
theorem scover1_C_1 (c : Dev nD) (t : Fin cfg1.N) (h0 : ¬t.val % 4 = 0) (h1 : t.val % 4 = 3) (xs0 xs1 : Vec F S1024x1 .f32) (xs2 : Vec F S1024x1024 .f32) (y : S1024x1.Idx) :
    ∃ pc ∈ (runC_at V c t h0 h1 xs0 xs1 xs2).2.2.1, y ∈ pc.1.set := View.cover_of_tiledL (runC_at V c t h0 h1 xs0 xs1 xs2).2.2.1 S1024x1.size (by sl_kernel_rfl) y
theorem scover1_C_2 (c : Dev nD) (t : Fin cfg1.N) (h0 : ¬t.val % 4 = 0) (h1 : t.val % 4 = 3) (xs0 xs1 : Vec F S1024x1 .f32) (xs2 : Vec F S1024x1024 .f32) (y : S1024x1024.Idx) :
    ∃ pc ∈ (runC_at V c t h0 h1 xs0 xs1 xs2).2.2.2.1, y ∈ pc.1.set := View.cover_of_tiledL (runC_at V c t h0 h1 xs0 xs1 xs2).2.2.2.1 S1024x1024.size (by sl_kernel_rfl) y
theorem cover1_C_4 (c : Dev nD) (t : Fin cfg1.N) (h0 : ¬t.val % 4 = 0) (h1 : t.val % 4 = 3) (xs0 xs1 : Vec F S1024x1 .f32) (xs2 : Vec F S1024x1024 .f32) (y : S1x1024x1024.Idx) :
    ∃ pc ∈ (runC_at V c t h0 h1 xs0 xs1 xs2).1, y ∈ pc.1.set := View.cover_of_tiledL (runC_at V c t h0 h1 xs0 xs1 xs2).1 S1x1024x1024.size (by sl_kernel_rfl) y

/-! ## What the buffers hold after each point -/

/-- After the body at position `n`: the output buffer, then the three scratch buffers — the point's case run on its input
    blocks, a middle or last key tile starting from the scratch the point before left. -/
def outsAt1 (c : Dev nD) : (n : ℕ) → n < cfg1.N → Vec F S1x1024x1024 .f32 × Vec F S1024x1 .f32 × Vec F S1024x1 .f32 × Vec F S1024x1024 .f32
  | 0, hn => outsOf (runA_at V c ⟨0, hn⟩ (Nat.zero_mod _) (by show ¬(0 % 4 = 3); decide)).1 (runA_at V c ⟨0, hn⟩ (Nat.zero_mod _) (by show ¬(0 % 4 = 3); decide)).2.1 (runA_at V c ⟨0, hn⟩ (Nat.zero_mod _) (by show ¬(0 % 4 = 3); decide)).2.2.1 (runA_at V c ⟨0, hn⟩ (Nat.zero_mod _) (by show ¬(0 % 4 = 3); decide)).2.2.2.1
  | n + 1, hn =>
    if h0 : (n + 1) % 4 = 0 then
      if h1 : (n + 1) % 4 = 3 then False.elim (by omega)
      else outsOf (runA_at V c ⟨n + 1, hn⟩ h0 h1).1 (runA_at V c ⟨n + 1, hn⟩ h0 h1).2.1 (runA_at V c ⟨n + 1, hn⟩ h0 h1).2.2.1 (runA_at V c ⟨n + 1, hn⟩ h0 h1).2.2.2.1
    else
      if h1 : (n + 1) % 4 = 3 then
        outsOf (runC_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).1
          (runC_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.1
          (runC_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.2.1
          (runC_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.2.2.1
      else
        outsOf (runB_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).1
          (runB_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.1
          (runB_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.2.1
          (runB_at V c ⟨n + 1, hn⟩ h0 h1 (outsAt1 c n (Nat.lt_of_succ_lt hn)).2.1 (outsAt1 c n (Nat.lt_of_succ_lt hn)).2.2.1 (outsAt1 c n (Nat.lt_of_succ_lt hn)).2.2.2).2.2.2.1

/-- The scratch the point before `t` left (for a point that is not the first). -/
abbrev prevAt (c : Dev nD) (t : Fin cfg1.N) : Vec F S1x1024x1024 .f32 × Vec F S1024x1 .f32 × Vec F S1024x1 .f32 × Vec F S1024x1024 .f32 := outsAt1 V c (t.val - 1) (Nat.lt_of_le_of_lt (Nat.sub_le _ _) t.isLt)

theorem outsAt1_A (c : Dev nD) (t : Fin cfg1.N) (h0 : t.val % 4 = 0) (h1 : ¬t.val % 4 = 3) :
    outsAt1 V c t.val t.isLt = outsOf (runA_at V c t h0 h1).1 (runA_at V c t h0 h1).2.1 (runA_at V c t h0 h1).2.2.1 (runA_at V c t h0 h1).2.2.2.1 := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = outsOf (runB_at V c t h0 h1 (prevAt V c t).2.1 (prevAt V c t).2.2.1 (prevAt V c t).2.2.2).1 (runB_at V c t h0 h1 (prevAt V c t).2.1 (prevAt V c t).2.2.1 (prevAt V c t).2.2.2).2.1 (runB_at V c t h0 h1 (prevAt V c t).2.1 (prevAt V c t).2.2.1 (prevAt V c t).2.2.2).2.2.1 (runB_at V c t h0 h1 (prevAt V c t).2.1 (prevAt V c t).2.2.1 (prevAt V c t).2.2.2).2.2.2.1 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = outsOf (runC_at V c t h0 h1 (prevAt V c t).2.1 (prevAt V c t).2.2.1 (prevAt V c t).2.2.2).1 (runC_at V c t h0 h1 (prevAt V c t).2.1 (prevAt V c t).2.2.1 (prevAt V c t).2.2.2).2.1 (runC_at V c t h0 h1 (prevAt V c t).2.1 (prevAt V c t).2.2.1 (prevAt V c t).2.2.2).2.2.1 (runC_at V c t h0 h1 (prevAt V c t).2.1 (prevAt V c t).2.2.1 (prevAt V c t).2.2.2).2.2.2.1 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- What rides through every point untouched: the first region's staging buffers and the generator register. -/
def restRing (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ r, prngReg c r))

theorem PhiA1_open (c : Dev nD) : (Pipeline.ΦA spec1 c : sProp 𝕄)
    ⊢ iprop(restRing (F := F) c ∗ (∃ d, owns (c : Thread nD τ) scMax fullShare d) ∗ (∃ d, owns (c : Thread nD τ) scDen fullShare d) ∗ (∃ d, owns (c : Thread nD τ) scNum fullShare d)) := by
  rw [PhiA1_eq]; unfold restRing
  iintro ⟨⟨Ha0, Ha1, Ha2, Ha3, Ha4, Ha5, Ha6, Ha7, Ha8, Ha9, HS0, HS1, HS2⟩, Hg⟩
  isplitl [Ha0 Ha1 Ha2 Ha3 Ha4 Ha5 Ha6 Ha7 Ha8 Ha9 Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    iexact Hg
  isplitl [HS0]; · iexact HS0
  isplitl [HS1]; · iexact HS1
  iexact HS2

theorem PhiA1_close (c : Dev nD) : iprop(restRing (F := F) c ∗ (∃ d, owns (c : Thread nD τ) scMax fullShare d) ∗ (∃ d, owns (c : Thread nD τ) scDen fullShare d) ∗ (∃ d, owns (c : Thread nD τ) scNum fullShare d))
    ⊢ (Pipeline.ΦA spec1 c : sProp 𝕄) := by
  rw [PhiA1_eq]; unfold restRing
  iintro ⟨⟨Ha0, Ha1, Ha2, Ha3, Ha4, Ha5, Ha6, Ha7, Ha8, Ha9, Hg⟩, HS0, HS1, HS2⟩
  isplitl [Ha0 Ha1 Ha2 Ha3 Ha4 Ha5 Ha6 Ha7 Ha8 Ha9 HS0 HS1 HS2]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [HS0]; · iexact HS0
    isplitl [HS1]; · iexact HS1
    iexact HS2
  iexact Hg

/-- Before position `n`: at the first point the scratch at anything; afterwards at what the point before left. -/
def PhiS (c : Dev nD) : (n : ℕ) → n ≤ cfg1.N → sProp 𝕄
  | 0, _ => Pipeline.ΦA spec1 c
  | n + 1, hn => iprop(restRing c ∗ owns (c : Thread nD τ) scMax fullShare ((outsAt1 V c n hn).2.1)
      ∗ owns (c : Thread nD τ) scDen fullShare ((outsAt1 V c n hn).2.2.1) ∗ owns (c : Thread nD τ) scNum fullShare ((outsAt1 V c n hn).2.2.2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restRing c ∗ owns (c : Thread nD τ) scMax fullShare ((outsAt1 V c n hn).2.1)
      ∗ owns (c : Thread nD τ) scDen fullShare ((outsAt1 V c n hn).2.2.1) ∗ owns (c : Thread nD τ) scNum fullShare ((outsAt1 V c n hn).2.2.2)) := rfl
theorem PhiS_pos (c : Dev nD) (n : ℕ) (h : n ≤ cfg1.N) (hz : n ≠ 0) :
    PhiS V c n h = iprop(restRing c ∗ owns (c : Thread nD τ) scMax fullShare ((outsAt1 V c (n - 1) (by omega)).2.1)
      ∗ owns (c : Thread nD τ) scDen fullShare ((outsAt1 V c (n - 1) (by omega)).2.2.1) ∗ owns (c : Thread nD τ) scNum fullShare ((outsAt1 V c (n - 1) (by omega)).2.2.2)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 8000000 in
/-- The body at any point: the closed forms say which case the point is in; the invariant hands the body the scratch at
    what the point before left (at anything before the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h0 : t.val % 4 = 0
  · by_cases h1 : t.val % 4 = 3
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold outsOf; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA1_open (F := F) c) $$ HΦ
        icases HΦ' with ⟨HR, HS0, HS1, HS2⟩
        iapply ((runA_at V c t h0 h1).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2]
        · isplitl [HR]; · iexact HR
          isplitl [HS0]
          · unfold owns; iexists _; isplitr
            swap; · iexact HS0
            ipureintro; exact View.read_writes_of_cover _ _ _ _ _ (scover1_A_0 V c t _ _)
          isplitl [HS1]
          · unfold owns; iexists _; isplitr
            swap; · iexact HS1
            ipureintro; exact View.read_writes_of_cover _ _ _ _ _ (scover1_A_1 V c t _ _)
          unfold owns; iexists _; isplitr
          swap; · iexact HS2
          ipureintro; exact View.read_writes_of_cover _ _ _ _ _ (scover1_A_2 V c t _ _)
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨HR, HS0, HS1, HS2⟩, Ho, ⟨%d0, H0⟩, ⟨%d1, H1⟩, ⟨%d2, H2⟩, ⟨%d3, H3⟩, ⟨%d4, H4⟩⟩
        iapply ((runA_at V c t h0 h1).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HR HS0 HS1 HS2]
        · isplitl [HR]; · iexact HR
          isplitl [HS0]
          · unfold owns; iexists _; isplitr
            swap; · iexact HS0
            ipureintro; exact View.read_writes_of_cover _ _ _ _ _ (scover1_A_0 V c t _ _)
          isplitl [HS1]
          · unfold owns; iexists _; isplitr
            swap; · iexact HS1
            ipureintro; exact View.read_writes_of_cover _ _ _ _ _ (scover1_A_1 V c t _ _)
          unfold owns; iexists _; isplitr
          swap; · iexact HS2
          ipureintro; exact View.read_writes_of_cover _ _ _ _ _ (scover1_A_2 V c t _ _)
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold outsOf; (try dsimp only)
      rw [PhiS_castSucc V c t, PhiS_pos V c _ _ hz]
      iintro ⟨⟨HR, HS0, HS1, HS2⟩, Ho, ⟨%d0, H0⟩, ⟨%d1, H1⟩, ⟨%d2, H2⟩, ⟨%d3, H3⟩, ⟨%d4, H4⟩⟩
      iapply ((runC_at V c t h0 h1 _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HR HS0 HS1 HS2]
      · isplitl [HR]; · iexact HR
        isplitl [HS0]
        · unfold owns; iexists _; isplitr
          swap; · iexact HS0
          ipureintro; exact View.read_writes_of_cover _ _ _ _ _ (scover1_C_0 V c t _ _ _ _ _)
        isplitl [HS1]
        · unfold owns; iexists _; isplitr
          swap; · iexact HS1
          ipureintro; exact View.read_writes_of_cover _ _ _ _ _ (scover1_C_1 V c t _ _ _ _ _)
        unfold owns; iexists _; isplitr
        swap; · iexact HS2
        ipureintro; exact View.read_writes_of_cover _ _ _ _ _ (scover1_C_2 V c t _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 V c t _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold outsOf; (try dsimp only)
      rw [PhiS_castSucc V c t, PhiS_pos V c _ _ hz]
      iintro ⟨⟨HR, HS0, HS1, HS2⟩, Ho, ⟨%d0, H0⟩, ⟨%d1, H1⟩, ⟨%d2, H2⟩, ⟨%d3, H3⟩, ⟨%d4, H4⟩⟩
      iapply ((runB_at V c t h0 h1 _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HR HS0 HS1 HS2]
      · isplitl [HR]; · iexact HR
        isplitl [HS0]
        · unfold owns; iexists _; isplitr
          swap; · iexact HS0
          ipureintro; exact View.read_writes_of_cover _ _ _ _ _ (scover1_B_0 V c t _ _ _ _ _)
        isplitl [HS1]
        · unfold owns; iexists _; isplitr
          swap; · iexact HS1
          ipureintro; exact View.read_writes_of_cover _ _ _ _ _ (scover1_B_1 V c t _ _ _ _ _)
        unfold owns; iexists _; isplitr
        swap; · iexact HS2
        ipureintro; exact View.read_writes_of_cover _ _ _ _ _ (scover1_B_2 V c t _ _ _ _ _)
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ hne]
  iintro ⟨HR, HS0, HS1, HS2⟩
  iapply (PhiA1_close (F := F) c)
  isplitl [HR]; · iexact HR
  isplitl [HS0]; · iexists _; iexact HS0
  isplitl [HS1]; · iexists _; iexact HS1
  iexists _; iexact HS2

end Region1

end Cert.KernelIdeal.Gen

end
-- ==== Proof.Assembly.lean ====
/-
  The run of @main over its two kernel regions.

  @main is: the first kernel region (the projections), one host operation (a change of float format of the fourth
  argument), the second kernel region (the attention). This file follows the buffers through that run. The contents of
  every unscoped buffer are named at each boundary, as a fold from the launch memory: a kernel region leaves each of its
  windows' arrays at what its write-backs leave and every other buffer as it found it; the host operation leaves what
  `StableHlo.after` says. Each region is then a segment from one boundary's contents to the next, the host operation a
  segment between them, and the launch runs the three in order. What comes out: every execution of @main terminates
  without fault, at the end every unscoped buffer holds the last boundary's contents (`run_all`), the four arguments
  hold what they were launched with (`W3_main_arg0` … `W3_main_arg3`, `frame`), and the result array holds what the second
  region's write-backs leave (`W3_main_v2`).
-/
import proofs.«126484_j54142357733578_2_alg».proof.Proof.Body0
import proofs.«126484_j54142357733578_2_alg».proof.Proof.Body1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch: the first region's entry. -/
abbrev W0 : Dev nD → Valuation τ sig (Elt F) := fun c b => (s₀ m ρ).mem ((c : Dev nD), b)
/-- The same read at the TensorCore's references (what the first region's proof data take). -/
abbrev U0 : (c : Dev nD) → (b : Ref sig .tc) → Buf (Elt F) ((c : Thread nD τ).loc b) := fun c b => W0 m ρ c b
/-- At the first region's exit: its arrays at what the pipeline leaves (the inputs as entered, each output's write-backs
    folded), every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (the first region's exit contents). -/
abbrev U1 : (c : Dev nD) → (b : Ref sig .tc) → Buf (Elt F) ((c : Thread nD τ).loc b) := fun c b => W1 m ρ c b
/-- At the first region's exit each of its arrays holds what the pipeline leaves (`hF0`) and every other buffer what it
    held at entry (`hrest0`). -/
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the host operation: the second region's entry. -/
abbrev W2 : Dev nD → Valuation τ sig (Elt F) := fun c => StableHlo.after hostOps1 (W1 m ρ c)
/-- The same read at the TensorCore's references (what the second region's proof data take). -/
abbrev U2 : (c : Dev nD) → (b : Ref sig .tc) → Buf (Elt F) ((c : Thread nD τ).loc b) := fun c b => W2 m ρ c b
/-- At the second region's exit, the end of @main: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the second region's exit contents). -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-! ### The arguments end as launched, and the result array holds the second region's output

    The first three arguments are the first region's input windows (an input window's array is left as entered); the
    fourth is no window of either region; the host operation writes none of them; the second region's windows are other
    arrays. -/

/-- The host operation writes no buffer but its own result. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((dat0 (U0 m ρ) c).arrAt_in 2 rfl _).trans (A_eq0 (U0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
/-- The result array is the second region's fifth window's: at the end it holds what that window's write-backs leave. -/
theorem W3_main_v2 (c : Dev nD) : W3 m ρ c (Proc.devRef .tc main_v2) = (dat1 (U2 m ρ) c).arrAt 4 cfg1.N :=
  W3_arr m ρ c 4

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host operation allocates no buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- THE FIRST REGION over the thread state: entered from every unscoped buffer at the launch contents, left at `W1`. Its
    arrays split out of the unscoped buffers and put back at the exit contents; the generator register into the
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W2`, left at `W3` (what the launch
    reads at the end). As the first, but its invariant carries the kernel's scratch between grid points: what the launch
    hands the region makes the invariant before the first point (`hin1`), and the invariant after the last point gives
    it back (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U2 m ρ) c).Φ 0 from rfl]
    iintro ⟨Hp, -, Hr⟩
    iapply (hin1 (U2 m ρ) c)
    unfold Pipeline.ΦA
    isplitl [Hr]; · iexact Hr
    iexact Hp
  hout c := by
    rw [Pipeline.ownSems0_none, show (pdats m ρ 1 c).Φ (Fin.last _) = (dat1 (U2 m ρ) c).Φ (Fin.last cfg1.N) from rfl]
    have ho := hout1 (U2 m ρ) c
    iintro H
    ihave H' := ho $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the first region, the host operation from `W1`, the second region. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has the four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Run

end
-- ==== Proof.LibTransposedDot.lean ====
/-
  A general lemma file: the matrix product M×K by N×K, the right operand contracted on its LAST axis, read at an entry,
  at the ideal values.

  A `tpu.matmul` into the zero accumulator whose dimension numbers contract the left operand's second axis with the
  right operand's second axis (no batch axis) — the product of a matrix with the transpose of another, as in the
  scores `q · Cᵀ` of an attention head — is, at entry `(i, j)`, the sum over `k : Fin K` of `L (i, k) * R (j, k)`.
  Stated for any dimension record EQUAL to the library's `DotDims.transposedRhs M K N` (a printed program's record
  with these dimension numbers is, by `rfl`), for any extents and operand formats.
-/
import Idealize.ShloMosaic.Lib.ValueIdx
import Idealize.ShloMosaic.PureOps.Ideal.Laws

noncomputable section

open scoped BigOperators

namespace Cert.TransposedDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … and the contraction coordinate as its column. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index has `j`'s column as its ROW … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and the contraction coordinate as its column. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

variable {M K N}

/-- The contraction's sum over its index type is the sum over `k : Fin K` of the operands at `(i, k)` and `(j, k)`. -/
theorem sum_contr {φ₁ φ₂ : FTy} (L : FVec Ideal ⟨2, ![M, K]⟩ φ₁) (R : FVec Ideal ⟨2, ![N, K]⟩ φ₂) (i : Fin M) (j : Fin N) :
    ∑ q : (DotDims.transposedRhs M K N).contr.Idx,
        L ((DotDims.transposedRhs M K N).lhsIdx (ix2 i j) q) * R ((DotDims.transposedRhs M K N).rhsIdx (ix2 i j) q)
      = ∑ k : Fin K, L (ix2 i k) * R (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs0 M K N _ _
      | ⟨1, _⟩ => exact (lhs1 M K N _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs0 M K N _ _
      | ⟨1, _⟩ => exact (rhs1 M K N _ _).trans hk)
  rw [el, er]

/-- A `tpu.matmul` with these dimension numbers into the zero splat, read at `(i, j)`. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (L : FVec Ideal ⟨2, ![M, K]⟩ φ₁) (R : FVec Ideal ⟨2, ![N, K]⟩ φ₂) (i : Fin M) (j : Fin N) :
    matmul d prec L R (constant (F := Ideal) ⟨2, ![M, N]⟩ .f32 0x00000000#32) (ix2 i j) = ∑ k : Fin K, L (ix2 i k) * R (ix2 j k) := by
  subst hd
  show FloatOps.matmul (DotDims.transposedRhs M K N) prec L R (constant ⟨2, ![M, N]⟩ .f32 0x00000000#32) (ix2 i j) = _
  rw [Ideal.matmul_constant_zero_apply]
  exact sum_contr L R i j

end Cert.TransposedDot

end
-- ==== Proof.PayloadReads0.lean ====
/-
  The projection kernel's arithmetic, read one entry at a time, at the ideal values.

  One step of the projection kernel works on a tile of 1024 rows of one batch of the first argument. It stores the
  tile's product with the transpose of each of the two 256-by-1024 weight matrices (a contraction over the 1024 input
  features) and the tile itself. On the extended reals the changes of format in between are the identity, and the casts
  that drop or add the leading unit axis keep the entry, so each stored array is read at an index written by its
  coordinates as the sum over the features, or as the tile's own entry.
-/
import proofs.«126484_j54142357733578_2_alg».proof.Proof.Gen.KernelIdeal.Skeleton
import proofs.«126484_j54142357733578_2_alg».proof.Proof.LibTransposedDot
import Idealize.ShloMosaic.Lib.ValueLayout
import Idealize.ShloMosaic.Lib.ValueIdx

noncomputable section

open scoped BigOperators

namespace Cert.KernelIdeal.PayloadReads

open Cert.KernelIdeal Cert.KernelIdeal.Gen Idealize.ShloMosaic Idealize.ShloMosaic.ValueIdx

variable (v0 : FVec Ideal S1x1024x1024 .f32) (w : FVec Ideal S256x1024 .f32)

/-- The tile as a matrix: its entry at row r and feature d is the loaded block's. -/
theorem k0_pay1_at (r d : Fin 1024) : k0_pay1 (F := Ideal) v0 (ix2 r d) = v0 (ix3 (0 : Fin 1) r d) := by
  unfold k0_pay1
  refine (truncf_apply (ψ := .bf16) _ bitsLt_bf16_f32 _).trans ?_
  exact shapeCast_1ab_ab_apply v0 _ r d

/-- The tile's rows projected by the first weight matrix. -/
theorem k0_pay2_at (r : Fin 1024) (j : Fin 256) :
    k0_pay2 (F := Ideal) v0 w (ix3 (0 : Fin 1) r j) = ∑ d : Fin 1024, v0 (ix3 (0 : Fin 1) r d) * w (ix2 j d) := by
  unfold k0_pay2
  refine (shapeCast_ab_1ab_apply _ _ (0 : Fin 1) r j).trans ?_
  refine (truncf_apply (ψ := .bf16) _ bitsLt_bf16_f32 _).trans ?_
  refine (TransposedDot.matmul_zero_apply (M := 1024) (K := 1024) (N := 256)
    dot_S1024x1024_S256x1024_S1024x256_1_1_0_0_n_n rfl none _ _ r j).trans ?_
  exact Finset.sum_congr rfl fun d _ => congrArg₂ (fun a b : EReal => a * b)
    (k0_pay1_at v0 r d) (truncf_apply (ψ := .bf16) w bitsLt_bf16_f32 (ix2 j d))

/-- The tile's rows projected by the second weight matrix. -/
theorem k0_pay3_at (r : Fin 1024) (j : Fin 256) :
    k0_pay3 (F := Ideal) v0 w (ix3 (0 : Fin 1) r j) = ∑ d : Fin 1024, v0 (ix3 (0 : Fin 1) r d) * w (ix2 j d) := by
  unfold k0_pay3
  refine (shapeCast_ab_1ab_apply _ _ (0 : Fin 1) r j).trans ?_
  refine (truncf_apply (ψ := .bf16) _ bitsLt_bf16_f32 _).trans ?_
  refine (TransposedDot.matmul_zero_apply (M := 1024) (K := 1024) (N := 256)
    dot_S1024x1024_S256x1024_S1024x256_1_1_0_0_n_n rfl none _ _ r j).trans ?_
  exact Finset.sum_congr rfl fun d _ => congrArg₂ (fun a b : EReal => a * b)
    (k0_pay1_at v0 r d) (truncf_apply (ψ := .bf16) w bitsLt_bf16_f32 (ix2 j d))

/-- The tile itself, stored back. -/
theorem k0_pay4_at (r d : Fin 1024) : k0_pay4 (F := Ideal) v0 (ix3 (0 : Fin 1) r d) = v0 (ix3 (0 : Fin 1) r d) := by
  unfold k0_pay4
  refine (shapeCast_ab_1ab_apply _ _ (0 : Fin 1) r d).trans ?_
  exact k0_pay1_at v0 r d

end Cert.KernelIdeal.PayloadReads

end
-- ==== Proof.Spec.lean ====
/-
  The two forms of the attention layer this certificate compares, as functions of the four argument arrays over the
  extended reals, index by index.

  Both start from the projections of a row of `q` by a weight matrix (`proj`) and the unscaled score of a query row
  against a key row (`raw`).

  * `ref` is the plain form: scores divided by `√256`, a softmax over all 2048 keys (row maximum from `-∞`, exponentials
    of the differences, their sum, quotients), the softmax-weighted average of the rows of `q`, then the output
    projection by `Wv`.
  * `kern` is the blockwise form: scores multiplied by `1/16`; the keys visited in four consecutive blocks of 512 while a
    running maximum `m`, a running denominator `l` and a running numerator `a` are kept per query row, the old sums
    rescaled by `exp (m − m')` whenever the maximum moves to `m'`, the running maximum started at a large negative FINITE
    number rather than at `-∞`; at the end `a / l`, then the output projection by `Wv`.

  On real inputs the two agree: `1/16 = 1/√256`, and the quotient `a / l` does not depend on the reference point the
  exponentials are taken against, so the finite starting value is harmless.
-/
import Idealize.ShloMosaic.PureOps.Ideal
import Idealize.ShloMosaic.Lib.ValueIdx

noncomputable section

namespace Cert.Attn

open Idealize.ShloMosaic Idealize.ShloMosaic.ValueIdx
open scoped BigOperators

abbrev SQ : Shape := ⟨3, ![4, 2048, 1024]⟩
abbrev SW : Shape := ⟨2, ![256, 1024]⟩
abbrev SV : Shape := ⟨2, ![1024, 1024]⟩

variable (q : SQ.Idx → EReal) (Wq Wk : SW.Idx → EReal) (Wv : SV.Idx → EReal)

/-- Row `s` of batch `b` of `q` projected by the weight matrix `W`: entry `j`. -/
def proj (W : SW.Idx → EReal) (b : Fin 4) (s : Fin 2048) (j : Fin 256) : EReal :=
  ∑ d : Fin 1024, q (ix3 b s d) * W (ix2 j d)

/-- The unscaled score of query row `s` against key row `k`. -/
def raw (b : Fin 4) (s k : Fin 2048) : EReal :=
  ∑ j : Fin 256, proj q Wq b s j * proj q Wk b k j

/-! ## The plain form -/

/-- The score divided by `√256`. -/
def rscore (b : Fin 4) (s k : Fin 2048) : EReal :=
  Ideal.div (raw q Wq Wk b s k) (Ideal.sqrt (Ideal.ofBits .f32 0x43800000#32))

/-- The row maximum, folded from `-∞` (and once more compared with `-∞`). -/
def rmax (b : Fin 4) (s : Fin 2048) : EReal :=
  max (Ideal.ofBits .f32 0xFF800000#32)
    ((Finset.univ : Finset (Fin 2048)).fold max (Ideal.ofBits .f32 0xFF800000#32) fun k => rscore q Wq Wk b s k)

/-- The exponential of a score's distance below the row maximum. -/
def rexp (b : Fin 4) (s k : Fin 2048) : EReal :=
  Ideal.exp (rscore q Wq Wk b s k - rmax q Wq Wk b s)

/-- The softmax denominator of row `s`. -/
def rden (b : Fin 4) (s : Fin 2048) : EReal :=
  Ideal.ofBits .f32 0x00000000#32 + ∑ k : Fin 2048, rexp q Wq Wk b s k

/-- The softmax-weighted average of the rows of `q`: entry `d`. -/
def rout (b : Fin 4) (s : Fin 2048) (d : Fin 1024) : EReal :=
  ∑ k : Fin 2048, Ideal.div (rexp q Wq Wk b s k) (rden q Wq Wk b s) * q (ix3 b k d)

/-- The plain form's result at `(b, s, e)`. -/
def ref (b : Fin 4) (s : Fin 2048) (e : Fin 1024) : EReal :=
  ∑ d : Fin 1024, rout q Wq Wk b s d * Wv (ix2 e d)

/-! ## The blockwise form -/

/-- The score multiplied by `1/16`. -/
def kscore (b : Fin 4) (s k : Fin 2048) : EReal :=
  raw q Wq Wk b s k * Ideal.ofBits .f32 0x3D800000#32

/-- Key `r` of key block `n` (four blocks of 512; `n` is read modulo 4). -/
def key (n : ℕ) (r : Fin 512) : Fin 2048 := ⟨(n % 4) * 512 + r.val, by omega⟩

/-- The running state of one query row: maximum, denominator, numerator. -/
abbrev St : Type := EReal × EReal × (Fin 1024 → EReal)

/-- Before any key: the large negative finite start of the maximum, both sums zero. -/
def kinit : St :=
  (Ideal.ofBits .f32 0xFF333332#32, Ideal.ofBits .f32 0x00000000#32, fun _ => Ideal.ofBits .f32 0x00000000#32)

/-- One block of keys: the maximum moves to `m'`, the old sums are rescaled by `exp (m − m')`, the block's terms added. -/
def kstep (b : Fin 4) (s : Fin 2048) (st : St) (n : ℕ) : St :=
  let m' : EReal := max st.1
    ((Finset.univ : Finset (Fin 512)).fold max (Ideal.ofBits .f32 0xFF800000#32) fun r => kscore q Wq Wk b s (key n r))
  (m',
   Ideal.exp (st.1 - m') * st.2.1 + ∑ r : Fin 512, Ideal.exp (kscore q Wq Wk b s (key n r) - m'),
   fun d => Ideal.exp (st.1 - m') * st.2.2 d
      + ∑ r : Fin 512, Ideal.exp (kscore q Wq Wk b s (key n r) - m') * q (ix3 b (key n r) d))

/-- The state after the first `n` blocks. -/
def kstate (b : Fin 4) (s : Fin 2048) : ℕ → St
  | 0 => kinit
  | n + 1 => kstep q Wq Wk b s (kstate b s n) n

/-- The blockwise form's result at `(b, s, e)`: numerator over denominator after all four blocks, projected by `Wv`. -/
def kern (b : Fin 4) (s : Fin 2048) (e : Fin 1024) : EReal :=
  ∑ d : Fin 1024, Ideal.div ((kstate q Wq Wk b s 4).2.2 d) ((kstate q Wq Wk b s 4).2.1) * Wv (ix2 e d)

end Cert.Attn

end
-- ==== Proof.Value0.lean ====
/-
  The projection region's three output arrays, each as one function of the arrays the region is entered with.

  The region's grid has a point for each batch and each tile of 1024 rows. At a point the three output windows hold
  the tile's rows projected by each weight matrix and the tile's rows themselves, and every point writes its three
  blocks back. The windows over the first argument and over the three outputs move together: the block index of each at
  a point is (batch, tile, 0), while both weight windows stay at block (0, 0). So what a point writes back is the
  point's block of ONE function of the whole arrays (entry (b, s, j) of a projection depends on row s of batch b of the
  first argument and on row j of the weight matrix, all of which the point's blocks hold), the blocks of the eight
  points tile each output array, and the array ends holding that function.
-/
import proofs.«126484_j54142357733578_2_alg».proof.Proof.Body0
import proofs.«126484_j54142357733578_2_alg».proof.Proof.PayloadReads0
import proofs.«126484_j54142357733578_2_alg».proof.Proof.Spec
import Idealize.ShloMosaic.Lib.Pipeline.Value
import Idealize.ShloMosaic.Lib.ValueIdx

noncomputable section

open scoped BigOperators

namespace Cert.KernelIdeal.Value0

open Cert.KernelIdeal Cert.KernelIdeal.Gen Idealize.ShloMosaic Idealize.ShloMosaic.TcCoe Idealize.SL.Sem
  Idealize.ShloMosaic.ValueIdx
open Idealize.ShloMosaic.Pipeline (Dat)

-- the buffer contents when the region is entered
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The windows' block indices over the grid -/

/-- The window over the first argument and the three output windows sit at the same block (whose last index is 0) at
    every point, and both weight windows at block (0, 0). -/
theorem idx_facts : ∀ t : Fin cfg0.N,
    win0_0.index t (0 : Fin 3) = win0_5.index t (0 : Fin 3) ∧ win0_0.index t (1 : Fin 3) = win0_5.index t (1 : Fin 3)
    ∧ win0_3.index t (0 : Fin 3) = win0_5.index t (0 : Fin 3) ∧ win0_3.index t (1 : Fin 3) = win0_5.index t (1 : Fin 3)
    ∧ win0_4.index t (0 : Fin 3) = win0_5.index t (0 : Fin 3) ∧ win0_4.index t (1 : Fin 3) = win0_5.index t (1 : Fin 3)
    ∧ win0_0.index t (2 : Fin 3) = 0 ∧ win0_3.index t (2 : Fin 3) = 0 ∧ win0_4.index t (2 : Fin 3) = 0
    ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block (batch, tile, 0) is some point's. -/
theorem idx_onto : ∀ (q0 : Fin 4) (q1 : Fin 2), ∃ t : Fin cfg0.N, win0_5.index t = ![q0.val, q1.val, 0] :=
  (by decide +kernel : ∀ (q0 : Fin 4) (q1 : Fin 2), ∃ t : Fin grid0.N, win0_5.index t = ![q0.val, q1.val, 0])

/-! ## The rows themselves (output window 5) -/

/-- The stored tile at any index is the loaded tile there. -/
theorem rows_pay (x0 : FVec Ideal S1x1024x1024 .f32) (y : S1x1024x1024.Idx) : k0_pay4 (F := Ideal) x0 y = x0 y := by
  obtain ⟨u, r, d, rfl⟩ : ∃ (u : Fin 1) (r d : Fin 1024), y = ix3 u r d := ⟨y 0, y 1, y 2, eq_ix3 y⟩
  obtain rfl : u = 0 := Subsingleton.elim _ _
  exact PayloadReads.k0_pay4_at x0 r d

/-- What the array of window 5 ends holding: the first argument. -/
abbrev rowsArr (c : Dev nD) : S4x2048x1024.Idx → EReal := fun i => V c main_arg0 i

/-- What point t writes back to window 5's array is block t of the first argument. -/
theorem flushed5_eq (c : Dev nD) (t : Fin cfg0.N) :
    (dat0 (F := Ideal) V c).flushed 5 t = ((cfg0.win 5).blk t).view.read (Elt Ideal) (rowsArr V c) := by
  show (cfg0.win 5).cut (grid0.coords t) ((dat0 (F := Ideal) V c).after 5 t) = _
  rw [after0_5]
  unfold projOutRows
  rw [View.canon_unit_zero hz3]
  simp only [View.ld_unit_zero (S := S1x1024x1024) hz3]
  obtain ⟨e00, e01, -, -, -, -, e02, -, -, e52, -, -, -, -⟩ := idx_facts t
  funext j
  show k0_pay4 (F := Ideal) (iblk0 V c 0 t) j = V c main_arg0 (((cfg0.win 5).blk t).view.emb j)
  refine (rows_pay (iblk0 V c 0 t) j).trans ?_
  show V c main_arg0 (((cfg0.win 0).blk t).view.emb j) = V c main_arg0 (((cfg0.win 5).blk t).view.emb j)
  refine congrArg (V c main_arg0) (funext fun a => Fin.ext ?_)
  match a with
  | ⟨0, _⟩ => show win0_0.index t (0 : Fin 3) * 1 + 1 * (j 0).val = win0_5.index t (0 : Fin 3) * 1 + 1 * (j 0).val; omega
  | ⟨1, _⟩ => show win0_0.index t (1 : Fin 3) * 1024 + 1 * (j 1).val = win0_5.index t (1 : Fin 3) * 1024 + 1 * (j 1).val; omega
  | ⟨2, _⟩ => show win0_0.index t (2 : Fin 3) * 1024 + 1 * (j 2).val = win0_5.index t (2 : Fin 3) * 1024 + 1 * (j 2).val; omega

/-- An index of the array is in point t's block iff each coordinate is in the block's range on its axis. -/
theorem mem_blk5 (t : Fin cfg0.N) (i : S4x2048x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v0_2).slice (win0_5.rect t)).set ↔ _
  rw [View.set_slice_whole, Rect.mem_set_unit]
  exact Iff.rfl

/-- The eight blocks tile the array. -/
theorem cover5 (i : S4x2048x1024.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- THE ROWS' ARRAY after the region is the first argument as the region found it. -/
theorem rows_array (c : Dev nD) : (dat0 (F := Ideal) V c).arrAt 5 cfg0.N = V c main_arg0 :=
  (dat0 (F := Ideal) V c).arrAt_eq_of_cover 5 (rowsArr V c) (fun t _ => flushed5_eq V c t) (cover5)

/-! ## The projected rows (output windows 3 and 4) -/

/-- A projection as one function of the whole arrays. -/
abbrev projArr (q : S4x2048x1024.Idx → EReal) (W : S256x1024.Idx → EReal) : S4x2048x256.Idx → EReal :=
  fun i => Attn.proj q W (i 0) (i 1) (i 2)

/-- The first stored projection at any index of its block: the sum over the features. -/
theorem proj_pay2 (x0 : FVec Ideal S1x1024x1024 .f32) (w : FVec Ideal S256x1024 .f32) (y : S1x1024x256.Idx) :
    k0_pay2 (F := Ideal) x0 w y = ∑ d : Fin 1024, x0 (ix3 (0 : Fin 1) (y 1) d) * w (ix2 (y 2) d) := by
  obtain ⟨u, r, j, rfl⟩ : ∃ (u : Fin 1) (r : Fin 1024) (j : Fin 256), y = ix3 u r j := ⟨y 0, y 1, y 2, eq_ix3 y⟩
  obtain rfl : u = 0 := Subsingleton.elim _ _
  exact PayloadReads.k0_pay2_at x0 w r j

/-- The second stored projection at any index of its block. -/
theorem proj_pay3 (x0 : FVec Ideal S1x1024x1024 .f32) (w : FVec Ideal S256x1024 .f32) (y : S1x1024x256.Idx) :
    k0_pay3 (F := Ideal) x0 w y = ∑ d : Fin 1024, x0 (ix3 (0 : Fin 1) (y 1) d) * w (ix2 (y 2) d) := by
  obtain ⟨u, r, j, rfl⟩ : ∃ (u : Fin 1) (r : Fin 1024) (j : Fin 256), y = ix3 u r j := ⟨y 0, y 1, y 2, eq_ix3 y⟩
  obtain rfl : u = 0 := Subsingleton.elim _ _
  exact PayloadReads.k0_pay3_at x0 w r j

/-- What point t writes back to window 3's array is block t of the projection by the second argument. -/
theorem flushed3_eq (c : Dev nD) (t : Fin cfg0.N) :
    (dat0 (F := Ideal) V c).flushed 3 t
      = ((cfg0.win 3).blk t).view.read (Elt Ideal) (projArr (V c main_arg0) (V c main_arg1)) := by
  show (cfg0.win 3).cut (grid0.coords t) ((dat0 (F := Ideal) V c).after 3 t) = _
  rw [after0_3]
  unfold projOutQ
  rw [View.canon_unit_zero hz3]
  simp only [View.ld_unit_zero (S := S1x1024x1024) hz3, View.ld_unit_zero (S := S256x1024) hz2]
  obtain ⟨e00, e01, e30, e31, -, -, e02, e32, -, -, e10, e11, -, -⟩ := idx_facts t
  funext j
  show k0_pay2 (F := Ideal) (iblk0 V c 0 t) (iblk0 V c 1 t) j
    = Attn.proj (V c main_arg0) (V c main_arg1) ((((cfg0.win 3).blk t).view.emb j) 0)
        ((((cfg0.win 3).blk t).view.emb j) 1) ((((cfg0.win 3).blk t).view.emb j) 2)
  refine (proj_pay2 (iblk0 V c 0 t) (iblk0 V c 1 t) j).trans ?_
  unfold Attn.proj
  have hj0 : (j 0).val < 1 := (j 0).isLt
  refine Finset.sum_congr rfl fun d _ => congrArg₂ (fun a b : EReal => a * b) ?_ ?_
  · show V c main_arg0 (((cfg0.win 0).blk t).view.emb (ix3 (0 : Fin 1) (j 1) d))
      = V c main_arg0 (ix3 ((((cfg0.win 3).blk t).view.emb j) 0) ((((cfg0.win 3).blk t).view.emb j) 1) d)
    refine congrArg (V c main_arg0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 1024 + 1 * (j 1).val = win0_3.index t (1 : Fin 3) * 1024 + 1 * (j 1).val; omega
    | ⟨2, _⟩ => show win0_0.index t (2 : Fin 3) * 1024 + 1 * d.val = d.val; omega
  · show V c main_arg1 (((cfg0.win 1).blk t).view.emb (ix2 (j 2) d))
      = V c main_arg1 (ix2 ((((cfg0.win 3).blk t).view.emb j) 2) d)
    refine congrArg (V c main_arg1) (funext fun a => Fin.ext ?_)
    match a with
    | ⟨0, _⟩ => show win0_1.index t (0 : Fin 2) * 256 + 1 * (j 2).val = win0_3.index t (2 : Fin 3) * 256 + 1 * (j 2).val; omega
    | ⟨1, _⟩ => show win0_1.index t (1 : Fin 2) * 1024 + 1 * d.val = d.val; omega

/-- What point t writes back to window 4's array is block t of the projection by the third argument. -/
theorem flushed4_eq (c : Dev nD) (t : Fin cfg0.N) :
    (dat0 (F := Ideal) V c).flushed 4 t
      = ((cfg0.win 4).blk t).view.read (Elt Ideal) (projArr (V c main_arg0) (V c main_arg2)) := by
  show (cfg0.win 4).cut (grid0.coords t) ((dat0 (F := Ideal) V c).after 4 t) = _
  rw [after0_4]
  unfold projOutK
  rw [View.canon_unit_zero hz3]
  simp only [View.ld_unit_zero (S := S1x1024x1024) hz3, View.ld_unit_zero (S := S256x1024) hz2]
  obtain ⟨e00, e01, -, -, e40, e41, e02, -, e42, -, -, -, e20, e21⟩ := idx_facts t
  funext j
  show k0_pay3 (F := Ideal) (iblk0 V c 0 t) (iblk0 V c 2 t) j
    = Attn.proj (V c main_arg0) (V c main_arg2) ((((cfg0.win 4).blk t).view.emb j) 0)
        ((((cfg0.win 4).blk t).view.emb j) 1) ((((cfg0.win 4).blk t).view.emb j) 2)
  refine (proj_pay3 (iblk0 V c 0 t) (iblk0 V c 2 t) j).trans ?_
  unfold Attn.proj
  have hj0 : (j 0).val < 1 := (j 0).isLt
  refine Finset.sum_congr rfl fun d _ => congrArg₂ (fun a b : EReal => a * b) ?_ ?_
  · show V c main_arg0 (((cfg0.win 0).blk t).view.emb (ix3 (0 : Fin 1) (j 1) d))
      = V c main_arg0 (ix3 ((((cfg0.win 4).blk t).view.emb j) 0) ((((cfg0.win 4).blk t).view.emb j) 1) d)
    refine congrArg (V c main_arg0) (funext fun a => Fin.ext ?_)
    match a with
    | ⟨0, _⟩ => show win0_0.index t (0 : Fin 3) * 1 + 1 * 0 = win0_4.index t (0 : Fin 3) * 1 + 1 * (j 0).val; omega
    | ⟨1, _⟩ => show win0_0.index t (1 : Fin 3) * 1024 + 1 * (j 1).val = win0_4.index t (1 : Fin 3) * 1024 + 1 * (j 1).val; omega
    | ⟨2, _⟩ => show win0_0.index t (2 : Fin 3) * 1024 + 1 * d.val = d.val; omega
  · show V c main_arg2 (((cfg0.win 2).blk t).view.emb (ix2 (j 2) d))
      = V c main_arg2 (ix2 ((((cfg0.win 4).blk t).view.emb j) 2) d)
    refine congrArg (V c main_arg2) (funext fun a => Fin.ext ?_)
    match a with
    | ⟨0, _⟩ => show win0_2.index t (0 : Fin 2) * 256 + 1 * (j 2).val = win0_4.index t (2 : Fin 3) * 256 + 1 * (j 2).val; omega
    | ⟨1, _⟩ => show win0_2.index t (1 : Fin 2) * 1024 + 1 * d.val = d.val; omega

theorem mem_blk3 (t : Fin cfg0.N) (i : S4x2048x256.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v0_0).slice (win0_3.rect t)).set ↔ _
  rw [View.set_slice_whole, Rect.mem_set_unit]
  exact Iff.rfl

theorem mem_blk4 (t : Fin cfg0.N) (i : S4x2048x256.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v0_1).slice (win0_4.rect t)).set ↔ _
  rw [View.set_slice_whole, Rect.mem_set_unit]
  exact Iff.rfl

theorem cover3 (i : S4x2048x256.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 256 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  obtain ⟨-, -, e30, e31, -, -, -, e32, -, -, -, -, -, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

theorem cover4 (i : S4x2048x256.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 256 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  obtain ⟨-, -, -, -, e40, e41, -, -, e42, -, -, -, -, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- THE FIRST PROJECTION'S ARRAY after the region: the rows of the first argument projected by the second. -/
theorem qproj_array (c : Dev nD) :
    (dat0 (F := Ideal) V c).arrAt 3 cfg0.N = fun i => Attn.proj (V c main_arg0) (V c main_arg1) (i 0) (i 1) (i 2) :=
  (dat0 (F := Ideal) V c).arrAt_eq_of_cover 3 (projArr (V c main_arg0) (V c main_arg1)) (fun t _ => flushed3_eq V c t) cover3

/-- THE SECOND PROJECTION'S ARRAY after the region: the rows of the first argument projected by the third. -/
theorem kproj_array (c : Dev nD) :
    (dat0 (F := Ideal) V c).arrAt 4 cfg0.N = fun i => Attn.proj (V c main_arg0) (V c main_arg2) (i 0) (i 1) (i 2) :=
  (dat0 (F := Ideal) V c).arrAt_eq_of_cover 4 (projArr (V c main_arg0) (V c main_arg2)) (fun t _ => flushed4_eq V c t) cover4

end Cert.KernelIdeal.Value0

end
-- ==== Proof.Steps.lean ====
/-
  The attention body's update of its three scratch buffers at one key tile, and its final output, as pure functions of
  the blocks it loads — named so that what the buffers hold point by point and the arithmetic of one update can be
  stated apart. With `qp` the point's block of projected query rows, `kp` the key tile's block of projected key rows
  and `kv` the key tile's block of value rows:
  * `stepMax qp kp m` is the new running maximum (the old one against the tile's row maxima of the scaled scores),
  * `stepDen qp kp m l` the new running denominator (the old one rescaled, plus the tile's exponentials),
  * `stepNum qp kp kv m a` the new running numerator (the old one rescaled, plus the tile's weighted value rows),
  * `startMax`, `startDen`, `startNum` what the reset at the first key tile stores, and
  * `finish a l wv` the output block: numerator over denominator, projected by `wv`.
-/
import proofs.«126484_j54142357733578_2_alg».proof.Proof.Gen.KernelIdeal.Skeleton

noncomputable section

namespace Cert.KernelIdeal.Gen

open Idealize.ShloMosaic

variable {F : FTy → Type} [FloatOps F]

def stepMax (qp : Vec F S1x1024x256 .bf16) (kp : Vec F S1x512x256 .bf16) (m : Vec F S1024x1 .f32) : Vec F S1024x1 .f32 :=
  k1_pay2 (k1_pay8 qp kp m)
def stepDen (qp : Vec F S1x1024x256 .bf16) (kp : Vec F S1x512x256 .bf16) (m l : Vec F S1024x1 .f32) : Vec F S1024x1 .f32 :=
  k1_pay11 qp kp m l
def stepNum (qp : Vec F S1x1024x256 .bf16) (kp : Vec F S1x512x256 .bf16) (kv : Vec F S1x512x1024 .bf16)
    (m : Vec F S1024x1 .f32) (a : Vec F S1024x1024 .f32) : Vec F S1024x1024 .f32 :=
  k1_pay1 (k1_pay9 qp kp m) (k1_pay12 qp kp m kv) a
def startMax : Vec F S1024x1 .f32 := k1_pay4
def startDen : Vec F S1024x1 .f32 := k1_pay5
def startNum : Vec F S1024x1024 .f32 := k1_pay6
def finish (a : Vec F S1024x1024 .f32) (l : Vec F S1024x1 .f32) (wv : Vec F S1024x1024 .bf16) : Vec F S1x1024x1024 .f32 :=
  k1_pay3 a l wv

end Cert.KernelIdeal.Gen

end
-- ==== Proof.Body1Closed.lean ====
/-
  What each case of the attention body leaves in the scratch buffers and in the output buffer, in closed form: the
  pieces the symbolic runs found, read back, are the update functions of Steps.lean applied to the point's input blocks
  and to the scratch the body started from — the reset values at a first key tile, what the point before left at the
  others. At a last key tile the output buffer holds `finish` of the updated numerator and denominator and the weight
  block.
-/
import proofs.«126484_j54142357733578_2_alg».proof.Proof.Body1
import proofs.«126484_j54142357733578_2_alg».proof.Proof.Steps
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- A scratch buffer read back whole is what it was said to hold. -/
theorem read_unread_scMax (h : scMax.IsWhole) (X : S1024x1.Idx → Elt F .f32) :
    View.read (Elt F) (View.whole cc1_scratch0 : View sig .tc .vmem S1024x1 .f32) (h.unread X) = X := h.read_unread X
theorem read_unread_scDen (h : scDen.IsWhole) (X : S1024x1.Idx → Elt F .f32) :
    View.read (Elt F) (View.whole cc1_scratch1 : View sig .tc .vmem S1024x1 .f32) (h.unread X) = X := h.read_unread X
theorem read_unread_scNum (h : scNum.IsWhole) (X : S1024x1024.Idx → Elt F .f32) :
    View.read (Elt F) (View.whole cc1_scratch2 : View sig .tc .vmem S1024x1024 .f32) (h.unread X) = X := h.read_unread X

section Region1
variable (V : (c : Dev nD) → (b : Ref sig .tc) → Buf (Elt F) ((c : Thread nD τ).loc b))

/-! ## A first key tile -/
theorem closedA_max (c : Dev nD) (t : Fin cfg1.N) (h0 : t.val % 4 = 0) (h1 : ¬t.val % 4 = 3) :
    (outsOf (runA_at V c t h0 h1).1 (runA_at V c t h0 h1).2.1 (runA_at V c t h0 h1).2.2.1 (runA_at V c t h0 h1).2.2.2.1).2.1
      = stepMax (iblk1 V c 0 t) (iblk1 V c 1 t) (startMax (F := F)) := by
  unfold outsOf; dsimp only
  rw [View.read_writes_eq_canon _ _ _ (scover1_A_0 V c t h0 h1)]
  unfold runA_at kernelRun1_A; dsimp only
  sl_unfold_words
  rw [View.canon_cons_unit_zero hz2]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

theorem closedA_den (c : Dev nD) (t : Fin cfg1.N) (h0 : t.val % 4 = 0) (h1 : ¬t.val % 4 = 3) :
    (outsOf (runA_at V c t h0 h1).1 (runA_at V c t h0 h1).2.1 (runA_at V c t h0 h1).2.2.1 (runA_at V c t h0 h1).2.2.2.1).2.2.1
      = stepDen (iblk1 V c 0 t) (iblk1 V c 1 t) (startMax (F := F)) (startDen (F := F)) := by
  unfold outsOf; dsimp only
  rw [View.read_writes_eq_canon _ _ _ (scover1_A_1 V c t h0 h1)]
  unfold runA_at kernelRun1_A; dsimp only
  sl_unfold_words
  rw [View.canon_cons_unit_zero hz2]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

theorem closedA_num (c : Dev nD) (t : Fin cfg1.N) (h0 : t.val % 4 = 0) (h1 : ¬t.val % 4 = 3) :
    (outsOf (runA_at V c t h0 h1).1 (runA_at V c t h0 h1).2.1 (runA_at V c t h0 h1).2.2.1 (runA_at V c t h0 h1).2.2.2.1).2.2.2
      = stepNum (iblk1 V c 0 t) (iblk1 V c 1 t) (iblk1 V c 2 t) (startMax (F := F)) (startNum (F := F)) := by
  unfold outsOf; dsimp only
  rw [View.read_writes_eq_canon _ _ _ (scover1_A_2 V c t h0 h1)]
  unfold runA_at kernelRun1_A; dsimp only
  sl_unfold_words
  rw [View.canon_cons_unit_zero hz2]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

/-! ## A middle key tile -/
theorem closedB_max (c : Dev nD) (t : Fin cfg1.N) (h0 : ¬t.val % 4 = 0) (h1 : ¬t.val % 4 = 3) (xs0 xs1 : Vec F S1024x1 .f32) (xs2 : Vec F S1024x1024 .f32) :
    (outsOf (runB_at V c t h0 h1 xs0 xs1 xs2).1 (runB_at V c t h0 h1 xs0 xs1 xs2).2.1 (runB_at V c t h0 h1 xs0 xs1 xs2).2.2.1 (runB_at V c t h0 h1 xs0 xs1 xs2).2.2.2.1).2.1
      = stepMax (iblk1 V c 0 t) (iblk1 V c 1 t) xs0 := by
  unfold outsOf; dsimp only
  rw [View.read_writes_eq_canon _ _ _ (scover1_B_0 V c t h0 h1 xs0 xs1 xs2)]
  unfold runB_at kernelRun1_B; dsimp only
  sl_unfold_words
  rw [View.canon_cons_unit_zero hz2]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

theorem closedB_den (c : Dev nD) (t : Fin cfg1.N) (h0 : ¬t.val % 4 = 0) (h1 : ¬t.val % 4 = 3) (xs0 xs1 : Vec F S1024x1 .f32) (xs2 : Vec F S1024x1024 .f32) :
    (outsOf (runB_at V c t h0 h1 xs0 xs1 xs2).1 (runB_at V c t h0 h1 xs0 xs1 xs2).2.1 (runB_at V c t h0 h1 xs0 xs1 xs2).2.2.1 (runB_at V c t h0 h1 xs0 xs1 xs2).2.2.2.1).2.2.1
      = stepDen (iblk1 V c 0 t) (iblk1 V c 1 t) xs0 xs1 := by
  unfold outsOf; dsimp only
  rw [View.read_writes_eq_canon _ _ _ (scover1_B_1 V c t h0 h1 xs0 xs1 xs2)]
  unfold runB_at kernelRun1_B; dsimp only
  sl_unfold_words
  rw [View.canon_cons_unit_zero hz2]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

theorem closedB_num (c : Dev nD) (t : Fin cfg1.N) (h0 : ¬t.val % 4 = 0) (h1 : ¬t.val % 4 = 3) (xs0 xs1 : Vec F S1024x1 .f32) (xs2 : Vec F S1024x1024 .f32) :
    (outsOf (runB_at V c t h0 h1 xs0 xs1 xs2).1 (runB_at V c t h0 h1 xs0 xs1 xs2).2.1 (runB_at V c t h0 h1 xs0 xs1 xs2).2.2.1 (runB_at V c t h0 h1 xs0 xs1 xs2).2.2.2.1).2.2.2
      = stepNum (iblk1 V c 0 t) (iblk1 V c 1 t) (iblk1 V c 2 t) xs0 xs2 := by
  unfold outsOf; dsimp only
  rw [View.read_writes_eq_canon _ _ _ (scover1_B_2 V c t h0 h1 xs0 xs1 xs2)]
  unfold runB_at kernelRun1_B; dsimp only
  sl_unfold_words
  rw [View.canon_cons_unit_zero hz2]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

/-! ## A last key tile -/
theorem closedC_max (c : Dev nD) (t : Fin cfg1.N) (h0 : ¬t.val % 4 = 0) (h1 : t.val % 4 = 3) (xs0 xs1 : Vec F S1024x1 .f32) (xs2 : Vec F S1024x1024 .f32) :
    (outsOf (runC_at V c t h0 h1 xs0 xs1 xs2).1 (runC_at V c t h0 h1 xs0 xs1 xs2).2.1 (runC_at V c t h0 h1 xs0 xs1 xs2).2.2.1 (runC_at V c t h0 h1 xs0 xs1 xs2).2.2.2.1).2.1
      = stepMax (iblk1 V c 0 t) (iblk1 V c 1 t) xs0 := by
  unfold outsOf; dsimp only
  rw [View.read_writes_eq_canon _ _ _ (scover1_C_0 V c t h0 h1 xs0 xs1 xs2)]
  unfold runC_at kernelRun1_C; dsimp only
  sl_unfold_words
  rw [View.canon_cons_unit_zero hz2]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

theorem closedC_den (c : Dev nD) (t : Fin cfg1.N) (h0 : ¬t.val % 4 = 0) (h1 : t.val % 4 = 3) (xs0 xs1 : Vec F S1024x1 .f32) (xs2 : Vec F S1024x1024 .f32) :
    (outsOf (runC_at V c t h0 h1 xs0 xs1 xs2).1 (runC_at V c t h0 h1 xs0 xs1 xs2).2.1 (runC_at V c t h0 h1 xs0 xs1 xs2).2.2.1 (runC_at V c t h0 h1 xs0 xs1 xs2).2.2.2.1).2.2.1
      = stepDen (iblk1 V c 0 t) (iblk1 V c 1 t) xs0 xs1 := by
  unfold outsOf; dsimp only
  rw [View.read_writes_eq_canon _ _ _ (scover1_C_1 V c t h0 h1 xs0 xs1 xs2)]
  unfold runC_at kernelRun1_C; dsimp only
  sl_unfold_words
  rw [View.canon_cons_unit_zero hz2]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

theorem closedC_num (c : Dev nD) (t : Fin cfg1.N) (h0 : ¬t.val % 4 = 0) (h1 : t.val % 4 = 3) (xs0 xs1 : Vec F S1024x1 .f32) (xs2 : Vec F S1024x1024 .f32) :
    (outsOf (runC_at V c t h0 h1 xs0 xs1 xs2).1 (runC_at V c t h0 h1 xs0 xs1 xs2).2.1 (runC_at V c t h0 h1 xs0 xs1 xs2).2.2.1 (runC_at V c t h0 h1 xs0 xs1 xs2).2.2.2.1).2.2.2
      = stepNum (iblk1 V c 0 t) (iblk1 V c 1 t) (iblk1 V c 2 t) xs0 xs2 := by
  unfold outsOf; dsimp only
  rw [View.read_writes_eq_canon _ _ _ (scover1_C_2 V c t h0 h1 xs0 xs1 xs2)]
  unfold runC_at kernelRun1_C; dsimp only
  sl_unfold_words
  rw [View.canon_cons_unit_zero hz2]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

theorem closedC_out (c : Dev nD) (t : Fin cfg1.N) (h0 : ¬t.val % 4 = 0) (h1 : t.val % 4 = 3) (xs0 xs1 : Vec F S1024x1 .f32) (xs2 : Vec F S1024x1024 .f32) :
    (outsOf (runC_at V c t h0 h1 xs0 xs1 xs2).1 (runC_at V c t h0 h1 xs0 xs1 xs2).2.1 (runC_at V c t h0 h1 xs0 xs1 xs2).2.2.1 (runC_at V c t h0 h1 xs0 xs1 xs2).2.2.2.1).1
      = finish (stepNum (iblk1 V c 0 t) (iblk1 V c 1 t) (iblk1 V c 2 t) xs0 xs2) (stepDen (iblk1 V c 0 t) (iblk1 V c 1 t) xs0 xs1) (iblk1 V c 3 t) := by
  unfold outsOf; dsimp only
  rw [View.read_writes_eq_canon _ _ _ (cover1_C_4 V c t h0 h1 xs0 xs1 xs2)]
  unfold runC_at kernelRun1_C; dsimp only
  sl_unfold_words
  rw [View.canon_cons_unit_zero hz3]
  simp only [View.readAt_eq_ld, Memref.IsWhole.read_unread, View.ld_unit_zero (S := S1x1024x256) hz3, View.ld_unit_zero (S := S1x512x256) hz3,
    View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2,
    read_unread_scMax, read_unread_scDen, read_unread_scNum]
  rfl

/-! ## Point by point -/

/-- At a first key tile the scratch ends at one update of the reset values. -/
theorem scr_first (c : Dev nD) (t : Fin cfg1.N) (h0 : t.val % 4 = 0) :
    (outsAt1 V c t.val t.isLt).2 = (stepMax (iblk1 V c 0 t) (iblk1 V c 1 t) startMax, stepDen (iblk1 V c 0 t) (iblk1 V c 1 t) startMax startDen,
      stepNum (iblk1 V c 0 t) (iblk1 V c 1 t) (iblk1 V c 2 t) startMax startNum) := by
  have h1 : ¬t.val % 4 = 3 := by omega
  rw [outsAt1_A V c t h0 h1]
  exact Prod.ext (closedA_max V c t h0 h1) (Prod.ext (closedA_den V c t h0 h1) (closedA_num V c t h0 h1))

/-- At any other key tile the scratch ends at one update of what the point before left. -/
theorem scr_next (c : Dev nD) (t : Fin cfg1.N) (h0 : ¬t.val % 4 = 0) :
    (outsAt1 V c t.val t.isLt).2 = (stepMax (iblk1 V c 0 t) (iblk1 V c 1 t) (prevAt V c t).2.1, stepDen (iblk1 V c 0 t) (iblk1 V c 1 t) (prevAt V c t).2.1 (prevAt V c t).2.2.1,
      stepNum (iblk1 V c 0 t) (iblk1 V c 1 t) (iblk1 V c 2 t) (prevAt V c t).2.1 (prevAt V c t).2.2.2) := by
  by_cases h1 : t.val % 4 = 3
  · rw [outsAt1_C V c t h0 h1]
    exact Prod.ext (closedC_max V c t h0 h1 _ _ _) (Prod.ext (closedC_den V c t h0 h1 _ _ _) (closedC_num V c t h0 h1 _ _ _))
  · rw [outsAt1_B V c t h0 h1]
    exact Prod.ext (closedB_max V c t h0 h1 _ _ _) (Prod.ext (closedB_den V c t h0 h1 _ _ _) (closedB_num V c t h0 h1 _ _ _))

/-- At a last key tile the output buffer holds the quotient of the updated numerator by the updated denominator,
    projected by the weight block. -/
theorem out_last (c : Dev nD) (t : Fin cfg1.N) (h1 : t.val % 4 = 3) :
    (outsAt1 V c t.val t.isLt).1 = finish (outsAt1 V c t.val t.isLt).2.2.2 (outsAt1 V c t.val t.isLt).2.2.1 (iblk1 V c 3 t) := by
  have h0 : ¬t.val % 4 = 0 := by omega
  rw [outsAt1_C V c t h0 h1, closedC_out V c t h0 h1, closedC_num V c t h0 h1, closedC_den V c t h0 h1]

end Region1

end Cert.KernelIdeal.Gen

end
-- ==== Proof.LibPlainDot.lean ====
/-
  A general lemma file: the plain matrix product M×K by K×N read at an entry, at the ideal values.

  A `tpu.matmul` into the zero accumulator, and the host's `dot_general`, whose dimension numbers contract the left
  operand's second axis with the right operand's first (no batch axis) are, at entry `(i, j)`, the sum over
  `k : Fin K` of `L (i, k) * R (k, j)`. Stated for any dimension record EQUAL to `DotDims.plain M K N` (a printed
  program's record with these dimension numbers is, by `rfl`), for any extents and operand formats.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- … and the contraction coordinate as its column. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index has the contraction coordinate as its row … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- … and `j`'s column. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

variable {M K N}

/-- The contraction's sum over its index type is the sum over `k : Fin K` of the operands at `(i, k)` and `(k, j)`. -/
theorem sum_contr {φ₁ φ₂ : FTy} (L : FVec Ideal ⟨2, ![M, K]⟩ φ₁) (R : FVec Ideal ⟨2, ![K, N]⟩ φ₂) (i : Fin M) (j : Fin N) :
    ∑ q : (DotDims.plain M K N).contr.Idx,
        L ((DotDims.plain M K N).lhsIdx (ix2 i j) q) * R ((DotDims.plain M K N).rhsIdx (ix2 i j) q)
      = ∑ k : Fin K, L (ix2 i k) * R (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs0 M K N _ _
      | ⟨1, _⟩ => exact (lhs1 M K N _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs0 M K N _ _).trans hk
      | ⟨1, _⟩ => exact rhs1 M K N _ _)
  rw [el, er]

/-- A `tpu.matmul` with these dimension numbers into the zero splat, read at `(i, j)`. -/
theorem matmul_zero_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    matmul d prec L R (constant (F := Ideal) ⟨2, ![M, N]⟩ .f32 0x00000000#32) (ix2 i j) = ∑ k : Fin K, L (ix2 i k) * R (ix2 k j) := by
  subst hd
  show FloatOps.matmul (DotDims.plain M K N) prec L R (constant ⟨2, ![M, N]⟩ .f32 0x00000000#32) (ix2 i j) = _
  rw [Ideal.matmul_constant_zero_apply]
  exact sum_contr L R i j

/-- The host's `dot_general` with these dimension numbers, read at `(i, j)`. -/
theorem hostDot_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    Host.dotGeneral (F := Ideal) d prec L R (ix2 i j) = ∑ k : Fin K, L (ix2 i k) * R (ix2 k j) := by
  subst hd
  simp only [Host.dotGeneral]
  rw [Ideal.dotGeneral_apply]
  exact sum_contr L R i j

end Cert.PlainDot

end
-- ==== Proof.LibRowMax.lean ====
/-
  A maximum along the rows of a matrix, read at a row.

  A kernel that takes the maximum of an `[a, b]` block along its second axis (the per-row maximum a numerically stable
  softmax subtracts) gets an `[a]` vector whose entry `p` is the maximum over `k` of the block at `(p, k)`, started from
  the accumulator's word. Maximum on the extended reals commutes and associates, so the order of the reduction does not
  matter and the entry is the fold of `max` over the row's coordinates. The lemma says so for any extents, with the indices
  written by coordinates, for a single-precision reduction started from the word of `-∞`; a second lemma says the same of
  a host reduction over the last axis of a rank-4 array, the reference's spelling of the same row maximum.
-/
import Idealize.ShloMosaic.PureOps.Ideal.Laws
import Idealize.ShloMosaic.Lib.ValueIdx

noncomputable section

namespace Cert.RowMax

open Idealize.ShloMosaic Idealize.ShloMosaic.ValueIdx

/-- An `[a, b]` array of single-precision values reduced by maximum along its second axis into `[a]`, starting from the
    word of `-∞`, reads at `p` the fold of `max`, from that word's value, over `k : Fin b` of the array at `(p, k)`. The
    hypothesis on the start word is typed as a printed program spells its proof (the word equal to itself). -/
theorem multiReduction_max_rows_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (fun f => Finset.fold max (Ideal.ofBits .f32 0xFF800000#32) f (Finset.univ : Finset (Fin b))) ?_
  exact funext fun k => congrArg v (funext fun c => Fin.ext (by
    match c with
    | ⟨0, _⟩ => rfl
    | ⟨1, _⟩ => rfl))

/-- The host's reduction by maximum over the LAST axis of an `[a, b, c, d]` array, from a scalar initial value, reads at
    `(p, q, r)` the fold of `max`, from the initial value, over `k : Fin d` of the array at `(p, q, r, k)`. -/
theorem hostReduce_max_last4_apply {a b c d : ℕ} (x : FVec Ideal ⟨4, ![a, b, c, d]⟩ .f32)
    (init : FVec Ideal ⟨0, ![]⟩ .f32)
    (h' : (⟨4, ![a, b, c, d]⟩ : Shape).ReducesTo [3] ⟨3, ![a, b, c]⟩)
    (h : (⟨4, ![a, b, c, d]⟩ : Shape).Reduces [3] ⟨3, ![a, b, c]⟩) (hu : 0 < (⟨0, ![]⟩ : Shape).numel)
    (p : Fin a) (q : Fin b) (r : Fin c) :
    Host.reduce FloatOps.maximumf x init h' hu (ix3 p q r)
      = (Finset.univ : Finset (Fin d)).fold max (init (Shape.Idx.first hu)) (fun k => x (ix4 p q r k)) := by
  refine (Host.reduce_eq_fold_single FloatOps.maximumf x init h' h hu (ix3 p q r)).trans ?_
  refine congrArg (fun f => Finset.fold max (init (Shape.Idx.first hu)) f (Finset.univ : Finset (Fin d))) ?_
  exact funext fun k => congrArg x (funext fun e => Fin.ext (by
    match e with
    | ⟨0, _⟩ => rfl
    | ⟨1, _⟩ => rfl
    | ⟨2, _⟩ => rfl
    | ⟨3, _⟩ => rfl))

end Cert.RowMax

end
-- ==== Proof.LibRowSums.lean ====
/-
  A sum along the rows of a matrix, read at a row.

  A kernel that reduces a `[a, b]` block along its second axis (a per-row sum: the numerator of a row mean, of a row
  variance, of a row norm) gets an `[a]` vector whose entry `p` is the sum over `k` of the block at `(p, k)`. The lemma
  says so for any extents, with the indices written by coordinates, for a single-precision sum started from the zero
  word.
-/
import Idealize.ShloMosaic.PureOps.Ideal.Laws
import Idealize.ShloMosaic.Lib.ValueIdx

noncomputable section

open scoped BigOperators

namespace Cert.RowSums

open Idealize.ShloMosaic Idealize.ShloMosaic.ValueIdx

/-- An `[a, b]` array of single-precision values summed along its second axis into `[a]`, starting from the zero word,
    reads at `p` the sum over `k : Fin b` of the array at `(p, k)`. The hypothesis on the start word is typed as a printed
    program spells its proof (the word equal to itself). -/
theorem multiReduction_add_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

end Cert.RowSums

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.PayloadReads1.lean ====
/-
  The attention kernel's arithmetic, read one entry at a time, at the ideal values.

  One step of the attention kernel works on a tile of 1024 query rows and a block of 512 keys. From the loaded blocks
  it forms, in order: the scores of the tile's rows against the block's keys, scaled by 1/16 (a contraction over the 256
  projected features); per row the new running maximum (the old one against the block's largest score); the factor
  exp (old maximum - new maximum) that rescales the old sums; the exponentials of the scores' distances below the new
  maximum; the new running denominator (the old one rescaled plus the row sum of the exponentials); the block's
  contribution to the numerator (the exponentials contracted with the block's value rows over the 512 keys); the new
  numerator (the old one rescaled plus the contribution); at the last block the quotient of numerator by denominator,
  contracted with the output weights; and at the first block the start values (a large negative finite number for the
  maximum, zero for both sums). Each lemma below reads one of these arrays at an index written by its coordinates:
  a change of format is the identity on the extended reals, a cast that drops or adds a unit axis keeps the entry, a
  column spread along its rows is read at the row, a row reduction is the fold or the sum over the row, and a matrix
  product into the zero accumulator is the sum over the contracted coordinate.
-/
import proofs.«126484_j54142357733578_2_alg».proof.Proof.Gen.KernelIdeal.Skeleton
import proofs.«126484_j54142357733578_2_alg».proof.Proof.LibTransposedDot
import proofs.«126484_j54142357733578_2_alg».proof.Proof.LibPlainDot
import proofs.«126484_j54142357733578_2_alg».proof.Proof.LibRowMax
import proofs.«126484_j54142357733578_2_alg».proof.Proof.LibRowSums
import proofs.«126484_j54142357733578_2_alg».proof.Proof.LibColumnLayouts
import Idealize.ShloMosaic.Lib.ValueLayout
import Idealize.ShloMosaic.Lib.ValueIdx

noncomputable section

open scoped BigOperators

namespace Cert.KernelIdeal.PayloadReads

open Cert.KernelIdeal Cert.KernelIdeal.Gen Idealize.ShloMosaic Idealize.ShloMosaic.ValueIdx

variable (v3 : FVec Ideal S1x1024x256 .bf16) (v5 : FVec Ideal S1x512x256 .bf16) (v10 v19 : FVec Ideal S1024x1 .f32)
  (v27 : FVec Ideal S1x512x1024 .bf16)

/-- The scaled scores of the tile's row r against the block's key k. -/
theorem pay7_at (r : Fin 1024) (k : Fin 512) :
    k1_pay7 (F := Ideal) v3 v5 (ix2 r k)
      = (∑ j : Fin 256, v3 (ix3 (0 : Fin 1) r j) * v5 (ix3 (0 : Fin 1) k j)) * Ideal.ofBits .f32 0x3D800000#32 := by
  unfold k1_pay7
  refine (mulf_apply _ _ _).trans ?_
  refine congrArg (fun z : EReal => z * Ideal.ofBits .f32 0x3D800000#32) ?_
  refine (TransposedDot.matmul_zero_apply (M := 1024) (K := 256) (N := 512)
    dot_S1024x256_S512x256_S1024x512_1_1_0_0_n_n rfl none _ _ r k).trans ?_
  exact Finset.sum_congr rfl fun j _ => congrArg₂ (fun a b : EReal => a * b)
    (shapeCast_1ab_ab_apply v3 _ r j) (shapeCast_1ab_ab_apply v5 _ k j)

/-- The new running maximum of row r: the old one against the largest score of the block. -/
theorem pay8_at (r : Fin 1024) :
    k1_pay8 (F := Ideal) v3 v5 v10 (ix2 r (0 : Fin 1))
      = max (v10 (ix2 r (0 : Fin 1)))
          ((Finset.univ : Finset (Fin 512)).fold max (Ideal.ofBits .f32 0xFF800000#32)
            fun k => k1_pay7 (F := Ideal) v3 v5 (ix2 r k)) := by
  unfold k1_pay8
  dsimp only
  refine (maximumf_apply _ _ _).trans ?_
  refine congrArg (fun z : EReal => max (v10 (ix2 r (0 : Fin 1))) z) ?_
  refine (ColumnLayouts.shapeCast_a_a1_apply _ _ r (0 : Fin 1)).trans ?_
  exact RowMax.multiReduction_max_rows_apply (k1_pay7 (F := Ideal) v3 v5) _ _ _ r

/-- The factor that rescales the old sums of row r. -/
theorem pay9_at (r : Fin 1024) :
    k1_pay9 (F := Ideal) v3 v5 v10 (ix2 r (0 : Fin 1))
      = Ideal.exp (v10 (ix2 r (0 : Fin 1)) - k1_pay8 (F := Ideal) v3 v5 v10 (ix2 r (0 : Fin 1))) := by
  unfold k1_pay9
  rfl

/-- The exponential of a score's distance below the new running maximum of its row. -/
theorem pay10_at (r : Fin 1024) (k : Fin 512) :
    k1_pay10 (F := Ideal) v3 v5 v10 (ix2 r k)
      = Ideal.exp (k1_pay7 (F := Ideal) v3 v5 (ix2 r k) - k1_pay8 (F := Ideal) v3 v5 v10 (ix2 r (0 : Fin 1))) := by
  unfold k1_pay10
  refine congrArg (fun z : EReal => Ideal.exp (k1_pay7 (F := Ideal) v3 v5 (ix2 r k) - z)) ?_
  exact ColumnLayouts.broadcastTo_a1_ab_apply (k1_pay8 (F := Ideal) v3 v5 v10) _ r k

/-- The new running denominator of row r. -/
theorem pay11_at (r : Fin 1024) :
    k1_pay11 (F := Ideal) v3 v5 v10 v19 (ix2 r (0 : Fin 1))
      = k1_pay9 (F := Ideal) v3 v5 v10 (ix2 r (0 : Fin 1)) * v19 (ix2 r (0 : Fin 1))
        + ∑ k : Fin 512, k1_pay10 (F := Ideal) v3 v5 v10 (ix2 r k) := by
  unfold k1_pay11
  dsimp only
  rw [shapeCast_self]
  refine (addf_apply _ _ _).trans ?_
  refine congrArg₂ (fun a b : EReal => a + b) (mulf_apply _ _ _) ?_
  refine (ColumnLayouts.shapeCast_a_a1_apply _ _ r (0 : Fin 1)).trans ?_
  exact RowSums.multiReduction_add_rows_apply (k1_pay10 (F := Ideal) v3 v5 v10) _ _ _ r

/-- The block's contribution to the numerator of row r at feature d. -/
theorem pay12_at (r d : Fin 1024) :
    k1_pay12 (F := Ideal) v3 v5 v10 v27 (ix2 r d)
      = ∑ k : Fin 512, k1_pay10 (F := Ideal) v3 v5 v10 (ix2 r k) * v27 (ix3 (0 : Fin 1) k d) := by
  unfold k1_pay12
  refine (PlainDot.matmul_zero_apply (M := 1024) (K := 512) (N := 1024)
    dot_S1024x512_S512x1024_S1024x1024_1_0_0_1_n_n rfl none _ _ r d).trans ?_
  exact Finset.sum_congr rfl fun k _ => congrArg₂ (fun a b : EReal => a * b)
    (truncf_apply (ψ := .bf16) _ bitsLt_bf16_f32 _) (shapeCast_1ab_ab_apply v27 _ k d)

/-- The new numerator: the old one rescaled plus the block's contribution. -/
theorem pay1_at (v15 : FVec Ideal S1024x1 .f32) (v30 v31 : FVec Ideal S1024x1024 .f32) (r d : Fin 1024) :
    k1_pay1 (F := Ideal) v15 v30 v31 (ix2 r d) = v15 (ix2 r (0 : Fin 1)) * v31 (ix2 r d) + v30 (ix2 r d) := by
  unfold k1_pay1
  rw [shapeCast_self]
  refine (addf_apply _ _ _).trans ?_
  refine congrArg (fun z : EReal => z + v30 (ix2 r d)) ?_
  refine (mulf_apply _ _ _).trans ?_
  exact congrArg (fun z : EReal => z * v31 (ix2 r d)) (ColumnLayouts.broadcastTo_a1_ab_apply v15 _ r d)

/-- The running maximum is stored as it is. -/
theorem pay2_eq (v13 : FVec Ideal S1024x1 .f32) : k1_pay2 (F := Ideal) v13 = v13 := by
  unfold k1_pay2
  exact shapeCast_self _ _

/-- At the last block: the quotients of numerator by denominator, contracted with the output weights. -/
theorem pay3_at (v44 : FVec Ideal S1024x1024 .f32) (v45 : FVec Ideal S1024x1 .f32) (v48 : FVec Ideal S1024x1024 .bf16)
    (r e : Fin 1024) :
    k1_pay3 (F := Ideal) v44 v45 v48 (ix3 (0 : Fin 1) r e)
      = ∑ d : Fin 1024, Ideal.div (v44 (ix2 r d)) (v45 (ix2 r (0 : Fin 1))) * v48 (ix2 e d) := by
  unfold k1_pay3
  refine (shapeCast_ab_1ab_apply _ _ (0 : Fin 1) r e).trans ?_
  refine (TransposedDot.matmul_zero_apply (M := 1024) (K := 1024) (N := 1024)
    dot_S1024x1024_S1024x1024_S1024x1024_1_1_0_0_n_n rfl none _ _ r e).trans ?_
  refine Finset.sum_congr rfl fun d _ => congrArg₂ (fun a b : EReal => a * b) ?_ ?_
  · refine (truncf_apply (ψ := .bf16) _ bitsLt_bf16_f32 _).trans ?_
    refine (divf_apply _ _ _).trans ?_
    exact congrArg (fun z : EReal => Ideal.div (v44 (ix2 r d)) z) (ColumnLayouts.broadcastTo_a1_ab_apply v45 _ r d)
  · exact congrFun (shapeCast_self v48 _) (ix2 e d)

/-- The start of the running maximum: a large negative finite number, at every index. -/
theorem pay4_apply (i : S1024x1.Idx) : k1_pay4 (F := Ideal) i = Ideal.ofBits .f32 0xFF333332#32 := by
  unfold k1_pay4
  exact congrFun (shapeCast_self _ _) i

/-- The start of the running denominator: zero, at every index. -/
theorem pay5_apply (i : S1024x1.Idx) : k1_pay5 (F := Ideal) i = Ideal.ofBits .f32 0x00000000#32 := by
  unfold k1_pay5
  exact congrFun (shapeCast_self _ _) i

/-- The start of the running numerator: zero, at every index. -/
theorem pay6_apply (i : S1024x1024.Idx) : k1_pay6 (F := Ideal) i = Ideal.ofBits .f32 0x00000000#32 := by
  unfold k1_pay6
  exact congrFun (shapeCast_self _ _) i

theorem pay4_at (r : Fin 1024) : k1_pay4 (F := Ideal) (ix2 r (0 : Fin 1)) = Ideal.ofBits .f32 0xFF333332#32 :=
  pay4_apply _
theorem pay5_at (r : Fin 1024) : k1_pay5 (F := Ideal) (ix2 r (0 : Fin 1)) = Ideal.ofBits .f32 0x00000000#32 :=
  pay5_apply _
theorem pay6_at (r d : Fin 1024) : k1_pay6 (F := Ideal) (ix2 r d) = Ideal.ofBits .f32 0x00000000#32 :=
  pay6_apply _

end Cert.KernelIdeal.PayloadReads

end
-- ==== Proof.StepMath.lean ====
/-
  One update of the attention kernel's scratch realises the blockwise form's step, row by row.

  Fix a batch `b` and a tile `qi` of 1024 query rows; row `r` of the tile is the query `qrow qi r`. The three scratch
  buffers (running maximum, denominator, numerator) REPRESENT the blockwise state after `n` key tiles when, for every
  row, the row's entries are the components of `kstate` for that query after `n` blocks (`Rep`). Then: what the reset
  stores represents the state before any key (`rep_start`); one update from the loaded blocks — the tile's projected
  query rows, the key tile's projected key rows and its value rows — takes a representation after `n` tiles to one
  after `n + 1` (`rep_step`); and from a representation after all four tiles the final output is the blockwise form's
  result (`rep_finish`). No arithmetic is involved: entry by entry, both sides are the same expression of the extended
  reals.
-/
import proofs.«126484_j54142357733578_2_alg».proof.Proof.Steps
import proofs.«126484_j54142357733578_2_alg».proof.Proof.PayloadReads1
import proofs.«126484_j54142357733578_2_alg».proof.Proof.Spec

noncomputable section

open scoped BigOperators

namespace Cert.KernelIdeal.StepMath

open Cert.KernelIdeal Cert.KernelIdeal.Gen Cert.Attn Cert.KernelIdeal.PayloadReads
open Idealize.ShloMosaic Idealize.ShloMosaic.ValueIdx

/-- Row `r` of query tile `qi`, as a query. -/
def qrow (qi : Fin 2) (r : Fin 1024) : Fin 2048 := ⟨qi.val * 1024 + r.val, by omega⟩

variable (q : SQ.Idx → EReal) (Wq Wk : SW.Idx → EReal) (Wv : SV.Idx → EReal) (b : Fin 4) (qi : Fin 2)

/-- The three scratch buffers hold, row by row, the blockwise state after `n` key tiles. -/
def Rep (n : ℕ) (m l : Vec Ideal S1024x1 .f32) (a : Vec Ideal S1024x1024 .f32) : Prop :=
  ∀ r : Fin 1024, ((m (ix2 r (0 : Fin 1)), l (ix2 r (0 : Fin 1)), fun d : Fin 1024 => a (ix2 r d)) : St)
    = kstate q Wq Wk b (qrow qi r) n

/-- What the reset stores represents the state before any key. -/
theorem rep_start : Rep q Wq Wk b qi 0 (startMax (F := Ideal)) (startDen (F := Ideal)) (startNum (F := Ideal)) := by
  intro r
  show _ = kinit
  unfold kinit
  exact Prod.ext (pay4_at r) (Prod.ext (pay5_at r) (funext fun d => pay6_at r d))

section Step

variable (n : ℕ) (qp : Vec Ideal S1x1024x256 .bf16) (kp : Vec Ideal S1x512x256 .bf16) (kv : Vec Ideal S1x512x1024 .bf16)
  (hqp : ∀ r j, qp (ix3 (0 : Fin 1) r j) = proj q Wq b (qrow qi r) j)
  (hkp : ∀ k j, kp (ix3 (0 : Fin 1) k j) = proj q Wk b (key n k) j)
  (hkv : ∀ k d, kv (ix3 (0 : Fin 1) k d) = q (ix3 b (key n k) d))

include hqp hkp in
/-- The scaled score of the tile's row `r` against the key tile's key `k` is the blockwise form's score. -/
theorem score_eq (r : Fin 1024) (k : Fin 512) :
    k1_pay7 (F := Ideal) qp kp (ix2 r k) = kscore q Wq Wk b (qrow qi r) (key n k) := by
  rw [pay7_at]
  unfold kscore raw
  simp only [hqp, hkp]

include hqp hkp in
/-- The new running maximum of row `r` is the blockwise form's. -/
theorem max_eq (m : Vec Ideal S1024x1 .f32) (r : Fin 1024) :
    k1_pay8 (F := Ideal) qp kp m (ix2 r (0 : Fin 1))
      = max (m (ix2 r (0 : Fin 1)))
          ((Finset.univ : Finset (Fin 512)).fold max (Ideal.ofBits .f32 0xFF800000#32)
            fun k => kscore q Wq Wk b (qrow qi r) (key n k)) := by
  rw [pay8_at]
  simp only [score_eq q Wq Wk b qi n qp kp hqp hkp]

include hqp hkp hkv in
/-- One update takes a representation after `n` key tiles to one after `n + 1`. -/
theorem rep_step (m l : Vec Ideal S1024x1 .f32) (a : Vec Ideal S1024x1024 .f32) (h : Rep q Wq Wk b qi n m l a) :
    Rep q Wq Wk b qi (n + 1) (stepMax qp kp m) (stepDen qp kp m l) (stepNum qp kp kv m a) := by
  intro r
  show _ = kstep q Wq Wk b (qrow qi r) (kstate q Wq Wk b (qrow qi r) n) n
  rw [← h r]
  unfold kstep
  refine Prod.ext ?_ (Prod.ext ?_ (funext fun d => ?_))
  · dsimp only
    unfold stepMax
    rw [pay2_eq, max_eq q Wq Wk b qi n qp kp hqp hkp]
  · dsimp only
    unfold stepDen
    rw [pay11_at, pay9_at]
    simp only [pay10_at, max_eq q Wq Wk b qi n qp kp hqp hkp, score_eq q Wq Wk b qi n qp kp hqp hkp]
  · dsimp only
    unfold stepNum
    rw [pay1_at, pay9_at, pay12_at]
    simp only [pay10_at, max_eq q Wq Wk b qi n qp kp hqp hkp, score_eq q Wq Wk b qi n qp kp hqp hkp, hkv]

end Step

/-- From a representation after all four key tiles, the final output is the blockwise form's result. -/
theorem rep_finish (wv : Vec Ideal S1024x1024 .bf16) (hwv : ∀ e d, wv (ix2 e d) = Wv (ix2 e d))
    (m l : Vec Ideal S1024x1 .f32) (a : Vec Ideal S1024x1024 .f32) (h : Rep q Wq Wk b qi 4 m l a) (r e : Fin 1024) :
    finish a l wv (ix3 (0 : Fin 1) r e) = kern q Wq Wk Wv b (qrow qi r) e := by
  unfold finish kern
  rw [pay3_at, ← h r]
  exact Finset.sum_congr rfl fun d _ => by rw [hwv]

end Cert.KernelIdeal.StepMath

end
-- ==== Proof.Value1.lean ====
/-
  The attention region's output array is the blockwise form of the specification.

  The region's grid has a point for each batch, each tile of 1024 query rows and each tile of 512 keys, the key tile
  moving fastest: point t is batch t / 8, query tile (t / 4) mod 2, key tile t mod 4. At a point the windows over the
  projected queries and over the output sit at block (batch, query tile, 0), the windows over the projected keys and
  over the value rows at block (batch, key tile, 0), and the weight window holds its whole array. The scratch buffers
  carry, along the four key tiles of one (batch, query tile), the running maximum, denominator and numerator of every
  query row of the tile; by induction on the point they hold exactly the blockwise form's state after the key tiles
  visited so far. At the fourth key tile the body stores numerator over denominator projected by the weight, which is
  the blockwise form's result for the tile's rows; that point alone writes its block back, and the eight such blocks
  tile the output array.
-/
import proofs.«126484_j54142357733578_2_alg».proof.Proof.Body1Closed
import proofs.«126484_j54142357733578_2_alg».proof.Proof.Steps
import proofs.«126484_j54142357733578_2_alg».proof.Proof.StepMath
import proofs.«126484_j54142357733578_2_alg».proof.Proof.Spec
import Idealize.ShloMosaic.Lib.Pipeline.Value
import Idealize.ShloMosaic.Lib.ValueIdx

noncomputable section

open scoped BigOperators

namespace Cert.KernelIdeal.Value1

open Cert.KernelIdeal Cert.KernelIdeal.Gen Cert.Attn Cert.KernelIdeal.StepMath Idealize.ShloMosaic
  Idealize.ShloMosaic.TcCoe Idealize.SL.Sem Idealize.ShloMosaic.ValueIdx
open Idealize.ShloMosaic.Pipeline (Dat)

-- the buffer contents when the region is entered, on one device
variable (V : (c : Dev nD) → (b : Ref sig .tc) → Buf (Elt Ideal) ((c : Thread nD τ).loc b)) (c : Dev nD)
-- the four argument arrays the entry contents are functions of
variable (q : SQ.Idx → EReal) (Wq Wk : SW.Idx → EReal) (Wv : SV.Idx → EReal)

/-! ## The grid and the windows' block indices -/

theorem N_1 : grid1.N = 32 := by decide

/-- At point t the windows over the projected queries and the output sit at block (t / 8, (t / 4) mod 2, 0), those over
    the projected keys and the value rows at block (t / 8, t mod 4, 0), the weight window at block (0, 0). -/
theorem idx_facts : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 2) = 0 ∧ win1_3.index t (1 : Fin 2) = 0
    ∧ win1_4.index t (0 : Fin 3) = t.val / 8 ∧ win1_4.index t (1 : Fin 3) = t.val / 4 % 2 ∧ win1_4.index t (2 : Fin 3) = 0 :=
  (by decide +kernel : ∀ t : Fin grid1.N, _)

/-- The batch of point t. -/
def bOf (t : Fin cfg1.N) : Fin 4 := ⟨t.val / 8, by have h : t.val < grid1.N := t.isLt; rw [N_1] at h; omega⟩
/-- The query tile of point t. -/
def qiOf (t : Fin cfg1.N) : Fin 2 := ⟨t.val / 4 % 2, Nat.mod_lt _ (by decide)⟩

/-! ## The input blocks at a point, read off the whole arrays -/

/-- The block of projected query rows: row r of the tile is query row (query tile, r) of the batch. -/
theorem blk0_at (t : Fin cfg1.N) (r : Fin 1024) (j : Fin 256) :
    iblk1 V c 0 t (ix3 (0 : Fin 1) r j) = V c main_v0_0 (ix3 (bOf t) (qrow (qiOf t) r) j) := by
  obtain ⟨e0, e1, e2, -⟩ := idx_facts t
  show V c main_v0_0 (((cfg1.win 0).blk t).view.emb (ix3 (0 : Fin 1) r j)) = _
  refine congrArg (V c main_v0_0) (funext fun a => Fin.ext ?_)
  match a with
  | ⟨0, _⟩ => show win1_0.index t (0 : Fin 3) * 1 + 1 * 0 = t.val / 8; omega
  | ⟨1, _⟩ => show win1_0.index t (1 : Fin 3) * 1024 + 1 * r.val = t.val / 4 % 2 * 1024 + r.val; omega
  | ⟨2, _⟩ => show win1_0.index t (2 : Fin 3) * 256 + 1 * j.val = j.val; omega

/-- The block of projected key rows: row k of the block is key (key tile, k) of the batch. -/
theorem blk1_at (t : Fin cfg1.N) (n : ℕ) (hn : n % 4 = t.val % 4) (k : Fin 512) (j : Fin 256) :
    iblk1 V c 1 t (ix3 (0 : Fin 1) k j) = V c main_v0_1 (ix3 (bOf t) (key n k) j) := by
  obtain ⟨-, -, -, e0, e1, e2, -⟩ := idx_facts t
  show V c main_v0_1 (((cfg1.win 1).blk t).view.emb (ix3 (0 : Fin 1) k j)) = _
  refine congrArg (V c main_v0_1) (funext fun a => Fin.ext ?_)
  match a with
  | ⟨0, _⟩ => show win1_1.index t (0 : Fin 3) * 1 + 1 * 0 = t.val / 8; omega
  | ⟨1, _⟩ => show win1_1.index t (1 : Fin 3) * 512 + 1 * k.val = n % 4 * 512 + k.val; omega
  | ⟨2, _⟩ => show win1_1.index t (2 : Fin 3) * 256 + 1 * j.val = j.val; omega

/-- The block of value rows, likewise. -/
theorem blk2_at (t : Fin cfg1.N) (n : ℕ) (hn : n % 4 = t.val % 4) (k : Fin 512) (d : Fin 1024) :
    iblk1 V c 2 t (ix3 (0 : Fin 1) k d) = V c main_v0_2 (ix3 (bOf t) (key n k) d) := by
  obtain ⟨-, -, -, -, -, -, e0, e1, e2, -⟩ := idx_facts t
  show V c main_v0_2 (((cfg1.win 2).blk t).view.emb (ix3 (0 : Fin 1) k d)) = _
  refine congrArg (V c main_v0_2) (funext fun a => Fin.ext ?_)
  match a with
  | ⟨0, _⟩ => show win1_2.index t (0 : Fin 3) * 1 + 1 * 0 = t.val / 8; omega
  | ⟨1, _⟩ => show win1_2.index t (1 : Fin 3) * 512 + 1 * k.val = n % 4 * 512 + k.val; omega
  | ⟨2, _⟩ => show win1_2.index t (2 : Fin 3) * 1024 + 1 * d.val = d.val; omega

/-- The weight window's block is the whole weight array. -/
theorem blk3_at (t : Fin cfg1.N) (e d : Fin 1024) :
    iblk1 V c 3 t (ix2 e d) = V c main_v1 (ix2 e d) := by
  obtain ⟨-, -, -, -, -, -, -, -, -, e0, e1, -⟩ := idx_facts t
  show V c main_v1 (((cfg1.win 3).blk t).view.emb (ix2 e d)) = _
  refine congrArg (V c main_v1) (funext fun a => Fin.ext ?_)
  match a with
  | ⟨0, _⟩ => show win1_3.index t (0 : Fin 2) * 1024 + 1 * e.val = e.val; omega
  | ⟨1, _⟩ => show win1_3.index t (1 : Fin 2) * 1024 + 1 * d.val = d.val; omega

/-! ## The scratch along the key tiles -/

section Invariant

variable (hqp : V c main_v0_0 = fun i : S4x2048x256.Idx => proj q Wq (i 0) (i 1) (i 2))
  (hkp : V c main_v0_1 = fun i : S4x2048x256.Idx => proj q Wk (i 0) (i 1) (i 2))
  (hv : V c main_v0_2 = q) (hw : V c main_v1 = Wv)

include hqp in
theorem qp_at (t : Fin cfg1.N) (r : Fin 1024) (j : Fin 256) :
    iblk1 V c 0 t (ix3 (0 : Fin 1) r j) = proj q Wq (bOf t) (qrow (qiOf t) r) j :=
  (blk0_at V c t r j).trans (congrFun hqp (ix3 (bOf t) (qrow (qiOf t) r) j))

include hkp in
theorem kp_at (t : Fin cfg1.N) (n : ℕ) (hn : n % 4 = t.val % 4) (k : Fin 512) (j : Fin 256) :
    iblk1 V c 1 t (ix3 (0 : Fin 1) k j) = proj q Wk (bOf t) (key n k) j :=
  (blk1_at V c t n hn k j).trans (congrFun hkp (ix3 (bOf t) (key n k) j))

include hv in
theorem kv_at (t : Fin cfg1.N) (n : ℕ) (hn : n % 4 = t.val % 4) (k : Fin 512) (d : Fin 1024) :
    iblk1 V c 2 t (ix3 (0 : Fin 1) k d) = q (ix3 (bOf t) (key n k) d) :=
  (blk2_at V c t n hn k d).trans (congrFun hv (ix3 (bOf t) (key n k) d))

include hw in
theorem wv_at (t : Fin cfg1.N) (e d : Fin 1024) : iblk1 V c 3 t (ix2 e d) = Wv (ix2 e d) :=
  (blk3_at V c t e d).trans (congrFun hw (ix2 e d))

include hqp hkp hv in
/-- At a first key tile the scratch holds the state after one block. -/
theorem inv_first (t : Fin cfg1.N) (h0 : t.val % 4 = 0) :
    Rep q Wq Wk (bOf t) (qiOf t) (t.val % 4 + 1) (outsAt1 V c t.val t.isLt).2.1 (outsAt1 V c t.val t.isLt).2.2.1
      (outsAt1 V c t.val t.isLt).2.2.2 := by
  have e := scr_first V c t h0
  have e1 : (outsAt1 V c t.val t.isLt).2.1 = _ := congrArg (fun p => p.1) e
  have e2 : (outsAt1 V c t.val t.isLt).2.2.1 = _ := congrArg (fun p => p.2.1) e
  have e3 : (outsAt1 V c t.val t.isLt).2.2.2 = _ := congrArg (fun p => p.2.2) e
  rw [e1, e2, e3, h0]
  exact rep_step q Wq Wk (bOf t) (qiOf t) 0 (iblk1 V c 0 t) (iblk1 V c 1 t) (iblk1 V c 2 t)
    (qp_at V c q Wq hqp t) (kp_at V c q Wk hkp t 0 (by omega)) (kv_at V c q hv t 0 (by omega))
    startMax startDen startNum (rep_start q Wq Wk (bOf t) (qiOf t))

include hqp hkp hv in
/-- At a later key tile the scratch holds one block more than the point before left. -/
theorem inv_next (t : Fin cfg1.N) (h0 : ¬t.val % 4 = 0)
    (prev : Rep q Wq Wk (bOf t) (qiOf t) (t.val % 4) (prevAt V c t).2.1 (prevAt V c t).2.2.1 (prevAt V c t).2.2.2) :
    Rep q Wq Wk (bOf t) (qiOf t) (t.val % 4 + 1) (outsAt1 V c t.val t.isLt).2.1 (outsAt1 V c t.val t.isLt).2.2.1
      (outsAt1 V c t.val t.isLt).2.2.2 := by
  have e := scr_next V c t h0
  have e1 : (outsAt1 V c t.val t.isLt).2.1 = _ := congrArg (fun p => p.1) e
  have e2 : (outsAt1 V c t.val t.isLt).2.2.1 = _ := congrArg (fun p => p.2.1) e
  have e3 : (outsAt1 V c t.val t.isLt).2.2.2 = _ := congrArg (fun p => p.2.2) e
  rw [e1, e2, e3]
  exact rep_step q Wq Wk (bOf t) (qiOf t) (t.val % 4) (iblk1 V c 0 t) (iblk1 V c 1 t) (iblk1 V c 2 t)
    (qp_at V c q Wq hqp t) (kp_at V c q Wk hkp t (t.val % 4) (by omega)) (kv_at V c q hv t (t.val % 4) (by omega))
    _ _ _ prev

include hqp hkp hv in
/-- THE INVARIANT: after the body at position n the scratch holds, for every query row of the point's tile, the
    blockwise state after the key tiles visited so far. -/
theorem inv : ∀ (n : ℕ) (hn : n < cfg1.N),
    Rep q Wq Wk (bOf ⟨n, hn⟩) (qiOf ⟨n, hn⟩) (n % 4 + 1) (outsAt1 V c n hn).2.1 (outsAt1 V c n hn).2.2.1
      (outsAt1 V c n hn).2.2.2 := by
  intro n
  induction n with
  | zero => intro hn; exact inv_first V c q Wq Wk hqp hkp hv ⟨0, hn⟩ (Nat.zero_mod 4)
  | succ n ih =>
    intro hn
    by_cases h0 : (n + 1) % 4 = 0
    · exact inv_first V c q Wq Wk hqp hkp hv ⟨n + 1, hn⟩ h0
    · have hn' : n < cfg1.N := Nat.lt_of_succ_lt hn
      have prev := ih hn'
      have hb : bOf ⟨n, hn'⟩ = bOf ⟨n + 1, hn⟩ := Fin.ext (by show n / 8 = (n + 1) / 8; omega)
      have hq : qiOf ⟨n, hn'⟩ = qiOf ⟨n + 1, hn⟩ := Fin.ext (by show n / 4 % 2 = (n + 1) / 4 % 2; omega)
      have hc : n % 4 + 1 = (n + 1) % 4 := by omega
      rw [hb, hq, hc] at prev
      exact inv_next V c q Wq Wk hqp hkp hv ⟨n + 1, hn⟩ h0 prev

include hqp hkp hv hw in
/-- At a last key tile the output buffer holds the blockwise form's result for the tile's rows. -/
theorem out_at (t : Fin cfg1.N) (h1 : t.val % 4 = 3) (r e : Fin 1024) :
    (outsAt1 V c t.val t.isLt).1 (ix3 (0 : Fin 1) r e) = kern q Wq Wk Wv (bOf t) (qrow (qiOf t) r) e := by
  have h := inv V c q Wq Wk hqp hkp hv t.val t.isLt
  rw [h1] at h
  rw [out_last V c t h1]
  exact rep_finish q Wq Wk Wv (bOf t) (qiOf t) (iblk1 V c 3 t) (wv_at V c Wv hw t) _ _ _ h r e

include hqp hkp hv hw in
/-- The same at any index of the block. -/
theorem out_apply (t : Fin cfg1.N) (h1 : t.val % 4 = 3) (y : S1x1024x1024.Idx) :
    (outsAt1 V c t.val t.isLt).1 y = kern q Wq Wk Wv (bOf t) (qrow (qiOf t) (y 1)) (y 2) := by
  obtain ⟨u, r, e, rfl⟩ : ∃ (u : Fin 1) (r e : Fin 1024), y = ix3 u r e := ⟨y 0, y 1, y 2, eq_ix3 y⟩
  obtain rfl : u = 0 := Subsingleton.elim _ _
  exact out_at V c q Wq Wk Wv hqp hkp hv hw t h1 r e

/-! ## From the blocks to the array -/

/-- The blockwise form as one function of the index. -/
abbrev kernArr : S4x2048x1024.Idx → EReal := fun i => kern q Wq Wk Wv (i 0) (i 1) (i 2)

include hqp hkp hv hw in
/-- What a last key tile's point writes back is its block of the blockwise form. -/
theorem flushed4_eq (t : Fin cfg1.N) (hf : (cfg1.win 4).flush t = true) :
    (dat1 (F := Ideal) V c).flushed 4 t = ((cfg1.win 4).blk t).view.read (Elt Ideal) (kernArr q Wq Wk Wv) := by
  have h1 : t.val % 4 = 3 := (flush1_4 t).mp hf
  obtain ⟨-, -, -, -, -, -, -, -, -, -, -, e0, e1, e2⟩ := idx_facts t
  show (cfg1.win 4).cut (grid1.coords t) ((dat1 (F := Ideal) V c).after 4 t) = _
  rw [after1_4]
  funext j
  show (outsAt1 V c t.val t.isLt).1 j
    = kern q Wq Wk Wv ((((cfg1.win 4).blk t).view.emb j) 0) ((((cfg1.win 4).blk t).view.emb j) 1)
        ((((cfg1.win 4).blk t).view.emb j) 2)
  refine (out_apply V c q Wq Wk Wv hqp hkp hv hw t h1 j).trans ?_
  have hj0 : (j 0).val < 1 := (j 0).isLt
  refine congr (congr (congrArg (kern q Wq Wk Wv) (Fin.ext ?_)) (Fin.ext ?_)) (Fin.ext ?_)
  · show t.val / 8 = win1_4.index t (0 : Fin 3) * 1 + 1 * (j 0).val; omega
  · show t.val / 4 % 2 * 1024 + (j 1).val = win1_4.index t (1 : Fin 3) * 1024 + 1 * (j 1).val; omega
  · show (j 2).val = win1_4.index t (2 : Fin 3) * 1024 + 1 * (j 2).val; omega

end Invariant

/-- An index of the array is in point t's block iff each coordinate is in the block's range on its axis. -/
theorem mem_blk4 (t : Fin cfg1.N) (i : S4x2048x1024.Idx) :
    i ∈ ((cfg1.win 4).blk t).view.set ↔ ∀ a : Fin 3, win1_4.index t a * S1x1024x1024.size a ≤ (i a).val
      ∧ (i a).val < win1_4.index t a * S1x1024x1024.size a + S1x1024x1024.size a := by
  show i ∈ ((View.whole main_v2).slice (win1_4.rect t)).set ↔ _
  rw [View.set_slice_whole, Rect.mem_set_unit]
  exact Iff.rfl

/-- The blocks of the eight last-key-tile points tile the array. -/
theorem cover4 (i : S4x2048x1024.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  have ht : (i 0).val * 8 + (i 1).val / 1024 * 4 + 3 < cfg1.N := by show _ < grid1.N; rw [N_1]; omega
  obtain ⟨-, -, -, -, -, -, -, -, -, -, -, e0, e1, e2⟩ := idx_facts ⟨(i 0).val * 8 + (i 1).val / 1024 * 4 + 3, ht⟩
  have e0' : win1_4.index ⟨(i 0).val * 8 + (i 1).val / 1024 * 4 + 3, ht⟩ (0 : Fin 3)
      = ((i 0).val * 8 + (i 1).val / 1024 * 4 + 3) / 8 := e0
  have e1' : win1_4.index ⟨(i 0).val * 8 + (i 1).val / 1024 * 4 + 3, ht⟩ (1 : Fin 3)
      = ((i 0).val * 8 + (i 1).val / 1024 * 4 + 3) / 4 % 2 := e1
  refine ⟨⟨(i 0).val * 8 + (i 1).val / 1024 * 4 + 3, ht⟩, (flush1_4 _).mpr ?_, ?_⟩
  · show ((i 0).val * 8 + (i 1).val / 1024 * 4 + 3) % 4 = 3; omega
  · rw [mem_blk4]
    intro a
    match a with
    | ⟨0, _⟩ =>
      show win1_4.index ⟨(i 0).val * 8 + (i 1).val / 1024 * 4 + 3, ht⟩ (0 : Fin 3) * 1 ≤ (i 0).val
        ∧ (i 0).val < win1_4.index ⟨(i 0).val * 8 + (i 1).val / 1024 * 4 + 3, ht⟩ (0 : Fin 3) * 1 + 1
      omega
    | ⟨1, _⟩ =>
      show win1_4.index ⟨(i 0).val * 8 + (i 1).val / 1024 * 4 + 3, ht⟩ (1 : Fin 3) * 1024 ≤ (i 1).val
        ∧ (i 1).val < win1_4.index ⟨(i 0).val * 8 + (i 1).val / 1024 * 4 + 3, ht⟩ (1 : Fin 3) * 1024 + 1024
      omega
    | ⟨2, _⟩ =>
      show win1_4.index ⟨(i 0).val * 8 + (i 1).val / 1024 * 4 + 3, ht⟩ (2 : Fin 3) * 1024 ≤ (i 2).val
        ∧ (i 2).val < win1_4.index ⟨(i 0).val * 8 + (i 1).val / 1024 * 4 + 3, ht⟩ (2 : Fin 3) * 1024 + 1024
      omega

/-- THE OUTPUT ARRAY after the region is the blockwise form of the four argument arrays, when the region is entered
    with the two projections, the first argument's rows and the output weight in its four input arrays. -/
theorem out_array (hqp : V c main_v0_0 = fun i : S4x2048x256.Idx => proj q Wq (i 0) (i 1) (i 2))
    (hkp : V c main_v0_1 = fun i : S4x2048x256.Idx => proj q Wk (i 0) (i 1) (i 2))
    (hv : V c main_v0_2 = q) (hw : V c main_v1 = Wv) :
    (dat1 (F := Ideal) V c).arrAt 4 cfg1.N = fun i => kern q Wq Wk Wv (i 0) (i 1) (i 2) :=
  (dat1 (F := Ideal) V c).arrAt_eq_of_cover 4 (kernArr q Wq Wk Wv)
    (fun t hf => flushed4_eq V c q Wq Wk Wv hqp hkp hv hw t hf) cover4

end Cert.KernelIdeal.Value1

end
-- ==== Proof.LibOnlineSoftmax.lean ====
import Mathlib
import Idealize.ShloMosaic.PureOps.Ideal

/-!
# The online (blockwise) softmax

A softmax-weighted average of values over a finite set of keys can be computed in one pass
over the keys, block by block, keeping three running quantities: the running maximum `m` of
the scores seen so far, the running denominator `l = Σ exp (s t − m)` and the running
numerator `a = Σ exp (s t − m) · v t`. When a new block raises the maximum to `m'`, the old
sums are rescaled by `exp (m − m')`. This file states the invariant of that loop (`Inv`),
proves that it holds at the start (`Inv.empty`), that one block preserves it (`Inv.step`),
and that at the end `a / l` is the softmax-weighted average (`Inv.final`).

The scores and values are real numbers; the running quantities live in the extended reals,
because the running maximum starts at `⊥`.
-/

open Idealize.ShloMosaic
open scoped BigOperators

namespace Cert.OnlineSoftmax

variable {α : Type} [DecidableEq α]

/-- The coercion `ℝ → EReal` commutes with finite sums. -/
theorem coe_sum {ι : Type} (S : Finset ι) (f : ι → ℝ) :
    ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The fold of `max` from `⊥` is the finite supremum. -/
theorem fold_eq_sup {ι : Type} (S : Finset ι) (f : ι → EReal) :
    S.fold max ⊥ f = S.sup f := rfl

/-- Over a nonempty finite set, the maximum of coerced reals is the coercion of a real,
    namely of the real maximum. -/
theorem fold_eq_coe {ι : Type} (S : Finset ι) (hS : S.Nonempty) (s : ι → ℝ) :
    S.fold max ⊥ (fun t => (s t : EReal)) = ((S.sup' hS s : ℝ) : EReal) := by
  rw [fold_eq_sup]
  apply le_antisymm
  · apply Finset.sup_le
    intro t ht
    exact EReal.coe_le_coe_iff.mpr (Finset.le_sup' s ht)
  · obtain ⟨t, ht, hEq⟩ := Finset.exists_mem_eq_sup' hS s
    rw [hEq]
    exact Finset.le_sup (f := fun t => (s t : EReal)) ht

/-- the state after the keys in S -/
structure Inv (s v : α → ℝ) (S : Finset α) (m l a : EReal) : Prop where
  hm : m = S.fold max ⊥ (fun t => (s t : EReal))
  hl : l = ((∑ t ∈ S, Real.exp (s t - m.toReal) : ℝ) : EReal)
  ha : a = ((∑ t ∈ S, Real.exp (s t - m.toReal) * v t : ℝ) : EReal)

/-- Before any key is visited: maximum `⊥`, both sums `0`. -/
theorem Inv.empty (s v : α → ℝ) : Inv s v ∅ ⊥ 0 0 := by
  refine ⟨?_, ?_, ?_⟩
  · simp
  · simp
  · simp

/-- Rescaling the running sums to a new reference point `M'`: multiplying by
    `exp (m − M')` turns `Σ exp (s − m) · w` into `Σ exp (s − M') · w`. For the empty set
    the factor is `exp ⊥ = 0` and both sides are `0`. -/
theorem rescale (s w : α → ℝ) (S : Finset α) (m : EReal)
    (hm : m = S.fold max ⊥ (fun t => (s t : EReal))) (M' : ℝ) :
    Ideal.exp (m - (M' : EReal)) * ((∑ t ∈ S, Real.exp (s t - m.toReal) * w t : ℝ) : EReal)
      = ((∑ t ∈ S, Real.exp (s t - M') * w t : ℝ) : EReal) := by
  rcases S.eq_empty_or_nonempty with hS | hS
  · subst hS
    simp
  · rw [fold_eq_coe S hS s] at hm
    subst hm
    rw [EReal.toReal_coe, ← EReal.coe_sub, Ideal.exp_coe, ← EReal.coe_mul, Finset.mul_sum]
    congr 1
    apply Finset.sum_congr rfl
    intro t _
    rw [← mul_assoc, ← Real.exp_add]
    congr 2
    ring

/-- One block: visiting the new keys `e r` (distinct, none seen before) with the update
    `m' = max m (block max)`, `l' = exp (m − m') · l + Σ exp (s − m')`,
    `a' = exp (m − m') · a + Σ exp (s − m') · v` preserves the invariant. -/
theorem Inv.step {β : Type} [Fintype β] [Nonempty β] (s v : α → ℝ) (S : Finset α) (m l a : EReal) (h : Inv s v S m l a)
    (e : β → α) (he : Function.Injective e) (hd : ∀ r, e r ∉ S) :
    Inv s v (S ∪ Finset.univ.image e)
      (max m (Finset.univ.fold max ⊥ (fun r : β => (s (e r) : EReal))))
      (Ideal.exp (m - max m (Finset.univ.fold max ⊥ (fun r : β => (s (e r) : EReal)))) * l
        + ∑ r : β, Ideal.exp ((s (e r) : EReal) - max m (Finset.univ.fold max ⊥ (fun r : β => (s (e r) : EReal)))))
      (Ideal.exp (m - max m (Finset.univ.fold max ⊥ (fun r : β => (s (e r) : EReal)))) * a
        + ∑ r : β, Ideal.exp ((s (e r) : EReal) - max m (Finset.univ.fold max ⊥ (fun r : β => (s (e r) : EReal)))) * (v (e r) : EReal)) := by
  -- the new maximum is the maximum over the enlarged set
  have hm' : max m (Finset.univ.fold max ⊥ (fun r : β => (s (e r) : EReal)))
      = (S ∪ Finset.univ.image e).fold max ⊥ (fun t => (s t : EReal)) := by
    rw [h.hm, fold_eq_sup, fold_eq_sup, fold_eq_sup, Finset.sup_union, Finset.sup_image]
    rfl
  -- the enlarged set is nonempty, so that maximum is a real number
  have hne : (S ∪ Finset.univ.image e).Nonempty :=
    (Finset.univ_nonempty.image e).mono Finset.subset_union_right
  have hM' := fold_eq_coe _ hne s
  -- the old keys and the new keys are disjoint
  have hdisj : Disjoint S (Finset.univ.image e) := by
    rw [Finset.disjoint_right]
    intro t ht
    obtain ⟨r, _, rfl⟩ := Finset.mem_image.mp ht
    exact hd r
  rw [hm', hM']
  set M' : ℝ := (S ∪ Finset.univ.image e).sup' hne s with hM'def
  refine ⟨hM'.symm, ?_, ?_⟩
  · have hr := rescale s (fun _ => 1) S m h.hm M'
    simp only [mul_one] at hr
    rw [h.hl, hr, EReal.toReal_coe, Finset.sum_union hdisj, Finset.sum_image (fun x _ y _ hxy => he hxy),
      EReal.coe_add, coe_sum Finset.univ]
    -- what is left is `exp ↑x = ↑(Real.exp x)` termwise, which holds by definition
    congr 1
  · have hr := rescale s v S m h.hm M'
    rw [h.ha, hr, EReal.toReal_coe, Finset.sum_union hdisj, Finset.sum_image (fun x _ y _ hxy => he hxy),
      EReal.coe_add, coe_sum Finset.univ]
    -- termwise `exp ↑x * ↑y = ↑(Real.exp x * y)`, again by definition
    congr 1

/-- After all keys: the quotient of the running numerator by the running denominator is the
    softmax-weighted average of the values. -/
theorem Inv.final [Fintype α] [Nonempty α] (s v : α → ℝ) (m l a : EReal) (h : Inv s v Finset.univ m l a) :
    Ideal.div a l = ∑ t : α, Ideal.div (Ideal.exp ((s t : EReal) - Finset.univ.fold max ⊥ (fun t => (s t : EReal))))
        (∑ t' : α, Ideal.exp ((s t' : EReal) - Finset.univ.fold max ⊥ (fun t => (s t : EReal)))) * (v t : EReal) := by
  have hM := fold_eq_coe (Finset.univ : Finset α) Finset.univ_nonempty s
  set M : ℝ := (Finset.univ : Finset α).sup' Finset.univ_nonempty s with hMdef
  have hmM : m = (M : EReal) := h.hm.trans hM
  -- the denominator is a positive real
  have hLpos : 0 < ∑ t : α, Real.exp (s t - M) :=
    Finset.sum_pos (fun t _ => Real.exp_pos _) Finset.univ_nonempty
  have hden : (∑ t' : α, Ideal.exp ((s t' : EReal) - (M : EReal)))
      = ((∑ t : α, Real.exp (s t - M) : ℝ) : EReal) := by
    rw [coe_sum]
    apply Finset.sum_congr rfl
    intro t _
    rw [← EReal.coe_sub, Ideal.exp_coe]
  rw [hM, hden, h.ha, h.hl, hmM, EReal.toReal_coe, Ideal.div_coe hLpos.ne', ← EReal.coe_mul, Finset.sum_mul]
  refine (coe_sum _ _).trans ?_
  apply Finset.sum_congr rfl
  intro t _
  rw [Ideal.div_coe hLpos.ne', ← EReal.coe_sub, Ideal.exp_coe, ← EReal.coe_mul, ← EReal.coe_mul]
  congr 1
  ring

end Cert.OnlineSoftmax
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.LibShiftedSoftmax.lean ====
/-
  A general lemma file: the blockwise softmax whose running maximum starts at a FINITE number.

  A softmax-weighted average over a finite set of keys can be computed block by block with a running maximum `m`, a
  running denominator `l` and running numerators `a d`, the old sums rescaled by `exp (m − m')` whenever the maximum
  moves to `m'`. When the running maximum starts at a real number rather than at `-∞`, it is no longer the maximum of the
  scores seen so far, only an upper bound of them. The loop is still correct, because the quotient `a d / l` does not
  depend on the reference point the exponentials are taken against. This file states the invariant of that loop with SOME
  real reference point (`Inv`), proves it at the start (`Inv.init`) and through one block (`Inv.step`), and proves that
  after all keys `a d / l` is the softmax-weighted average written against the true maximum (`Inv.final`).

  The scores `s` and values `v` are real; the running quantities live in the extended reals.
-/
import proofs.«126484_j54142357733578_2_alg».proof.Proof.LibOnlineSoftmax
import proofs.«126484_j54142357733578_2_alg».proof.Proof.LibFiniteReals

noncomputable section

namespace Cert.ShiftedSoftmax

open Idealize.ShloMosaic
open scoped BigOperators

variable {α : Type} [DecidableEq α] {δ : Type}

/-- The coercion of the larger of two reals is the larger of the coercions. -/
theorem coe_max (x y : ℝ) : max (x : EReal) (y : EReal) = ((max x y : ℝ) : EReal) :=
  (EReal.coe_strictMono.monotone.map_max).symm

/-- Moving the reference point of a weighted sum of exponentials from `μ` to `μ'` costs the factor `exp (μ − μ')`. -/
theorem shift (s w : α → ℝ) (S : Finset α) (μ μ' : ℝ) :
    Real.exp (μ - μ') * ∑ t ∈ S, Real.exp (s t - μ) * w t = ∑ t ∈ S, Real.exp (s t - μ') * w t := by
  rw [Finset.mul_sum]
  apply Finset.sum_congr rfl
  intro t _
  rw [← mul_assoc, ← Real.exp_add]
  congr 2
  ring

/-- The same without weights. -/
theorem shift_one (s : α → ℝ) (S : Finset α) (μ μ' : ℝ) :
    Real.exp (μ - μ') * ∑ t ∈ S, Real.exp (s t - μ) = ∑ t ∈ S, Real.exp (s t - μ') := by
  have h := shift s (fun _ => 1) S μ μ'
  simpa only [mul_one] using h

/-- One block's update of a weighted running sum, in the extended reals: the old sum (reference point `μ`) rescaled by
    `exp (μ − μ')`, plus the block's terms taken against `μ'`, is the sum over the old and the new keys against `μ'`.
    The new keys `e r` are distinct and none was seen before. -/
theorem step_sum {β : Type} [Fintype β] (s w : α → ℝ) (S : Finset α) (μ μ' : ℝ) (e : β → α)
    (he : Function.Injective e) (hd : ∀ r, e r ∉ S) :
    Ideal.exp ((μ : EReal) - (μ' : EReal)) * ((∑ t ∈ S, Real.exp (s t - μ) * w t : ℝ) : EReal)
        + ∑ r : β, Ideal.exp ((s (e r) : EReal) - (μ' : EReal)) * (w (e r) : EReal)
      = ((∑ t ∈ S ∪ Finset.univ.image e, Real.exp (s t - μ') * w t : ℝ) : EReal) := by
  have hdisj : Disjoint S (Finset.univ.image e) := by
    rw [Finset.disjoint_right]
    intro t ht
    obtain ⟨r, _, rfl⟩ := Finset.mem_image.mp ht
    exact hd r
  rw [← EReal.coe_sub, Ideal.exp_coe, ← EReal.coe_mul, shift, Finset.sum_union hdisj,
    Finset.sum_image (fun x _ y _ hxy => he hxy), EReal.coe_add, OnlineSoftmax.coe_sum Finset.univ]
  congr 1

/-- The same for the running denominator (no weights). -/
theorem step_one {β : Type} [Fintype β] (s : α → ℝ) (S : Finset α) (μ μ' : ℝ) (e : β → α)
    (he : Function.Injective e) (hd : ∀ r, e r ∉ S) :
    Ideal.exp ((μ : EReal) - (μ' : EReal)) * ((∑ t ∈ S, Real.exp (s t - μ) : ℝ) : EReal)
        + ∑ r : β, Ideal.exp ((s (e r) : EReal) - (μ' : EReal))
      = ((∑ t ∈ S ∪ Finset.univ.image e, Real.exp (s t - μ') : ℝ) : EReal) := by
  have h := step_sum s (fun _ => 1) S μ μ' e he hd
  simpa only [mul_one, EReal.coe_one] using h

/-- The state (maximum, denominator, numerators) after the keys in `S`: for SOME real reference point `μ`, the first
    component is `μ`, the second is `Σ exp (s t − μ)` and the third, at `d`, is `Σ exp (s t − μ) · v t d`, the sums over
    the keys in `S`. -/
def Inv (s : α → ℝ) (v : α → δ → ℝ) (S : Finset α) (st : EReal × EReal × (δ → EReal)) : Prop :=
  ∃ μ : ℝ, st.1 = (μ : EReal) ∧ st.2.1 = ((∑ t ∈ S, Real.exp (s t - μ) : ℝ) : EReal)
    ∧ ∀ d, st.2.2 d = ((∑ t ∈ S, Real.exp (s t - μ) * v t d : ℝ) : EReal)

/-- Before any key: any real start of the maximum, both sums zero. -/
theorem Inv.init (s : α → ℝ) (v : α → δ → ℝ) (μ₀ : ℝ) : Inv s v ∅ ((μ₀ : EReal), 0, fun _ => 0) :=
  ⟨μ₀, rfl, by simp, fun d => by simp⟩

/-- One block: visiting the new keys `e r` (distinct, none seen before) with the update `m' = max m (block max)`,
    `l' = exp (m − m') · l + Σ exp (s − m')`, `a' d = exp (m − m') · a d + Σ exp (s − m') · v d` preserves the invariant. -/
theorem Inv.step {β : Type} [Fintype β] [Nonempty β] (s : α → ℝ) (v : α → δ → ℝ) (S : Finset α)
    (st : EReal × EReal × (δ → EReal)) (h : Inv s v S st) (e : β → α) (he : Function.Injective e) (hd : ∀ r, e r ∉ S) :
    Inv s v (S ∪ Finset.univ.image e)
      (max st.1 (Finset.univ.fold max ⊥ fun r : β => (s (e r) : EReal)),
       Ideal.exp (st.1 - max st.1 (Finset.univ.fold max ⊥ fun r : β => (s (e r) : EReal))) * st.2.1
         + ∑ r : β, Ideal.exp ((s (e r) : EReal) - max st.1 (Finset.univ.fold max ⊥ fun r : β => (s (e r) : EReal))),
       fun d => Ideal.exp (st.1 - max st.1 (Finset.univ.fold max ⊥ fun r : β => (s (e r) : EReal))) * st.2.2 d
         + ∑ r : β, Ideal.exp ((s (e r) : EReal) - max st.1 (Finset.univ.fold max ⊥ fun r : β => (s (e r) : EReal)))
             * (v (e r) d : EReal)) := by
  obtain ⟨μ, hm, hl, ha⟩ := h
  -- the block maximum is a real number, so the new maximum is one
  have hblk := OnlineSoftmax.fold_eq_coe (Finset.univ : Finset β) Finset.univ_nonempty (fun r => s (e r))
  have hm' : max st.1 (Finset.univ.fold max ⊥ fun r : β => (s (e r) : EReal))
      = ((max μ ((Finset.univ : Finset β).sup' Finset.univ_nonempty fun r => s (e r)) : ℝ) : EReal) := by
    rw [hm, hblk, coe_max]
  refine ⟨max μ ((Finset.univ : Finset β).sup' Finset.univ_nonempty fun r => s (e r)), hm', ?_, fun d => ?_⟩
  · show Ideal.exp (st.1 - _) * st.2.1 + _ = _
    rw [hm', hm, hl]
    exact step_one s S μ _ e he hd
  · show Ideal.exp (st.1 - _) * st.2.2 d + _ = _
    rw [hm', hm, ha d]
    exact step_sum s (fun t => v t d) S μ _ e he hd

/-- The quotient of the two sums does not depend on the reference point. -/
theorem quotient_shift (s w : α → ℝ) (S : Finset α) (μ M : ℝ) :
    (∑ t ∈ S, Real.exp (s t - μ) * w t) / (∑ t ∈ S, Real.exp (s t - μ))
      = (∑ t ∈ S, Real.exp (s t - M) * w t) / (∑ t ∈ S, Real.exp (s t - M)) := by
  rw [← shift s w S μ M, ← shift_one s S μ M, mul_div_mul_left _ _ (Real.exp_pos _).ne']

/-- After all keys: the running numerator over the running denominator is the softmax-weighted average of the values,
    the softmax written against the true maximum of the scores. -/
theorem Inv.final [Fintype α] [Nonempty α] (s : α → ℝ) (v : α → δ → ℝ) (st : EReal × EReal × (δ → EReal))
    (h : Inv s v Finset.univ st) (d : δ) :
    Ideal.div (st.2.2 d) st.2.1
      = ∑ t : α, Ideal.div (Ideal.exp ((s t : EReal) - Finset.univ.fold max ⊥ (fun t => (s t : EReal))))
          (∑ t' : α, Ideal.exp ((s t' : EReal) - Finset.univ.fold max ⊥ (fun t => (s t : EReal)))) * (v t d : EReal) := by
  obtain ⟨μ, _, hl, ha⟩ := h
  have hM := OnlineSoftmax.fold_eq_coe (Finset.univ : Finset α) Finset.univ_nonempty s
  -- the state the loop started at `-∞` would have reached
  have hstd : OnlineSoftmax.Inv s (fun t => v t d) Finset.univ
      (((Finset.univ : Finset α).sup' Finset.univ_nonempty s : ℝ) : EReal)
      ((∑ t, Real.exp (s t - (Finset.univ : Finset α).sup' Finset.univ_nonempty s) : ℝ) : EReal)
      ((∑ t, Real.exp (s t - (Finset.univ : Finset α).sup' Finset.univ_nonempty s) * v t d : ℝ) : EReal) :=
    ⟨hM.symm, by rw [EReal.toReal_coe], by rw [EReal.toReal_coe]⟩
  rw [← OnlineSoftmax.Inv.final s (fun t => v t d) _ _ _ hstd, hl, ha d]
  have hpos : ∀ c : ℝ, (∑ t : α, Real.exp (s t - c)) ≠ 0 := fun c =>
    (Finset.sum_pos (fun t _ => Real.exp_pos _) Finset.univ_nonempty).ne'
  rw [FiniteReals.div_coe_coe _ (hpos _), FiniteReals.div_coe_coe _ (hpos _), quotient_shift]

end Cert.ShiftedSoftmax

end
-- ==== Proof.OnlineMath.lean ====
/-
  The mathematics of the comparison: on real inputs the blockwise form of the attention layer equals the plain form.

  Three steps. (1) The constants: `√256 = 16`, and dividing by `16` is multiplying by `1/16`, so the two forms have the
  same scores; with real inputs every score is a real number. (2) The blockwise state after `n` blocks is the state of
  the shifted online softmax over the first `512·n` keys: the maximum component is some real `μ`, the denominator is
  `Σ exp (s k − μ)` and the numerator `Σ exp (s k − μ) · q k d` over those keys. (3) After four blocks all 2048 keys have
  been visited and numerator over denominator is the softmax-weighted average, whatever `μ` is.
-/
import proofs.«126484_j54142357733578_2_alg».proof.Proof.Spec
import proofs.«126484_j54142357733578_2_alg».proof.Proof.LibShiftedSoftmax

noncomputable section

namespace Cert.Attn

open Idealize.ShloMosaic Idealize.ShloMosaic.ValueIdx
open Cert.FiniteReals
open scoped BigOperators

/-! ## The constants -/

/-- The pattern of `256.0`. -/
theorem ofBits_256 : Ideal.ofBits .f32 0x43800000#32 = ((256 : ℝ) : EReal) := by
  simp [Ideal.ofBits, Ideal.ieee, -EReal.coe_mul]; norm_num

/-- The pattern of `0.0625`. -/
theorem ofBits_sixteenth : Ideal.ofBits .f32 0x3D800000#32 = ((1 / 16 : ℝ) : EReal) := by
  simp [Ideal.ofBits, Ideal.ieee, -EReal.coe_mul]; norm_num

/-- The pattern of `-∞`. -/
theorem ofBits_neg_inf : Ideal.ofBits .f32 0xFF800000#32 = ⊥ := by
  simp [Ideal.ofBits, Ideal.ieee]

/-- The pattern of `+0.0`. -/
theorem ofBits_zero : Ideal.ofBits .f32 0x00000000#32 = 0 := by
  simp [Ideal.ofBits, Ideal.ieee]

/-- The start of the running maximum is a real number (a large negative one; only its being real matters). -/
theorem ofBits_start : ∃ μ₀ : ℝ, Ideal.ofBits .f32 0xFF333332#32 = (μ₀ : EReal) := by
  simp [Ideal.ofBits, Ideal.ieee, -EReal.coe_mul]
  exact ⟨_, (EReal.coe_neg _).symm⟩

/-- `√256 = 16`. -/
theorem sqrt_256 : Ideal.sqrt ((256 : ℝ) : EReal) = ((16 : ℝ) : EReal) := by
  rw [Ideal.sqrt_coe, if_neg (by norm_num)]
  congr 1
  rw [show (256 : ℝ) = 16 ^ 2 by norm_num]
  exact Real.sqrt_sq (by norm_num)

/-! ## The scores -/

variable (q : SQ.Idx → EReal) (Wq Wk : SW.Idx → EReal)

/-- Dividing by `√256` is multiplying by `1/16`: the two forms have the same scores (at every extended real). -/
theorem kscore_eq_rscore (b : Fin 4) (s k : Fin 2048) : kscore q Wq Wk b s k = rscore q Wq Wk b s k := by
  unfold kscore rscore
  rw [ofBits_256, sqrt_256, ofBits_sixteenth, Ideal.div_coe (by norm_num)]

theorem isReal_proj (hq : ∀ i, IsReal (q i)) (W : SW.Idx → EReal) (hW : ∀ i, IsReal (W i)) (b : Fin 4) (s : Fin 2048)
    (j : Fin 256) : IsReal (proj q W b s j) :=
  IsReal.sum _ _ fun _ _ => (hq _).mul (hW _)

theorem isReal_raw (hq : ∀ i, IsReal (q i)) (hWq : ∀ i, IsReal (Wq i)) (hWk : ∀ i, IsReal (Wk i)) (b : Fin 4)
    (s k : Fin 2048) : IsReal (raw q Wq Wk b s k) :=
  IsReal.sum _ _ fun _ _ => (isReal_proj q hq Wq hWq b s _).mul (isReal_proj q hq Wk hWk b k _)

/-- With real inputs every score is a real number. -/
theorem isReal_kscore (hq : ∀ i, IsReal (q i)) (hWq : ∀ i, IsReal (Wq i)) (hWk : ∀ i, IsReal (Wk i)) (b : Fin 4)
    (s k : Fin 2048) : IsReal (kscore q Wq Wk b s k) := by
  unfold kscore
  rw [ofBits_sixteenth]
  exact (isReal_raw q Wq Wk hq hWq hWk b s k).mul (isReal_coe _)

/-! ## The keys of the first blocks -/

/-- The keys of the first `n` blocks. -/
def seen (n : ℕ) : Finset (Fin 2048) := Finset.univ.filter fun k : Fin 2048 => k.val < n * 512

theorem seen_zero : seen 0 = ∅ := by
  unfold seen
  apply Finset.filter_false_of_mem
  intro k _
  omega

theorem seen_four : seen 4 = Finset.univ := by
  unfold seen
  apply Finset.filter_true_of_mem
  intro k _
  have := k.isLt
  omega

theorem key_val (n : ℕ) (hn : n < 4) (r : Fin 512) : (key n r).val = n * 512 + r.val := by
  show (n % 4) * 512 + r.val = _
  rw [Nat.mod_eq_of_lt hn]

theorem key_injective (n : ℕ) : Function.Injective (key n) := by
  intro r r' h
  have h' : (n % 4) * 512 + r.val = (n % 4) * 512 + r'.val := congrArg Fin.val h
  exact Fin.ext (by omega)

/-- The keys of block `n` come after the first `n` blocks. -/
theorem key_not_mem_seen (n : ℕ) (hn : n < 4) (r : Fin 512) : key n r ∉ seen n := by
  unfold seen
  rw [Finset.mem_filter, key_val n hn]
  omega

/-- The first `n` blocks and block `n` make the first `n + 1` blocks. -/
theorem seen_succ (n : ℕ) (hn : n < 4) : seen n ∪ Finset.univ.image (key n) = seen (n + 1) := by
  ext k
  unfold seen
  rw [Finset.mem_union, Finset.mem_filter, Finset.mem_filter, Finset.mem_image]
  constructor
  · rintro (⟨_, h⟩ | ⟨r, _, rfl⟩)
    · exact ⟨Finset.mem_univ _, by omega⟩
    · refine ⟨Finset.mem_univ _, ?_⟩
      rw [key_val n hn]
      have := r.isLt
      omega
  · rintro ⟨_, h⟩
    by_cases hk : k.val < n * 512
    · exact Or.inl ⟨Finset.mem_univ _, hk⟩
    · refine Or.inr ⟨⟨k.val - n * 512, by omega⟩, Finset.mem_univ _, ?_⟩
      apply Fin.ext
      rw [key_val n hn]
      show n * 512 + (k.val - n * 512) = k.val
      omega

/-! ## The blockwise state -/

/-- The state after `n ≤ 4` blocks is the shifted online softmax's state over the first `n` blocks' keys, for the real
    scores `σ` and the real rows `v` of `q`. -/
theorem kstate_inv (b : Fin 4) (s : Fin 2048) (σ : Fin 2048 → ℝ) (v : Fin 2048 → Fin 1024 → ℝ)
    (hσ : ∀ k, kscore q Wq Wk b s k = (σ k : EReal)) (hv : ∀ k d, q (ix3 b k d) = (v k d : EReal)) :
    ∀ n : ℕ, n ≤ 4 → ShiftedSoftmax.Inv σ v (seen n) (kstate q Wq Wk b s n) := by
  intro n
  induction n with
  | zero =>
    intro _
    obtain ⟨μ₀, hμ₀⟩ := ofBits_start
    show ShiftedSoftmax.Inv σ v (seen 0) kinit
    unfold kinit
    rw [seen_zero, hμ₀, ofBits_zero]
    exact ShiftedSoftmax.Inv.init σ v μ₀
  | succ n ih =>
    intro hn
    have hlt : n < 4 := by omega
    have hstep := ShiftedSoftmax.Inv.step σ v (seen n) (kstate q Wq Wk b s n) (ih (by omega)) (key n) (key_injective n)
      (key_not_mem_seen n hlt)
    rw [seen_succ n hlt] at hstep
    show ShiftedSoftmax.Inv σ v (seen (n + 1)) (kstep q Wq Wk b s (kstate q Wq Wk b s n) n)
    unfold kstep
    simp only [hσ, hv, ofBits_neg_inf]
    exact hstep

/-! ## The assembly -/

/-- After the four blocks, numerator over denominator is the plain form's softmax-weighted average. -/
theorem quotient_eq_rout (hq : ∀ i, IsReal (q i)) (hWq : ∀ i, IsReal (Wq i)) (hWk : ∀ i, IsReal (Wk i)) (b : Fin 4)
    (s : Fin 2048) (d : Fin 1024) :
    Ideal.div ((kstate q Wq Wk b s 4).2.2 d) ((kstate q Wq Wk b s 4).2.1) = rout q Wq Wk b s d := by
  have hs : ∀ k, IsReal (kscore q Wq Wk b s k) := fun k => isReal_kscore q Wq Wk hq hWq hWk b s k
  choose σ hσ using hs
  have hqv : ∀ (k : Fin 2048) (d : Fin 1024), IsReal (q (ix3 b k d)) := fun k d => hq _
  choose v hv using hqv
  have hinv := kstate_inv q Wq Wk b s σ v hσ hv 4 le_rfl
  rw [seen_four] at hinv
  rw [ShiftedSoftmax.Inv.final σ v _ hinv d]
  unfold rout rden rexp rmax
  simp only [← kscore_eq_rscore, hσ, hv, ofBits_neg_inf, ofBits_zero, zero_add, max_bot_left]

/-- ON REAL INPUTS THE BLOCKWISE FORM EQUALS THE PLAIN FORM. -/
theorem kern_eq_ref (q : SQ.Idx → EReal) (Wq Wk : SW.Idx → EReal) (Wv : SV.Idx → EReal) (hq : ∀ i, Cert.FiniteReals.IsReal (q i))
    (hWq : ∀ i, Cert.FiniteReals.IsReal (Wq i)) (hWk : ∀ i, Cert.FiniteReals.IsReal (Wk i)) (b : Fin 4) (s : Fin 2048)
    (e : Fin 1024) : kern q Wq Wk Wv b s e = ref q Wq Wk Wv b s e := by
  unfold kern ref
  apply Finset.sum_congr rfl
  intro d _
  rw [quotient_eq_rout q Wq Wk hq hWq hWk b s d]

end Cert.Attn

end
-- ==== Proof.LibFiniteInputs.lean ====
/-
  A general lemma file: the printed precondition "every entry of a float array is finite", read back.

  `jnp.all(jnp.abs(x) < inf)` prints as a reduction by `and`, from the constant 1, of the comparison of `|x|` with the
  splat of the word 0x7F800000 (single precision's +inf). At the ideal values that word is the top element, the
  comparison is the order of the extended reals, and an extended real whose absolute value is below the top is a real
  number. So the reduction being 1 says every entry of `x` is a real number — for any shape and any reduced axes.
-/
import Idealize.ShloMosaic.Lib.ReduceAll
import Idealize.ShloMosaic.Lib.ValueIdx
import proofs.«126484_j54142357733578_2_alg».proof.Proof.LibFiniteReals

noncomputable section

namespace Cert.FiniteInputs

open Idealize.ShloMosaic Idealize.ShloMosaic.ValueIdx Cert.FiniteReals

/-- Single precision's +inf word is the top extended real. -/
theorem ofBits_inf : Ideal.ofBits .f32 0x7F800000#32 = ⊤ := by
  simp [Ideal.ofBits, Ideal.ieee]

/-- An extended real whose absolute value is below the top is a real number. -/
theorem isReal_of_abs_lt_top (x : EReal) (h : max x (-x) < ⊤) : IsReal x := by
  induction x using EReal.rec with
  | bot => simp at h
  | top => simp at h
  | coe r => exact ⟨r, rfl⟩

/-- The scalar shape has one index. -/
instance : Subsingleton (⟨0, ![]⟩ : Shape).Idx := ⟨fun a b => funext fun d => d.elim0⟩

/-- THE PRINTED `jnp.all(jnp.abs(x) < inf)` being 1 says every entry of `x` is a real number. -/
theorem isReal_of_all_finite {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) h hu ix0 = 1#1) (i : s.Idx) : IsReal (x i) := by
  have hi := Host.reduce_andi_all _ _ h hu ix0 e i
  have hc : Ideal.cmp .olt (max (x i) (-(x i))) (Ideal.ofBits .f32 0x7F800000#32) = 1#1 := hi
  refine isReal_of_abs_lt_top (x i) ?_
  rw [← ofBits_inf]
  by_contra hn
  simp [Ideal.cmp, hn] at hc

end Cert.FiniteInputs

end
-- ==== Proof.Finite.lean ====
/-
  From the printed precondition to real entries.

  The precondition of the certificate says that a printed test of the four argument arrays is 1 on every device. The
  test is the conjunction of four tests of one array each, and each of those says that every entry of its array has an
  absolute value below plus infinity. A conjunction of one-bit words is 1 exactly when every conjunct is 1, and an
  extended real whose absolute value is below plus infinity is a real number. So under the precondition every entry of
  every argument array is a real number, which is what the laws of arithmetic that fail at the infinities ask for.
-/
import proofs.«126484_j54142357733578_2_alg».proof.Defs
import proofs.«126484_j54142357733578_2_alg».proof.Proof.Gen.Pre_finite_inputs
import proofs.«126484_j54142357733578_2_alg».proof.Proof.LibFiniteInputs
import Idealize.ShloMosaic.Lib.Affine

noncomputable section

namespace Cert.Finite

open Idealize.ShloMosaic Idealize.SL.Sem Idealize.ShloMosaic.TcCoe Idealize.ShloMosaic.ValueIdx Cert.FiniteReals

/-- The printed test of four arrays being 1 says every entry of each of them is a real number. -/
theorem real_of_fn [hP : Cert.Pre_finite_inputs.Facts]
    (a0 : FVec Ideal Cert.Pre_finite_inputs.S4x2048x1024 .f32) (a1 a2 : FVec Ideal Cert.Pre_finite_inputs.S256x1024 .f32)
    (a3 : FVec Ideal Cert.Pre_finite_inputs.S1024x1024 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [Cert.Pre_finite_inputs.fn, Cert.Pre_finite_inputs.fn_part1, Idealize.ShloMosaic.andi] at h0
  rw [IntOp.andi_eq_one, IntOp.andi_eq_one, IntOp.andi_eq_one] at h0
  obtain ⟨⟨⟨e0, e1⟩, e2⟩, e3⟩ := h0
  exact ⟨Cert.FiniteInputs.isReal_of_all_finite a0 _ _ _ e0, Cert.FiniteInputs.isReal_of_all_finite a1 _ _ _ e1,
    Cert.FiniteInputs.isReal_of_all_finite a2 _ _ _ e2, Cert.FiniteInputs.isReal_of_all_finite a3 _ _ _ e3⟩

/-- Under the certificate's precondition every entry of every argument array is a real number, on every device. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i)) :=
  real_of_fn _ _ _ _ (h c)

end Cert.Finite

end
-- ==== Proof.Glue.lean ====
/-
  The kernel program's result array, at the exact reading, is the plain attention formula of its arguments.

  Through @main: the first region leaves the projected queries, the projected keys and the rows of `q` in three arrays
  (each a whole-array function of the arguments); the host line between the regions converts the weight `Wv` to the
  narrower format, which changes nothing at the exact reading; so the second region is entered with exactly the arrays
  its blockwise computation is specified over, and its output array is the blockwise form of the specification, which on
  real inputs is the plain form.
-/
import proofs.«126484_j54142357733578_2_alg».proof.Proof.Assembly
import proofs.«126484_j54142357733578_2_alg».proof.Proof.Value0
import proofs.«126484_j54142357733578_2_alg».proof.Proof.Value1
import proofs.«126484_j54142357733578_2_alg».proof.Proof.OnlineMath
import proofs.«126484_j54142357733578_2_alg».proof.Proof.Finite
import Idealize.ShloMosaic.Lib.StableHlo.Run

noncomputable section

namespace Cert.KernelIdeal.Glue

open Idealize.ShloMosaic Idealize.ShloMosaic.TcCoe Idealize.SL.Sem
open Cert.KernelIdeal Cert.KernelIdeal.Gen Cert.KernelIdeal.Run Cert.Attn

variable (m : (ℓ : Loc nD τ sig) → Buf (Elt Ideal) ℓ) (ρ : Dev nD → PrngReg) (c : Dev nD)

/-- The projected queries as the second region finds them. -/
theorem entry_qp : U2 m ρ c main_v0_0
    = fun i => proj (m ((c : Thread nD τ).loc main_arg0)) (m ((c : Thread nD τ).loc main_arg1)) (i 0) (i 1) (i 2) :=
  (W2_of_ne m ρ c main_v0_0 (by decide)).trans ((W1_arr m ρ c 3).trans (Value0.qproj_array (U0 m ρ) c))

/-- The projected keys as the second region finds them. -/
theorem entry_kp : U2 m ρ c main_v0_1
    = fun i => proj (m ((c : Thread nD τ).loc main_arg0)) (m ((c : Thread nD τ).loc main_arg2)) (i 0) (i 1) (i 2) :=
  (W2_of_ne m ρ c main_v0_1 (by decide)).trans ((W1_arr m ρ c 4).trans (Value0.kproj_array (U0 m ρ) c))

/-- The value rows as the second region finds them: the rows of `q`. -/
theorem entry_rows : U2 m ρ c main_v0_2 = m ((c : Thread nD τ).loc main_arg0) :=
  (W2_of_ne m ρ c main_v0_2 (by decide)).trans ((W1_arr m ρ c 5).trans (Value0.rows_array (U0 m ρ) c))

/-- The weight as the second region finds it: the host line's change of format is the identity at the exact reading. -/
theorem entry_w : (U2 m ρ c main_v1 : S1024x1024.Idx → EReal) = (m ((c : Thread nD τ).loc main_arg3) : S1024x1024.Idx → EReal) := by
  have e' : W1 m ρ c (Proc.devRef .tc main_arg3) = m ((c : Thread nD τ).loc main_arg3) := W1_of_ne m ρ c main_arg3 (by decide)
  show (StableHlo.after hostOps1 (W1 m ρ c) (Proc.devRef .tc main_v1) : S1024x1024.Idx → EReal) = _
  after_results
  rw [e']
  rfl

/-- THE KERNEL'S RESULT: under the precondition (every input entry a real number) the array the program returns is, entry
    by entry, the plain attention formula of the four argument arrays — the second region's output array is the blockwise
    form over the arrays it was entered with, and on real inputs the blockwise form is the plain one. -/
theorem kernel_value [hP : Cert.Pre_finite_inputs.Facts] (hpre : Cert.Pre_KernelIdeal m) :
    (W3 m ρ c (Proc.devRef .tc main_v2) : S4x2048x1024.Idx → EReal)
      = fun i => ref (m ((c : Thread nD τ).loc main_arg0)) (m ((c : Thread nD τ).loc main_arg1))
          (m ((c : Thread nD τ).loc main_arg2)) (m ((c : Thread nD τ).loc main_arg3)) (i 0) (i 1) (i 2) := by
  obtain ⟨hq, hWq, hWk, -⟩ := Cert.Finite.real_of_pre m hpre c
  rw [W3_main_v2 m ρ c, Value1.out_array (U2 m ρ) c _ _ _ _ (entry_qp m ρ c) (entry_kp m ρ c) (entry_rows m ρ c) (entry_w m ρ c)]
  funext i
  exact kern_eq_ref _ _ _ _ hq hWq hWk (i 0) (i 1) (i 2)

end Cert.KernelIdeal.Glue

end
-- ==== Proof.LibHostLastAxis.lean ====
/-
  A general lemma file: the host's reductions along the last axis of a rank-3 array, read at a row, for any extents.

  The maximum along the last axis of an `[n0, n1, n2]` array, from a scalar initial value, is at `(p, q)` the fold of
  `max` from the initial value over `k` of the array at `(p, q, k)` (maximum on the extended reals commutes and
  associates, so the order does not matter); the sum along it is the initial value plus the sum over `k`. The maximum
  of a value and a fold of `max` started from that value is the fold.
-/
import Idealize.ShloMosaic.PureOps.Ideal.Laws
import Idealize.ShloMosaic.Lib.ValueIdx
import Idealize.ShloMosaic.Lib.IdealHost

noncomputable section

open scoped BigOperators

namespace Cert.HostLastAxis

open Idealize.ShloMosaic Idealize.ShloMosaic.ValueIdx

/-- The source index over `(p, q)` with `k` inserted on the last axis is `(p, q, k)`. -/
theorem lift_last3 {n0 n1 n2 : ℕ} (h : (⟨3, ![n0, n1, n2]⟩ : Shape).Reduces [2] ⟨2, ![n0, n1]⟩) (p : Fin n0) (q : Fin n1)
    (k : Fin n2) : h.lift (ix2 p q) k = ix3 p q k :=
  funext fun e => Fin.ext (by
    match e with
    | ⟨0, _⟩ => rfl
    | ⟨1, _⟩ => rfl
    | ⟨2, _⟩ => rfl)

/-- The host's reduction by maximum over the last axis of an `[n0, n1, n2]` array reads, at `(p, q)`, the fold of `max`
    from the initial value over `k : Fin n2` of the array at `(p, q, k)`. -/
theorem hostReduce_max_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (h : (⟨3, ![n0, n1, n2]⟩ : Shape).Reduces [2] ⟨2, ![n0, n1]⟩) (hu : 0 < (⟨0, ![]⟩ : Shape).numel)
    (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  exact funext fun k => congrArg x (lift_last3 h p q k)

/-- The host's sum over the last axis of an `[n0, n1, n2]` array reads, at `(p, q)`, the initial value plus the sum over
    `k : Fin n2` of the array at `(p, q, k)`. -/
theorem hostReduceAdd_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (h : (⟨3, ![n0, n1, n2]⟩ : Shape).Reduces [2] ⟨2, ![n0, n1]⟩) (hu : 0 < (⟨0, ![]⟩ : Shape).numel)
    (p : Fin n0) (q : Fin n1) :
    Host.reduceAdd x init h' hu (ix2 p q) = init (Shape.Idx.first hu) + ∑ k : Fin n2, x (ix3 p q k) := by
  rw [hostReduceAdd_apply, Ideal.hostReduceAdd_single h' h]
  refine congrArg (fun z => init (Shape.Idx.first hu) + z) ?_
  exact Finset.sum_congr rfl fun k _ => congrArg x (lift_last3 h p q k)

/-- The maximum of a value and a fold of `max` started from it is the fold. -/
theorem max_fold_self {n : ℕ} (c : EReal) (f : Fin n → EReal) :
    max c ((Finset.univ : Finset (Fin n)).fold max c f) = (Finset.univ : Finset (Fin n)).fold max c f :=
  max_eq_right ((Finset.le_fold_max _).mpr (Or.inl le_rfl))

end Cert.HostLastAxis

end
-- ==== Proof.RefValue.lean ====
/-
  The reference program's result is the plain attention form of the specification, entry by entry.

  The reference computes, in order: the two projections of the rows of the first argument by the second and third
  arguments (sums over the 1024 input features), the score of every query row against every key row (a sum over the 256
  projected features), the scores divided by the square root of 256, the maximum of each score row folded from minus
  infinity and compared once more with minus infinity, the exponential of each score's distance below its row's maximum,
  the sum of each row of exponentials added to zero, the quotients, the average of the rows of the first argument
  weighted by the quotients (a sum over the 2048 keys), and the projection of that by the fourth argument (a sum over
  the 1024 features). Reading every stage at an index written by its coordinates turns each into the matching
  definition of the specification; no law of arithmetic is used, only the definitions and the bookkeeping of indices
  (an index of a broadcast along a trailing unit axis forgets the last coordinate; the left and right indices of a
  contraction insert the summation variable on the contracted axis).
-/
import proofs.«126484_j54142357733578_2_alg».proof.Proof.Gen.ReferenceIdeal.Read
import proofs.«126484_j54142357733578_2_alg».proof.Proof.Spec
import proofs.«126484_j54142357733578_2_alg».proof.Proof.LibHostLastAxis

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Indices of the stages, by coordinates -/

theorem lidx_v0 (b : Fin 4) (s : Fin 2048) (j : Fin 256) (k : Fin 1024) : lidx_main_v0 (ix3 b s j) k = ix3 b s k :=
  funext fun a => by match a with | ⟨0, _⟩ => rfl | ⟨1, _⟩ => rfl | ⟨2, _⟩ => rfl
theorem ridx_v0 (b : Fin 4) (s : Fin 2048) (j : Fin 256) (k : Fin 1024) : ridx_main_v0 (ix3 b s j) k = ix2 j k :=
  funext fun a => by match a with | ⟨0, _⟩ => rfl | ⟨1, _⟩ => rfl
theorem lidx_v1 (b : Fin 4) (s : Fin 2048) (j : Fin 256) (k : Fin 1024) : lidx_main_v1 (ix3 b s j) k = ix3 b s k :=
  funext fun a => by match a with | ⟨0, _⟩ => rfl | ⟨1, _⟩ => rfl | ⟨2, _⟩ => rfl
theorem ridx_v1 (b : Fin 4) (s : Fin 2048) (j : Fin 256) (k : Fin 1024) : ridx_main_v1 (ix3 b s j) k = ix2 j k :=
  funext fun a => by match a with | ⟨0, _⟩ => rfl | ⟨1, _⟩ => rfl
theorem lidx_v2 (b : Fin 4) (s k : Fin 2048) (j : Fin 256) : lidx_main_v2 (ix3 b s k) j = ix3 b s j :=
  funext fun a => by match a with | ⟨0, _⟩ => rfl | ⟨1, _⟩ => rfl | ⟨2, _⟩ => rfl
theorem ridx_v2 (b : Fin 4) (s k : Fin 2048) (j : Fin 256) : ridx_main_v2 (ix3 b s k) j = ix3 b k j :=
  funext fun a => by match a with | ⟨0, _⟩ => rfl | ⟨1, _⟩ => rfl | ⟨2, _⟩ => rfl
/-- A row statistic broadcast through a trailing unit axis is read at the row. -/
theorem idx_v9_v10 (b : Fin 4) (s k : Fin 2048) : idx_main_v9 (idx_main_v10 (ix3 b s k)) = ix2 b s :=
  funext fun a => by match a with | ⟨0, _⟩ => rfl | ⟨1, _⟩ => rfl
theorem idx_v13 (b : Fin 4) (s k : Fin 2048) : idx_main_v13 (ix2 b s) k = ix3 b s k :=
  funext fun a => by match a with | ⟨0, _⟩ => rfl | ⟨1, _⟩ => rfl | ⟨2, _⟩ => rfl
theorem idx_v14_v15 (b : Fin 4) (s k : Fin 2048) : idx_main_v14 (idx_main_v15 (ix3 b s k)) = ix2 b s :=
  funext fun a => by match a with | ⟨0, _⟩ => rfl | ⟨1, _⟩ => rfl
theorem lidx_v17 (b : Fin 4) (s : Fin 2048) (d : Fin 1024) (k : Fin 2048) : lidx_main_v17 (ix3 b s d) k = ix3 b s k :=
  funext fun a => by match a with | ⟨0, _⟩ => rfl | ⟨1, _⟩ => rfl | ⟨2, _⟩ => rfl
theorem ridx_v17 (b : Fin 4) (s : Fin 2048) (d : Fin 1024) (k : Fin 2048) : ridx_main_v17 (ix3 b s d) k = ix3 b k d :=
  funext fun a => by match a with | ⟨0, _⟩ => rfl | ⟨1, _⟩ => rfl | ⟨2, _⟩ => rfl
theorem lidx_v18 (b : Fin 4) (s : Fin 2048) (e d : Fin 1024) : lidx_main_v18 (ix3 b s e) d = ix3 b s d :=
  funext fun a => by match a with | ⟨0, _⟩ => rfl | ⟨1, _⟩ => rfl | ⟨2, _⟩ => rfl
theorem ridx_v18 (b : Fin 4) (s : Fin 2048) (e d : Fin 1024) : ridx_main_v18 (ix3 b s e) d = ix2 e d :=
  funext fun a => by match a with | ⟨0, _⟩ => rfl | ⟨1, _⟩ => rfl

/-! ## The stages, read at coordinates -/

variable (x0 : (⟨S4x2048x1024, .f32⟩ : BufTy).Contents (Elt Ideal)) (x1 x2 : (⟨S256x1024, .f32⟩ : BufTy).Contents (Elt Ideal))
  (x3 : (⟨S1024x1024, .f32⟩ : BufTy).Contents (Elt Ideal))

/-- The query projection. -/
theorem v0_at (b : Fin 4) (s : Fin 2048) (j : Fin 256) :
    val_main_v0 (F := Ideal) x0 x1 (ix3 b s j) = Attn.proj x0 x1 b s j := by
  rw [val_main_v0_apply]
  unfold Attn.proj
  exact Finset.sum_congr rfl fun k _ => by rw [lidx_v0, ridx_v0]

/-- The key projection. -/
theorem v1_at (b : Fin 4) (s : Fin 2048) (j : Fin 256) :
    val_main_v1 (F := Ideal) x0 x2 (ix3 b s j) = Attn.proj x0 x2 b s j := by
  rw [val_main_v1_apply]
  unfold Attn.proj
  exact Finset.sum_congr rfl fun k _ => by rw [lidx_v1, ridx_v1]

/-- The unscaled scores. -/
theorem v2_at (b : Fin 4) (s k : Fin 2048) :
    val_main_v2 (F := Ideal) x0 x1 x2 (ix3 b s k) = Attn.raw x0 x1 x2 b s k := by
  rw [val_main_v2_apply]
  unfold Attn.raw
  exact Finset.sum_congr rfl fun j _ => by rw [lidx_v2, ridx_v2, v0_at, v1_at]

/-- The divisor: the square root of the constant 256, at every index. -/
theorem v4_at (i : S4x2048x2048.Idx) :
    val_main_v4 (F := Ideal) i = Ideal.sqrt (Ideal.ofBits .f32 0x43800000#32) := by
  rw [val_main_v4_apply, val_main_v3_apply, val_main_cst_apply]
  rfl

/-- The scaled scores. -/
theorem v5_at (b : Fin 4) (s k : Fin 2048) :
    val_main_v5 (F := Ideal) x0 x1 x2 (ix3 b s k) = Attn.rscore x0 x1 x2 b s k := by
  rw [val_main_v5_apply, v2_at, v4_at]
  rfl

/-- The row maxima folded from minus infinity. -/
theorem v6_at (b : Fin 4) (s : Fin 2048) :
    val_main_v6 (F := Ideal) x0 x1 x2 (ix2 b s)
      = (Finset.univ : Finset (Fin 2048)).fold max (Ideal.ofBits .f32 0xFF800000#32) fun k => Attn.rscore x0 x1 x2 b s k := by
  unfold val_main_v6
  refine (HostLastAxis.hostReduce_max_last3_apply (val_main_v5 (F := Ideal) x0 x1 x2) (val_main_cst_0 (F := Ideal))
    reducesTo_S4x2048x2048_S4x2048_d2 (by decide) h_S_ b s).trans ?_
  rw [val_main_cst_0_apply]
  simp only [v5_at]
  rfl

/-- The row maxima, compared once more with minus infinity. -/
theorem v8_at (b : Fin 4) (s : Fin 2048) :
    val_main_v8 (F := Ideal) x0 x1 x2 (ix2 b s) = Attn.rmax x0 x1 x2 b s := by
  rw [val_main_v8_apply, val_main_v7_apply, val_main_cst_1_apply, v6_at]
  rfl

/-- The row maxima spread back over the keys. -/
theorem v10_at (b : Fin 4) (s k : Fin 2048) :
    val_main_v10 (F := Ideal) x0 x1 x2 (ix3 b s k) = Attn.rmax x0 x1 x2 b s := by
  rw [val_main_v10_apply, val_main_v9_apply, idx_v9_v10, v8_at]

/-- The exponentials. -/
theorem v12_at (b : Fin 4) (s k : Fin 2048) :
    val_main_v12 (F := Ideal) x0 x1 x2 (ix3 b s k) = Attn.rexp x0 x1 x2 b s k := by
  rw [val_main_v12_apply, val_main_v11_apply, v5_at, v10_at]
  rfl

/-- The row sums of the exponentials. -/
theorem v13_at (b : Fin 4) (s : Fin 2048) :
    val_main_v13 (F := Ideal) x0 x1 x2 (ix2 b s) = Attn.rden x0 x1 x2 b s := by
  rw [val_main_v13_apply, val_main_cst_2_apply]
  unfold Attn.rden
  refine congrArg (fun z => Ideal.ofBits .f32 0x00000000#32 + z) ?_
  exact Finset.sum_congr rfl fun k _ => by rw [idx_v13, v12_at]

/-- The row sums spread back over the keys. -/
theorem v15_at (b : Fin 4) (s k : Fin 2048) :
    val_main_v15 (F := Ideal) x0 x1 x2 (ix3 b s k) = Attn.rden x0 x1 x2 b s := by
  rw [val_main_v15_apply, val_main_v14_apply, idx_v14_v15, v13_at]

/-- The softmax weights. -/
theorem v16_at (b : Fin 4) (s k : Fin 2048) :
    val_main_v16 (F := Ideal) x0 x1 x2 (ix3 b s k)
      = Ideal.div (Attn.rexp x0 x1 x2 b s k) (Attn.rden x0 x1 x2 b s) := by
  rw [val_main_v16_apply, v12_at, v15_at]
  rfl

/-- The weighted averages of the rows of the first argument. -/
theorem v17_at (b : Fin 4) (s : Fin 2048) (d : Fin 1024) :
    val_main_v17 (F := Ideal) x0 x1 x2 (ix3 b s d) = Attn.rout x0 x1 x2 b s d := by
  rw [val_main_v17_apply]
  unfold Attn.rout
  exact Finset.sum_congr rfl fun k _ => by rw [lidx_v17, ridx_v17, v16_at]

/-- THE REFERENCE'S RESULT at batch b, query row s, output feature e is the plain form of the specification there. -/
theorem result_at (b : Fin 4) (s : Fin 2048) (e : Fin 1024) :
    val_main_v18 (F := Ideal) x0 x1 x2 x3 (ix3 b s e) = Attn.ref x0 x1 x2 x3 b s e := by
  rw [val_main_v18_apply]
  unfold Attn.ref
  exact Finset.sum_congr rfl fun d _ => by rw [lidx_v18, ridx_v18, v17_at]

/-- The same as an equation of arrays. -/
theorem result_eq :
    val_main_v18 (F := Ideal) x0 x1 x2 x3 = fun i => Attn.ref x0 x1 x2 x3 (i 0) (i 1) (i 2) :=
  funext fun i => (congrArg (val_main_v18 (F := Ideal) x0 x1 x2 x3) (eq_ix3 i)).trans (result_at x0 x1 x2 x3 (i 0) (i 1) (i 2))

/-! ## The reference's run -/

/-- Every weakly fair execution of the reference ends with its result at the plain form of the arguments' launch
    contents, the arguments unchanged. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v18)
        = (fun i => Attn.ref (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3)) (i 0) (i 1) (i 2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun _ h c => ⟨((h c).1.trans (val_main_v18_eq (F := Ideal) _ _ _ _)).trans (result_eq _ _ _ _), (h c).2⟩)
    (Cert.ReferenceIdeal.Value.run (F := Ideal) m ρ)

end Cert.ReferenceIdeal.RefValue

end
-- ==== Proof.lean ====
/-
  The certificate of a two-stage attention layer against its plain `jnp` reference, at the exact reading of floats.

  THE PROGRAMS. The kernel program projects the rows of `q` by `Wq` and `Wk` in a first kernel (which also keeps the rows
  themselves), converts `Wv` on the host, and in a second kernel runs attention blockwise: for each batch and each tile of
  1024 query rows it visits the 2048 keys in four tiles of 512, keeping per query row a running maximum of the scaled
  scores, a running sum of exponentials and a running sum of exponential-weighted value rows in three scratch buffers
  carried from one key tile to the next, rescaling the sums whenever the maximum moves; after the last key tile it divides
  the numerator by the denominator and projects by `Wv`. The reference computes the same layer plainly: scores divided by
  `√256`, a softmax over all keys, the weighted average of the rows of `q`, the projection by `Wv`.

  WHY THEY AGREE at the exact reading, on real (finite) inputs: changes of float format are the identity; `1/16` is
  `1/√256`; a matrix product accumulated from zero is the plain sum; and the quotient of the two running sums does not
  depend on the reference point the exponentials are taken against, so neither the blockwise rescaling nor the kernel's
  finite starting value for the running maximum (where the reference starts from `-∞`) changes it. Finiteness of the
  inputs is used exactly there: the rescaling identities are identities between real numbers.

  THE FRAMES of the two kernel programs (every execution terminates, nothing faults, the arguments end unchanged) come
  from one run of @main over its two kernel regions and the host line between them (Assembly), each region from its
  body's run at every grid point (Body0; Body1 with the scratch carried by the region's invariant); the reference's frame
  is its run with the result dropped. The kernel program's idealization rewrote nothing, so `preserves` is trivial.
-/
import proofs.«126484_j54142357733578_2_alg».proof.Defs
import proofs.«126484_j54142357733578_2_alg».proof.Proof.Gen.Kernel
import proofs.«126484_j54142357733578_2_alg».proof.Proof.Gen.KernelIdeal
import proofs.«126484_j54142357733578_2_alg».proof.Proof.Gen.ReferenceIdeal
import proofs.«126484_j54142357733578_2_alg».proof.Proof.Gen.Pre_finite_inputs
import proofs.«126484_j54142357733578_2_alg».proof.Proof.Gen.ReferenceIdeal.Run
import proofs.«126484_j54142357733578_2_alg».proof.Proof.Gen.ReferenceIdeal.Read
import proofs.«126484_j54142357733578_2_alg».proof.Proof.Word.Assembly
import proofs.«126484_j54142357733578_2_alg».proof.Proof.Glue
import proofs.«126484_j54142357733578_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Run.frame m ρ

/-- So does its idealization. -/
theorem frame_ideal : Cert.frame_KernelIdeal := fun m ρ _ => Cert.KernelIdeal.Run.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.RefValue.run_ref m ρ)

/-- The idealization rewrote nothing. -/
theorem preserves : Cert.preserves_Kernel_KernelIdeal := trivial

/-- At the exact reading, from memories agreeing on the arguments, both programs end with the plain attention formula of
    the arguments in their result arrays. -/
theorem algebraic : Cert.algebraic_KernelIdeal_ReferenceIdeal := by
  intro m ρ m' ρ' hpre hagree
  refine ⟨fun c => (fun i => Cert.Attn.ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0) (i 1) (i 2)), ?_, ?_⟩
  · refine (θ_run Cert.KernelIdeal.defs _ _).mono (fun r h c => ?_) (Cert.KernelIdeal.Run.run_all (F := Ideal) m ρ)
    exact ⟨(h c _ (Cert.KernelIdeal.Run.mem_uc Cert.KernelIdeal.main_v2 (by decide))).trans (Cert.KernelIdeal.Glue.kernel_value m ρ c hpre),
      (h c _ (Cert.KernelIdeal.Run.mem_uc Cert.KernelIdeal.main_arg0 (by decide))).trans (Cert.KernelIdeal.Run.W3_main_arg0 m ρ c),
      (h c _ (Cert.KernelIdeal.Run.mem_uc Cert.KernelIdeal.main_arg1 (by decide))).trans (Cert.KernelIdeal.Run.W3_main_arg1 m ρ c),
      (h c _ (Cert.KernelIdeal.Run.mem_uc Cert.KernelIdeal.main_arg2 (by decide))).trans (Cert.KernelIdeal.Run.W3_main_arg2 m ρ c),
      (h c _ (Cert.KernelIdeal.Run.mem_uc Cert.KernelIdeal.main_arg3 (by decide))).trans (Cert.KernelIdeal.Run.W3_main_arg3 m ρ c)⟩
  · refine (θ_run Cert.ReferenceIdeal.defs _ _).mono (fun r h c => ⟨?_, (h c).2⟩) (Cert.ReferenceIdeal.RefValue.run_ref m' ρ')
    rw [(h c).1, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
